-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v53)) (v3 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_v54) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S100000 : Shape := ⟨1, ![100000]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x2 : Shape := ⟨2, ![1, 2]⟩
abbrev S_ : Shape := ⟨0, ![]⟩
abbrev S1x400000 : Shape := ⟨2, ![1, 400000]⟩
abbrev S400000 : Shape := ⟨1, ![400000]⟩
abbrev S400000x1 : Shape := ⟨2, ![400000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S1x2 : S_.BroadcastsInDim S1x2 (![] : Fin 0 → Fin S1x2.rank)
  reducesTo_S1x2_S_d0_1 : S1x2.ReducesTo [0, 1] S_
  bcast_S_S100000 : S_.BroadcastsInDim S100000 (![] : Fin 0 → Fin S100000.rank)
  slices_S2x400000_S1x400000_0_0 : S2x400000.Slices ![0, 0] S1x400000
  shapeCasts_S1x400000_S400000 : S1x400000.ShapeCasts S400000
  bcast_S400000_S400000x1_0 : S400000.BroadcastsInDim S400000x1 (![0] : Fin 1 → Fin S400000x1.rank)
  bcast_S_S400000 : S_.BroadcastsInDim S400000 (![] : Fin 0 → Fin S400000.rank)
  reducesTo_S100000_S_d0 : S100000.ReducesTo [0] S_
  scatter_S100000_S400000x1_S400000_n_0_0_1_wf : ScatterDims.WF S100000 S400000x1 S400000 [] [0] [0] 1

variable [Facts]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def fn_part5 {F : FTy → Type} [FloatOps F] (main_v78 : IVec S_ 1) (main_v84 : FVec F S100000 .f32) (main_cst_32 : FVec F S_ .f32) : IVec S_ 1 :=
  let main_v85 : FVec F S100000 .f32 := broadcastInDim S100000 ![] bcast_S_S100000 main_cst_32
  let main_v86 : IVec S100000 1 := cmpf .ogt main_v84 main_v85
  let main_c_33 : IVec S_ 1 := constantI S_ 1 1#1
  let main_v87 : IVec S_ 1 := (fun x v => Host.reduce IntOp.andi x v reducesTo_S100000_S_d0 h_S_) main_v86 main_c_33
  let main_v88 : IVec S_ 1 := andi main_v78 main_v87
  main_v88

def fn_part4 {F : FTy → Type} [FloatOps F] (main_arg1 : IVec S2x400000 32) (main_arg16 : FVec F S1x2 .f32) (main_arg17 : FVec F S1 .f32) (main_v63 : IVec S_ 1) (main_v67 : IVec S_ 1) : IVec S_ 1 :=
  let main_v68 : IVec S_ 1 := andi main_v63 main_v67
  let main_v69 : FVec F S1x2 .f32 := Host.absf main_arg16
  let main_cst_26 : FVec F S_ .f32 := constant S_ .f32 0x7F800000#32
  let main_v70 : FVec F S1x2 .f32 := broadcastInDim S1x2 ![] bcast_S_S1x2 main_cst_26
  let main_v71 : IVec S1x2 1 := cmpf .olt main_v69 main_v70
  let main_c_27 : IVec S_ 1 := constantI S_ 1 1#1
  let main_v72 : IVec S_ 1 := (fun x v => Host.reduce IntOp.andi x v reducesTo_S1x2_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_cst_30 : FVec F S_ .f32 := constant S_ .f32 0x00000000#32
  let main_v79 : FVec F S100000 .f32 := broadcastInDim S100000 ![] bcast_S_S100000 main_cst_30
  let main_v80 : IVec S1x400000 32 := (extractStridedSlice S1x400000 ![0, 0] · slices_S2x400000_S1x400000_0_0) main_arg1
  let main_v81 : IVec S400000 32 := shapeCast S400000 main_v80 shapeCasts_S1x400000_S400000
  let main_v82 : IVec S400000x1 32 := broadcastInDim S400000x1 ![0] bcast_S400000_S400000x1_0 main_v81
  let main_cst_31 : FVec F S_ .f32 := constant S_ .f32 0x3F800000#32
  let main_v83 : FVec F S400000 .f32 := broadcastInDim S400000 ![] bcast_S_S400000 main_cst_31
  let main_v84 : FVec F S100000 .f32 := (fun x i u => Host.scatterAdd scatter_S100000_S400000x1_S400000_n_0_0_1 x i u) main_v79 main_v82 main_v83
  let main_cst_32 : FVec F S_ .f32 := constant S_ .f32 0x40000000#32
  fn_part5 (F := F) main_v78 main_v84 main_cst_32

def fn_part3 {F : FTy → Type} [FloatOps F] (main_arg1 : IVec S2x400000 32) (main_arg13 : FVec F S1 .f32) (main_arg14 : FVec F S1x256 .f32) (main_arg15 : FVec F S1 .f32) (main_arg16 : FVec F S1x2 .f32) (main_arg17 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1x256 .f32 := Host.absf main_arg14
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_arg16 main_arg17 main_v63 main_v67

def fn_part2 {F : FTy → Type} [FloatOps F] (main_arg1 : IVec S2x400000 32) (main_arg9 : FVec F S256x256 .f32) (main_arg10 : FVec F S256 .f32) (main_arg11 : FVec F S256x256 .f32) (main_arg12 : FVec F S1x256 .f32) (main_arg13 : FVec F S1 .f32) (main_arg14 : FVec F S1x256 .f32) (main_arg15 : FVec F S1 .f32) (main_arg16 : FVec F S1x2 .f32) (main_arg17 : FVec F S1 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S1x256 .f32 := Host.absf main_arg12
  let main_cst_18 : FVec F S_ .f32 := constant S_ .f32 0x7F800000#32
  let main_v50 : FVec F S1x256 .f32 := broadcastInDim S1x256 ![] bcast_S_S1x256 main_cst_18
  fn_part3 (F := F) main_arg1 main_arg13 main_arg14 main_arg15 main_arg16 main_arg17 main_v48 main_v49 main_v50

def fn_part1 {F : FTy → Type} [FloatOps F] (main_arg1 : IVec S2x400000 32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S1x256 .f32) (main_arg13 : FVec F S1 .f32) (main_arg14 : FVec F S1x256 .f32) (main_arg15 : FVec F S1 .f32) (main_arg16 : FVec F S1x2 .f32) (main_arg17 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_v33

def fn {F : FTy → Type} [FloatOps F] (main_arg0 : FVec F S100000x128 .f32) (main_arg1 : IVec S2x400000 32) (main_arg2 : IVec S100000 32) (main_arg3 : FVec F S256x128 .f32) (main_arg4 : FVec F S256 .f32) (main_arg5 : FVec F S256x128 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S1x256 .f32) (main_arg13 : FVec F S1 .f32) (main_arg14 : FVec F S1x256 .f32) (main_arg15 : FVec F S1 .f32) (main_arg16 : FVec F S1x2 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x400000 : Shape := ⟨2, ![2, 400000]⟩
abbrev S100000 : Shape := ⟨1, ![100000]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x2 : Shape := ⟨2, ![1, 2]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S128x256 : Shape := ⟨2, ![128, 256]⟩
abbrev S100000x256 : Shape := ⟨2, ![100000, 256]⟩
abbrev S2000x128 : Shape := ⟨2, ![2000, 128]⟩
abbrev S2000x256 : Shape := ⟨2, ![2000, 256]⟩
abbrev S400000x256 : Shape := ⟨2, ![400000, 256]⟩
abbrev S50000x512 : Shape := ⟨2, ![50000, 512]⟩
abbrev S50000x256 : Shape := ⟨2, ![50000, 256]⟩
abbrev S1x1 : Shape := ⟨2, ![1, 1]⟩
abbrev S50000x1 : Shape := ⟨2, ![50000, 1]⟩
abbrev S2000x1 : Shape := ⟨2, ![2000, 1]⟩
abbrev S2000 : Shape := ⟨1, ![2000]⟩

abbrev nBuf : Space → Nat
  | .hbm => 86
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S100000, .i32⟩
  | .hbm, ⟨3, _⟩ => ⟨S256x128, .f32⟩
  | .hbm, ⟨4, _⟩ => ⟨S256, .f32⟩
  | .hbm, ⟨5, _⟩ => ⟨S256x128, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S1x256, .f32⟩
  | .hbm, ⟨13, _⟩ => ⟨S1, .f32⟩
  | .hbm, ⟨14, _⟩ => ⟨S1x256, .f32⟩
  | .hbm, ⟨15, _⟩ => ⟨S1, .f32⟩
  | .hbm, ⟨16, _⟩ => ⟨S1x2, .f32⟩
  | .hbm, ⟨17, _⟩ => ⟨S1, .f32⟩
  | .hbm, ⟨18, _⟩ => ⟨S1x400000, .i32⟩
  | .hbm, ⟨19, _⟩ => ⟨S400000, .i32⟩
  | .hbm, ⟨20, _⟩ => ⟨S1x400000, .i32⟩
  | .hbm, ⟨21, _⟩ => ⟨S400000, .i32⟩
  | .hbm, ⟨22, _⟩ => ⟨S100000x128, .bf16⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x128, .bf16⟩
  | .hbm, ⟨32, _⟩ => ⟨S400000x128, .f32⟩
  | .hbm, ⟨33, _⟩ => ⟨S_, .f32⟩
  | .hbm, ⟨34, _⟩ => ⟨S100000x128, .f32⟩
  | .hbm, ⟨35, _⟩ => ⟨S400000x1, .i32⟩
  | .hbm, ⟨36, _⟩ => ⟨S100000x128, .f32⟩
  | .hbm, ⟨37, _⟩ => ⟨S128x256, .f32⟩
  | .hbm, ⟨38, _⟩ => ⟨S128x256, .f32⟩
  | .hbm, ⟨39, _⟩ => ⟨S1x256, .f32⟩
  | .hbm, ⟨40, _⟩ => ⟨S100000x256, .f32⟩
  | .hbm, ⟨41, _⟩ => ⟨S100000x256, .bf16⟩
  | .hbm, ⟨42, _⟩ => ⟨S_, .i32⟩
  | .hbm, ⟨43, _⟩ => ⟨S400000, .i32⟩
  | .hbm, ⟨44, _⟩ => ⟨S400000, .i1⟩
  | .hbm, ⟨45, _⟩ => ⟨S_, .i32⟩
  | .hbm, ⟨46, _⟩ => ⟨S400000, .i32⟩
  | .hbm, ⟨47, _⟩ => ⟨S400000, .i32⟩
  | .hbm, ⟨48, _⟩ => ⟨S400000, .i32⟩
  | .hbm, ⟨49, _⟩ => ⟨S400000x1, .i32⟩
  | .hbm, ⟨50, _⟩ => ⟨S400000x256, .bf16⟩
  | .hbm, ⟨51, _⟩ => ⟨S400000x256, .f32⟩
  | .hbm, ⟨52, _⟩ => ⟨S_, .f32⟩
  | .hbm, ⟨53, _⟩ => ⟨S100000x256, .f32⟩
  | .hbm, ⟨54, _⟩ => ⟨S400000x1, .i32⟩
  | .hbm, ⟨55, _⟩ => ⟨S100000x256, .f32⟩
  | .hbm, ⟨56, _⟩ => ⟨S256x256, .f32⟩
  | .hbm, ⟨57, _⟩ => ⟨S256x256, .f32⟩
  | .hbm, ⟨58, _⟩ => ⟨S1x256, .f32⟩
  | .hbm, ⟨59, _⟩ => ⟨S100000x256, .f32⟩
  | .hbm, ⟨60, _⟩ => ⟨S100000x256, .bf16⟩
  | .hbm, ⟨61, _⟩ => ⟨S_, .i32⟩
  | .hbm, ⟨62, _⟩ => ⟨S400000, .i32⟩
  | .hbm, ⟨63, _⟩ => ⟨S400000, .i1⟩
  | .hbm, ⟨64, _⟩ => ⟨S_, .i32⟩
  | .hbm, ⟨65, _⟩ => ⟨S400000, .i32⟩
  | .hbm, ⟨66, _⟩ => ⟨S400000, .i32⟩
  | .hbm, ⟨67, _⟩ => ⟨S400000, .i32⟩
  | .hbm, ⟨68, _⟩ => ⟨S400000x1, .i32⟩
  | .hbm, ⟨69, _⟩ => ⟨S400000x256, .bf16⟩
  | .hbm, ⟨70, _⟩ => ⟨S400000x256, .f32⟩
  | .hbm, ⟨71, _⟩ => ⟨S_, .f32⟩
  | .hbm, ⟨72, _⟩ => ⟨S100000x256, .f32⟩
  | .hbm, ⟨73, _⟩ => ⟨S400000x1, .i32⟩
  | .hbm, ⟨74, _⟩ => ⟨S100000x256, .f32⟩
  | .hbm, ⟨75, _⟩ => ⟨S256x256, .f32⟩
  | .hbm, ⟨76, _⟩ => ⟨S256x256, .f32⟩
  | .hbm, ⟨77, _⟩ => ⟨S1x256, .f32⟩
  | .hbm, ⟨78, _⟩ => ⟨S100000x256, .f32⟩
  | .hbm, ⟨79, _⟩ => ⟨S50000x512, .f32⟩
  | .hbm, ⟨80, _⟩ => ⟨S50000x256, .f32⟩
  | .hbm, ⟨81, _⟩ => ⟨S50000x256, .f32⟩
  | .hbm, ⟨82, _⟩ => ⟨S1x1, .f32⟩
  | .hbm, ⟨83, _⟩ => ⟨S1x1, .f32⟩
  | .hbm, ⟨84, _⟩ => ⟨S1x1, .f32⟩
  | .hbm, ⟨85, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S1x256, .f32⟩
  | .local _ .vmem, ⟨32, _⟩ => ⟨S1x1, .f32⟩
  | .local _ .vmem, ⟨33, _⟩ => ⟨S1x256, .f32⟩
  | .local _ .vmem, ⟨34, _⟩ => ⟨S1x1, .f32⟩
  | .local _ .vmem, ⟨35, _⟩ => ⟨S1x2, .f32⟩
  | .local _ .vmem, ⟨36, _⟩ => ⟨S1x1, .f32⟩
  | .local _ .vmem, ⟨37, _⟩ => ⟨S2000x1, .f32⟩
  | .local _ .vmem, ⟨38, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_4 : Ref sig .tc := ⟨.hbm, 61, rfl⟩
abbrev main_v37 : Ref sig .tc := ⟨.hbm, 62, rfl⟩
abbrev main_v38 : Ref sig .tc := ⟨.hbm, 63, rfl⟩
abbrev main_c_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg8_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem8_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bitsLt_bf16_f32 : FTy.bits .bf16 < FTy.bits .f32
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  transposes_S256x256_S256x256_1_0 : S256x256.Transposes [1, 0] S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S100000x256_S50000x512 : S100000x256.ShapeCasts S50000x512
  slices_S50000x512_S50000x256_0_0 : S50000x512.Slices ![0, 0] S50000x256
  slices_S50000x512_S50000x256_0_256 : S50000x512.Slices ![0, 256] S50000x256
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2_S1x2_0_0 : ∀ a, (![0, 0] : Fin 2 → Nat) a + S1x2.size a ≤ S1x2.size a
  h_S1x2 : 0 < S1x2.numel
  reduces_S2000x256_S2000 : S2000x256.Reduces [1] S2000
  shapeCasts_S2000_S2000x1 : S2000.ShapeCasts S2000x1
  broadcasts_S1x1_S2000x1 : S1x1.Broadcasts S2000x1
  slices_S1x2_o0_0_S1x1 : S1x2.Slices ![0, 0] S1x1
  inpos_S1x1_p0_0 : ∀ a, (![0, 0] : Fin 2 → Nat) a < S1x1.size a
  slices_S1x2_o0_1_S1x1 : S1x2.Slices ![0, 1] S1x1
  inb_S2000x1_S2000x1_0_0 : ∀ a, (![0, 0] : Fin 2 → Nat) a + S2000x1.size a ≤ S2000x1.size a
  h_S2000x1 : 0 < S2000x1.numel
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S2000x128_S128x256_S2000x256_1_0_0_1_n_n_wf : DotDims.WF S2000x128 S128x256 S2000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S100000x256.size a
  hwx2_5 : ∀ i : grid2.Coords, EltTy.bits .f32 = 32 ∨ (Rect.block (s := S100000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x1.size a ≤ S50000x1.size a
  hwx3_8 : ∀ i : grid3.Coords, EltTy.bits .f32 = 32 ∨ (Rect.block (s := S50000x1) S2000x1.size (cc3_transform_8 i) (hinb3_8 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v15) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v58) S2000x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S100000 : Shape := ⟨1, ![100000]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x2 : Shape := ⟨2, ![1, 2]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S128x256 : Shape := ⟨2, ![128, 256]⟩
abbrev S100000x256 : Shape := ⟨2, ![100000, 256]⟩
abbrev S400000x256 : Shape := ⟨2, ![400000, 256]⟩
abbrev S100000x1 : Shape := ⟨2, ![100000, 1]⟩
abbrev S50000x512 : Shape := ⟨2, ![50000, 512]⟩
abbrev S50000x256 : Shape := ⟨2, ![50000, 256]⟩
abbrev S256x1 : Shape := ⟨2, ![256, 1]⟩
abbrev S50000x1 : Shape := ⟨2, ![50000, 1]⟩
abbrev S1x1 : Shape := ⟨2, ![1, 1]⟩
abbrev S50000x2 : Shape := ⟨2, ![50000, 2]⟩
abbrev S2x1 : Shape := ⟨2, ![2, 1]⟩

abbrev nBuf : Space → Nat
  | .hbm => 218
  | .vmem => 0
  | .smem => 0
  | _ => 0

abbrev hbmTy0_0 (i : Nat) : BufTy := match i % 128 with
  | 0 => ⟨S100000x128, .f32⟩
  | 1 => ⟨S2x400000, .i32⟩
  | 2 => ⟨S100000, .i32⟩
  | 3 => ⟨S256x128, .f32⟩
  | 4 => ⟨S256, .f32⟩
  | 5 => ⟨S256x128, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S1x256, .f32⟩
  | 13 => ⟨S1, .f32⟩
  | 14 => ⟨S1x256, .f32⟩
  | 15 => ⟨S1, .f32⟩
  | 16 => ⟨S1x2, .f32⟩
  | 17 => ⟨S1, .f32⟩
  | 18 => ⟨S1x400000, .i32⟩
  | 19 => ⟨S400000, .i32⟩
  | 20 => ⟨S1x400000, .i32⟩
  | 21 => ⟨S400000, .i32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x128, .f32⟩
  | 31 => ⟨S_, .f32⟩
  | 32 => ⟨S100000x128, .f32⟩
  | 33 => ⟨S400000x1, .i32⟩
  | 34 => ⟨S100000x128, .f32⟩
  | 35 => ⟨S128x256, .f32⟩
  | 36 => ⟨S100000x256, .f32⟩
  | 37 => ⟨S1x256, .f32⟩
  | 38 => ⟨S100000x256, .f32⟩
  | 39 => ⟨S100000x256, .f32⟩
  | 40 => ⟨S128x256, .f32⟩
  | 41 => ⟨S100000x256, .f32⟩
  | 42 => ⟨S100000x256, .f32⟩
  | 43 => ⟨S_, .f32⟩
  | 44 => ⟨S100000x256, .f32⟩
  | 45 => ⟨S100000x256, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000x256, .f32⟩
  | 55 => ⟨S_, .f32⟩
  | 56 => ⟨S100000x256, .f32⟩
  | 57 => ⟨S400000x1, .i32⟩
  | 58 => ⟨S100000x256, .f32⟩
  | 59 => ⟨S256x256, .f32⟩
  | 60 => ⟨S100000x256, .f32⟩
  | 61 => ⟨S1x256, .f32⟩
  | 62 => ⟨S100000x256, .f32⟩
  | 63 => ⟨S100000x256, .f32⟩
  | 64 => ⟨S256x256, .f32⟩
  | 65 => ⟨S100000x256, .f32⟩
  | 66 => ⟨S100000x256, .f32⟩
  | 67 => ⟨S_, .f32⟩
  | 68 => ⟨S100000x256, .f32⟩
  | 69 => ⟨S100000x256, .f32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S400000x256, .f32⟩
  | 79 => ⟨S_, .f32⟩
  | 80 => ⟨S100000x256, .f32⟩
  | 81 => ⟨S400000x1, .i32⟩
  | 82 => ⟨S100000x256, .f32⟩
  | 83 => ⟨S256x256, .f32⟩
  | 84 => ⟨S100000x256, .f32⟩
  | 85 => ⟨S1x256, .f32⟩
  | 86 => ⟨S100000x256, .f32⟩
  | 87 => ⟨S100000x256, .f32⟩
  | 88 => ⟨S256x256, .f32⟩
  | 89 => ⟨S100000x256, .f32⟩
  | 90 => ⟨S100000x256, .f32⟩
  | 91 => ⟨S_, .f32⟩
  | 92 => ⟨S100000x256, .f32⟩
  | 93 => ⟨S100000x256, .f32⟩
  | 94 => ⟨S_, .f32⟩
  | 95 => ⟨S400000, .f32⟩
  | 96 => ⟨S_, .f32⟩
  | 97 => ⟨S100000, .f32⟩
  | 98 => ⟨S400000x1, .i32⟩
  | 99 => ⟨S100000, .f32⟩
  | 100 => ⟨S_, .f32⟩
  | 101 => ⟨S100000, .f32⟩
  | 102 => ⟨S100000, .i1⟩
  | 103 => ⟨S100000, .i32⟩
  | 104 => ⟨S_, .i32⟩
  | 105 => ⟨S_, .i32⟩
  | 106 => ⟨S100000, .i32⟩
  | 107 => ⟨S_, .i32⟩
  | 108 => ⟨S100000, .i32⟩
  | 109 => ⟨S_, .i32⟩
  | 110 => ⟨S_, .i32⟩
  | 111 => ⟨S100000, .i32⟩
  | 112 => ⟨S100000, .i32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S_, .i32⟩
  | 122 => ⟨S100000, .i32⟩
  | 123 => ⟨S100000, .i32⟩
  | 124 => ⟨S_, .i32⟩
  | 125 => ⟨S_, .i32⟩
  | 126 => ⟨S100000, .i32⟩
  | 127 => ⟨S_, .i32⟩
  | _ => ⟨S100000x128, .f32⟩

abbrev hbmTy0_1 (i : Nat) : BufTy := match i % 128 with
  | 0 => ⟨S100000, .i32⟩
  | 1 => ⟨S100000, .i32⟩
  | 2 => ⟨S100000, .i32⟩
  | 3 => ⟨S_, .i32⟩
  | 4 => ⟨S100000, .i32⟩
  | 5 => ⟨S100000, .i1⟩
  | 6 => ⟨S100000, .i32⟩
  | 7 => ⟨S100000, .i32⟩
  | 8 => ⟨S_, .i32⟩
  | 9 => ⟨S100000, .i32⟩
  | 10 => ⟨S100000, .i1⟩
  | 11 => ⟨S100000, .i1⟩
  | 12 => ⟨S_, .i32⟩
  | 13 => ⟨S100000, .i32⟩
  | 14 => ⟨S100000, .i32⟩
  | 15 => ⟨S100000, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S100000, .i32⟩
  | 23 => ⟨S100000, .i32⟩
  | 24 => ⟨S_, .i32⟩
  | 25 => ⟨S100000, .i32⟩
  | 26 => ⟨S100000, .i1⟩
  | 27 => ⟨S_, .i32⟩
  | 28 => ⟨S100000, .i32⟩
  | 29 => ⟨S100000, .i1⟩
  | 30 => ⟨S_, .i32⟩
  | 31 => ⟨S_, .i1⟩
  | 32 => ⟨S100000, .i1⟩
  | 33 => ⟨S100000, .i1⟩
  | 34 => ⟨S100000, .i1⟩
  | 35 => ⟨S100000, .i32⟩
  | 36 => ⟨S100000, .i32⟩
  | 37 => ⟨S100000, .i32⟩
  | 38 => ⟨S100000, .i32⟩
  | 39 => ⟨S100000, .i32⟩
  | 40 => ⟨S_, .i32⟩
  | 41 => ⟨S_, .i32⟩
  | 42 => ⟨S100000, .i32⟩
  | 43 => ⟨S100000, .i1⟩
  | 44 => ⟨S_, .i32⟩
  | 45 => ⟨S_, .i32⟩
  | 46 => ⟨S100000, .i32⟩
  | 47 => ⟨S100000, .i32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S100000x256, .f32⟩
  | 57 => ⟨S50000x512, .f32⟩
  | 58 => ⟨S50000x256, .f32⟩
  | 59 => ⟨S50000x256, .f32⟩
  | 60 => ⟨S256x1, .f32⟩
  | 61 => ⟨S50000x1, .f32⟩
  | 62 => ⟨S1x1, .f32⟩
  | 63 => ⟨S50000x1, .f32⟩
  | 64 => ⟨S50000x1, .f32⟩
  | 65 => ⟨S_, .f32⟩
  | 66 => ⟨S50000x1, .f32⟩
  | 67 => ⟨S50000x1, .f32⟩
  | 68 => ⟨S256x1, .f32⟩
  | 69 => ⟨S50000x1, .f32⟩
  | 70 => ⟨S1x1, .f32⟩
  | 71 => ⟨S50000x1, .f32⟩
  | 72 => ⟨S50000x1, .f32⟩
  | 73 => ⟨S_, .f32⟩
  | 74 => ⟨S50000x1, .f32⟩
  | 75 => ⟨S50000x1, .f32⟩
  | 76 => ⟨S50000x2, .f32⟩
  | 77 => ⟨S2x1, .f32⟩
  | 78 => ⟨S50000x1, .f32⟩
  | 79 => ⟨S1x1, .f32⟩
  | 80 => ⟨S50000x1, .f32⟩
  | 81 => ⟨S50000x1, .f32⟩
  | 82 => ⟨S50000x1, .f32⟩
  | 83 => ⟨S50000x1, .f32⟩
  | 84 => ⟨S_, .f32⟩
  | 85 => ⟨S50000x1, .f32⟩
  | 86 => ⟨S50000x1, .f32⟩
  | 87 => ⟨S_, .f32⟩
  | 88 => ⟨S50000x1, .f32⟩
  | 89 => ⟨S50000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call0_cst : Ref sig .tc := ⟨.hbm, 43, rfl⟩
abbrev main_call0_v0 : Ref sig .tc := ⟨.hbm, 44, rfl⟩
abbrev main_v22 : Ref sig .tc := ⟨.hbm, 45, rfl⟩
abbrev main_c_1 : Ref sig .tc := ⟨.hbm, 46, rfl⟩
abbrev main_v23 : Ref sig .tc := ⟨.hbm, 47, rfl⟩
abbrev main_v24 : Ref sig .tc := ⟨.hbm, 48, rfl⟩
abbrev main_c_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call1_cst : Ref sig .tc := ⟨.hbm, 67, rfl⟩
abbrev main_call1_v0 : Ref sig .tc := ⟨.hbm, 68, rfl⟩
abbrev main_v41 : Ref sig .tc := ⟨.hbm, 69, rfl⟩
abbrev main_c_4 : Ref sig .tc := ⟨.hbm, 70, rfl⟩
abbrev main_v42 : Ref sig .tc := ⟨.hbm, 71, rfl⟩
abbrev main_v43 : Ref sig .tc := ⟨.hbm, 72, rfl⟩
abbrev main_c_5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call2_cst : Ref sig .tc := ⟨.hbm, 91, rfl⟩
abbrev main_call2_v0 : Ref sig .tc := ⟨.hbm, 92, rfl⟩
abbrev main_v60 : Ref sig .tc := ⟨.hbm, 93, rfl⟩
abbrev main_cst_7 : Ref sig .tc := ⟨.hbm, 94, rfl⟩
abbrev main_v61 : Ref sig .tc := ⟨.hbm, 95, rfl⟩
abbrev main_cst_8 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_9 : Ref sig .tc := ⟨.hbm, 100, rfl⟩
abbrev main_v65 : Ref sig .tc := ⟨.hbm, 101, rfl⟩
abbrev main_v66 : Ref sig .tc := ⟨.hbm, 102, rfl⟩
abbrev main_call3_v0 : Ref sig .tc := ⟨.hbm, 103, rfl⟩
abbrev main_call3_call0_c : Ref sig .tc := ⟨.hbm, 104, rfl⟩
abbrev main_call3_call0_v0 : Ref sig .tc := ⟨.hbm, 105, rfl⟩
abbrev main_v67 : Ref sig .tc := ⟨.hbm, 106, rfl⟩
abbrev main_c_10 : Ref sig .tc := ⟨.hbm, 107, rfl⟩
abbrev main_v68 : Ref sig .tc := ⟨.hbm, 108, rfl⟩
abbrev main_c_11 : Ref sig .tc := ⟨.hbm, 109, rfl⟩
abbrev main_call4_v0 : Ref sig .tc := ⟨.hbm, 110, rfl⟩
abbrev main_call4_v1 : Ref sig .tc := ⟨.hbm, 111, rfl⟩
abbrev main_v69 : Ref sig .tc := ⟨.hbm, 112, rfl⟩
abbrev main_c_12 : Ref sig .tc := ⟨.hbm, 113, rfl⟩
abbrev main_v70 : Ref sig .tc := ⟨.hbm, 114, rfl⟩
abbrev main_v71 : Ref sig .tc := ⟨.hbm, 115, rfl⟩
abbrev main_c_13 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_c_14 : Ref sig .tc := ⟨.hbm, 121, rfl⟩
abbrev main_v76 : Ref sig .tc := ⟨.hbm, 122, rfl⟩
abbrev main_v77 : Ref sig .tc := ⟨.hbm, 123, rfl⟩
abbrev main_call5_call0_c : Ref sig .tc := ⟨.hbm, 124, rfl⟩
abbrev main_call5_call0_v0 : Ref sig .tc := ⟨.hbm, 125, rfl⟩
abbrev main_v78 : Ref sig .tc := ⟨.hbm, 126, rfl⟩
abbrev main_c_15 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_call6_v5 : Ref sig .tc := ⟨.hbm, 133, rfl⟩
abbrev main_call6_v6 : Ref sig .tc := ⟨.hbm, 134, rfl⟩
abbrev main_call6_v7 : Ref sig .tc := ⟨.hbm, 135, rfl⟩
abbrev main_call6_c : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_c_0 : Ref sig .tc := ⟨.hbm, 140, rfl⟩
abbrev main_call6_v11 : Ref sig .tc := ⟨.hbm, 141, rfl⟩
abbrev main_call6_v12 : Ref sig .tc := ⟨.hbm, 142, rfl⟩
abbrev main_v79 : Ref sig .tc := ⟨.hbm, 143, rfl⟩
abbrev main_c_16 : Ref sig .tc := ⟨.hbm, 144, rfl⟩
abbrev main_call7_v0 : Ref sig .tc := ⟨.hbm, 145, rfl⟩
abbrev main_call7_c : Ref sig .tc := ⟨.hbm, 146, rfl⟩
abbrev main_call7_v1 : Ref sig .tc := ⟨.hbm, 147, rfl⟩
abbrev main_call7_c_0 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_c_1 : Ref sig .tc := ⟨.hbm, 152, rfl⟩
abbrev main_call7_v5 : Ref sig .tc := ⟨.hbm, 153, rfl⟩
abbrev main_call7_v6 : Ref sig .tc := ⟨.hbm, 154, rfl⟩
abbrev main_call7_c_2 : Ref sig .tc := ⟨.hbm, 155, rfl⟩
abbrev main_call7_v7 : Ref sig .tc := ⟨.hbm, 156, rfl⟩
abbrev main_call7_v8 : Ref sig .tc := ⟨.hbm, 157, rfl⟩
abbrev main_call7_c_3 : Ref sig .tc := ⟨.hbm, 158, rfl⟩
abbrev main_call7_v9 : Ref sig .tc := ⟨.hbm, 159, rfl⟩
abbrev main_call7_v10 : Ref sig .tc := ⟨.hbm, 160, rfl⟩
abbrev main_call7_v11 : Ref sig .tc := ⟨.hbm, 161, rfl⟩
abbrev main_call7_v12 : Ref sig .tc := ⟨.hbm, 162, rfl⟩
abbrev main_call7_v13 : Ref sig .tc := ⟨.hbm, 163, rfl⟩
abbrev main_call7_v14 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_c_17 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_c_18 : Ref sig .tc := ⟨.hbm, 172, rfl⟩
abbrev main_call8_v0 : Ref sig .tc := ⟨.hbm, 173, rfl⟩
abbrev main_call8_v1 : Ref sig .tc := ⟨.hbm, 174, rfl⟩
abbrev main_v86 : Ref sig .tc := ⟨.hbm, 175, rfl⟩
abbrev main_c_19 : Ref sig .tc := ⟨.hbm, 176, rfl⟩
abbrev main_v87 : Ref sig .tc := ⟨.hbm, 177, rfl⟩
abbrev main_v88 : Ref sig .tc := ⟨.hbm, 178, rfl⟩
abbrev main_c_20 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_call9_cst : Ref sig .tc := ⟨.hbm, 193, rfl⟩
abbrev main_call9_v0 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_call10_cst : Ref sig .tc := ⟨.hbm, 201, rfl⟩
abbrev main_call10_v0 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_21 : Ref sig .tc := ⟨.hbm, 212, rfl⟩
abbrev main_v117 : Ref sig .tc := ⟨.hbm, 213, rfl⟩
abbrev main_v118 : Ref sig .tc := ⟨.hbm, 214, rfl⟩
abbrev main_cst_22 : Ref sig .tc := ⟨.hbm, 215, rfl⟩
abbrev main_v119 : Ref sig .tc := ⟨.hbm, 216, rfl⟩
abbrev main_v120 : Ref sig .tc := ⟨.hbm, 217, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S256x256_S256x256_1_0 : S256x256.Transposes [1, 0] S256x256
  bcast_S_S100000 : S_.BroadcastsInDim S100000 (![] : Fin 0 → Fin S100000.rank)
  natLt_1_32 : 1 < 32
  bcast_S_S_ : S_.BroadcastsInDim S_ (![] : Fin 0 → Fin S_.rank)
  reduceWindows_S100000_S100000_w100000s1p99999_0 : S100000.ReduceWindows (![100000] : Fin 1 → Nat) ![1] ![99999] ![0] S100000
  h_S_ : 0 < S_.numel
  bcast_S100000_S100000x1_0 : S100000.BroadcastsInDim S100000x1 (![0] : Fin 1 → Fin S100000x1.rank)
  reducesTo_S100000_S_d0 : S100000.ReducesTo [0] S_
  shapeCasts_S100000x256_S50000x512 : S100000x256.ShapeCasts S50000x512
  slices_S50000x512_S50000x256_0_0 : S50000x512.Slices ![0, 0] S50000x256
  slices_S50000x512_S50000x256_0_256 : S50000x512.Slices ![0, 256] S50000x256
  transposes_S1x256_S256x1_1_0 : S1x256.Transposes [1, 0] S256x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  concatenates_S50000x1_S50000x1_S50000x2_d1 : Shape.Concatenates [S50000x1, S50000x1] S50000x2 1
  transposes_S1x2_S2x1_1_0 : S1x2.Transposes [1, 0] S2x1
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x256_S100000x256_1_0_0_1_n_n_wf : DotDims.WF S100000x128 S128x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x256_S100000x256_1_0_0_1_n_n_wf : DotDims.WF S100000x256 S256x256 S100000x256 [1] [0] [0] [1] [] []
  scatter_S100000_S400000x1_S400000_n_0_0_1_wf : ScatterDims.WF S100000 S400000x1 S400000 [] [0] [0] 1
  scatter_S100000_S100000x1_S100000_n_0_0_1_wf : ScatterDims.WF S100000 S100000x1 S100000 [] [0] [0] 1
  gather_S100000x256_S100000x1_S100000x256_1_0_n_n_0_1_1256_wf : GatherDims.WF S100000x256 S100000x1 S100000x256 [1] [0] [] [0] [] 1 ![1, 256]
  dot_S50000x256_S256x1_S50000x1_1_0_0_1_n_n_wf : DotDims.WF S50000x256 S256x1 S50000x1 [1] [0] [0] [1] [] []
  dot_S50000x2_S2x1_S50000x1_1_0_0_1_n_n_wf : DotDims.WF S50000x2 S2x1 S50000x1 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x256_S100000x1_S100000x256_1_0_n_n_0_1_1256 : GatherDims S100000x256 S100000x1 S100000x256 where
  offsetDims := [1]
  collapsedSliceDims := [0]
  operandBatchingDims := []
  startIndicesBatchingDims := []
  startIndexMap := [0]
  indexVectorDim := 1
  sliceSizes := ![1, 256]
  wf := gather_S100000x256_S100000x1_S100000x256_1_0_n_n_0_1_1256_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def dot_S50000x2_S2x1_S50000x1_1_0_0_1_n_n : DotDims S50000x2 S2x1 S50000x1 where
  lhsContracting := [1]
  rhsContracting := [0]
  lhsNonContracting := [0]
  rhsNonContracting := [1]
  lhsBatch := []
  rhsBatch := []
  wf := dot_S50000x2_S2x1_S50000x1_1_0_0_1_n_n_wf

class Facts : Prop extends Facts₀ where

variable [Facts]
-- ==== Proof.KernelRun.lean ====
/-
  The idealized kernel program's run with its four result buffers named.

  @main is eight segments: a stretch of host operations, then a grid of kernel launches, four times over. The buffer
  contents at the eight boundaries are a fold from the launch memory (`Gen.W0 … Gen.W8`): a host stretch applies its
  operations, a launch leaves each of its arrays at what its write-backs fold to and every other buffer alone. Every weakly
  fair execution ends with every unscoped buffer at the last fold `Gen.W8`; read at the four results (the head's output y, the
  paired hidden rows xs and its two halves x1, x2) and at the eighteen arguments, that is the post below.
-/
import proofs.«173128_j60224031425324_2_alg».proof.Proof.GenP.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each of the four results at the last fold's
    contents of its buffer and every argument array as launched. -/
theorem run_results : θ_run defs (onTc (τ := τ) (main (F := F))) ⟨m, fun _ => 0, ρ⟩ (fun r => ∀ c : Dev nD,
      (r.2.mem ((c.tc : Thread nD τ).loc main_v58) = W8 m ρ c (Proc.devRef .tc main_v58)
       ∧ r.2.mem ((c.tc : Thread nD τ).loc main_v52) = W8 m ρ c (Proc.devRef .tc main_v52)
       ∧ r.2.mem ((c.tc : Thread nD τ).loc main_v53) = W8 m ρ c (Proc.devRef .tc main_v53)
       ∧ r.2.mem ((c.tc : Thread nD τ).loc main_v54) = W8 m ρ c (Proc.devRef .tc main_v54))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨⟨h c _ (mem_uc main_v58 (by decide)),
        h c _ (mem_uc main_v52 (by decide)),
        h c _ (mem_uc main_v53 (by decide)),
        h c _ (mem_uc main_v54 (by decide))⟩,
      ⟨(h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩⟩)

end Cert.KernelIdeal.Run

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibGraphConv.lean ====
/-
  One graph-convolution layer on the extended reals, entry by entry.

  For an aggregated table `a : [n, K]`, the hidden table `x : [n, K]`, two weights `wl, wr : [K, d]` and a bias row
  `b : [1, d]`, entry (r, j) of the layer is
      max ((∑ k, a (r, k) · wl (k, j) + ∑ k, x (r, k) · wr (k, j)) + b (0, j)) 0.
  An entry reads row r of the two tables, column j of the two weights and entry j of the bias, so it is the same whether it
  is computed on the whole tables or on a band of rows that holds row r. Addition on the extended reals is commutative and
  associative, so adding the bias before or after the second product gives the same entry; nothing here needs finiteness.
-/
import proofs.«173128_j60224031425324_2_alg».proof.Proof.LibDense

noncomputable section

namespace Cert.GraphConv

open Idealize.ShloMosaic Idealize.ShloMosaic.ValueIdx Cert.LibDense

/-- The first (only) row position of a one-row table. -/
abbrev row0 : Fin 1 := ⟨0, Nat.one_pos⟩

/-- Entry (r, j) of the layer: the larger of `(a·wl + x·wr) + b` and the zero word's value. -/
def layer {n K d : ℕ} (a x : (⟨2, ![n, K]⟩ : Shape).Idx → EReal) (wl wr : (⟨2, ![K, d]⟩ : Shape).Idx → EReal)
    (b : (⟨2, ![1, d]⟩ : Shape).Idx → EReal) : (⟨2, ![n, d]⟩ : Shape).Idx → EReal :=
  fun i => max ((prod a wl i + prod x wr i) + b (ix2 row0 (i 1))) (Ideal.ofBits .f32 0x00000000#32)

/-- Two sets of operands that agree on the row, the columns and the bias entry an entry reads give the same entry. -/
theorem layer_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨2, ![1, d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix2 row0 (i 1)) = b' (ix2 row0 (i' 1))) :
    layer a x wl wr b i = layer a' x' wl' wr' b' i' := by
  unfold layer prod
  rw [hb, Finset.sum_congr rfl (fun k _ => congrArg₂ (· * ·) (ha k) (hwl k)),
    Finset.sum_congr rfl (fun k _ => congrArg₂ (· * ·) (hx k) (hwr k))]

/-- The same, with the agreement stated through coordinates: whatever positions of the operands have the row, the column and
    the contraction coordinate an entry reads, the operands agree there. -/
theorem layer_congr_coords {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨2, ![1, d]⟩ : Shape).Idx → EReal)
    (i : (⟨2, ![n, d]⟩ : Shape).Idx) (i' : (⟨2, ![n', d]⟩ : Shape).Idx)
    (ha : ∀ (y : (⟨2, ![n, K]⟩ : Shape).Idx) (y' : (⟨2, ![n', K]⟩ : Shape).Idx),
      (y 0).val = (i 0).val → (y' 0).val = (i' 0).val → (y 1).val = (y' 1).val → a y = a' y')
    (hx : ∀ (y : (⟨2, ![n, K]⟩ : Shape).Idx) (y' : (⟨2, ![n', K]⟩ : Shape).Idx),
      (y 0).val = (i 0).val → (y' 0).val = (i' 0).val → (y 1).val = (y' 1).val → x y = x' y')
    (hwl : ∀ (y y' : (⟨2, ![K, d]⟩ : Shape).Idx), (y 0).val = (y' 0).val → (y 1).val = (i 1).val → (y' 1).val = (i' 1).val → wl y = wl' y')
    (hwr : ∀ (y y' : (⟨2, ![K, d]⟩ : Shape).Idx), (y 0).val = (y' 0).val → (y 1).val = (i 1).val → (y' 1).val = (i' 1).val → wr y = wr' y')
    (hb : ∀ (y y' : (⟨2, ![1, d]⟩ : Shape).Idx), (y 1).val = (i 1).val → (y' 1).val = (i' 1).val → b y = b' y') :
    layer a x wl wr b i = layer a' x' wl' wr' b' i' :=
  layer_congr a x a' x' wl wr wl' wr' b b' i i'
    (fun k => ha _ _ rfl rfl rfl) (fun k => hx _ _ rfl rfl rfl) (fun k => hwl _ _ rfl rfl rfl) (fun k => hwr _ _ rfl rfl rfl)
    (hb _ _ rfl rfl)

/-- The bias added before the second product instead of after it: the same entry. -/
theorem layer_bias_first {n K d : ℕ} (a x : (⟨2, ![n, K]⟩ : Shape).Idx → EReal) (wl wr : (⟨2, ![K, d]⟩ : Shape).Idx → EReal)
    (b : (⟨2, ![1, d]⟩ : Shape).Idx → EReal) (i : (⟨2, ![n, d]⟩ : Shape).Idx) :
    max ((prod a wl i + b (ix2 row0 (i 1))) + prod x wr i) (Ideal.ofBits .f32 0x00000000#32) = layer a x wl wr b i := by
  unfold layer
  rw [add_right_comm]

/-- A one-row table broadcast down `n` rows, at entry (r, j), is its entry (0, j). -/
theorem row_bcast {n d : ℕ} (b : (⟨2, ![1, d]⟩ : Shape).Idx → EReal) (h2 : (⟨2, ![1, d]⟩ : Shape).Broadcasts ⟨2, ![n, d]⟩)
    (i : (⟨2, ![n, d]⟩ : Shape).Idx) : broadcastTo ⟨2, ![n, d]⟩ b h2 i = b (ix2 row0 (i 1)) := by
  refine broadcastTo_apply _ h2 i (ix2 row0 (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

end Cert.GraphConv

end
-- ==== Proof.Region0.lean ====
/-
  Launch 0 of the kernel program, read as one table.

  The launch walks `grid0`'s 50 points; point t stages rows [2000 t, 2000 t + 2000) of the aggregated table and of the hidden
  table (all 128 columns), the two whole weights and the bias row, and writes back rows [2000 t, 2000 t + 2000) of the output. The
  body is one graph-convolution layer on those bands (two matrix products into a zero accumulator, the bias row added to every
  row, the rectifier); an entry of a layer reads one row of the tables, so the band's entry (p, q) is the whole tables' entry
  (2000 t + p, q). The 50 bands tile the 100000 rows, so after the launch the output array is the layer of the arrays the
  launch found.
-/
import proofs.«173128_j60224031425324_2_alg».proof.Proof.GenP.KernelIdeal.Frame
import proofs.«173128_j60224031425324_2_alg».proof.Proof.LibGraphConv

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Cert.LibDense Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry is the layer of its five loaded bands at that entry: the format changes are the
    identity on the extended reals, each matrix product into the zero accumulator is the row-by-column sum. -/
theorem pay_apply (v0 v3 : Vec Ideal S2000x128 .f32) (v6 v9 : Vec Ideal S128x256 .f32) (v14 : Vec Ideal S1x256 .f32) (j : S2000x256.Idx) :
    k0_pay1 (F := Ideal) v0 v3 v6 v9 v14 j = layer (n := 2000) (K := 128) (d := 256) v0 v3 v6 v9 v14 j := by
  unfold k0_pay1
  simp only [shapeCast_self]
  unfold layer
  refine congrArg₂ max (congrArg₂ (· + ·) (congrArg₂ (· + ·) ?_ ?_) ?_) rfl
  · exact matmul_plain (M := 2000) (K := 128) (N := 256) (φ₁ := .bf16) (φ₂ := .bf16) v0 v6 j
  · exact matmul_plain (M := 2000) (K := 128) (N := 256) (φ₁ := .bf16) (φ₂ := .bf16) v3 v9 j
  · exact row_bcast (n := 2000) (d := 256) v14 broadcasts_S1x256_S2000x256 j

/-- The output table of the launch: the layer of the five arrays as the launch finds them. -/
def G (c : Dev nD) : S100000x256.Idx → EReal :=
  layer (n := 100000) (K := 128) (d := 256) (V c (Pipeline.arrRef spec0 0)) (V c (Pipeline.arrRef spec0 1))
    (V c (Pipeline.arrRef spec0 2)) (V c (Pipeline.arrRef spec0 3)) (V c (Pipeline.arrRef spec0 4))

/-- The printed block-index maps over the grid: the two tables and the output move down one band per point, the weights and
    the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem points : cfg0.N = 50 := by decide

set_option maxHeartbeats 1000000 in
/-- What point t writes back is band t of the output table. -/
theorem flushed (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  obtain ⟨e00, e01, e10, e11, e20, e21, e30, e31, e40, e41, e50, e51⟩ := idx_facts t
  funext j
  show k0_pay1 (iblk0 V c 0 t) (iblk0 V c 1 t) (iblk0 V c 2 t) (iblk0 V c 3 t) (iblk0 V c 4 t) j
      = G V c (((cfg0.win 5).blk t).view.emb j)
  refine (pay_apply (iblk0 V c 0 t) (iblk0 V c 1 t) (iblk0 V c 2 t) (iblk0 V c 3 t) (iblk0 V c 4 t) j).trans ?_
  have r0 : ((((cfg0.win 5).blk t).view.emb j) 0).val = win0_5.index t (0 : Fin 2) * 2000 + 1 * (j 0).val := rfl
  have r1 : ((((cfg0.win 5).blk t).view.emb j) 1).val = win0_5.index t (1 : Fin 2) * 256 + 1 * (j 1).val := rfl
  unfold G
  refine layer_congr_coords _ _ _ _ _ _ _ _ _ _ j (((cfg0.win 5).blk t).view.emb j)
    (fun y y' h0 h0' h1 => ?_) (fun y y' h0 h0' h1 => ?_) (fun y y' h0 h1 h1' => ?_) (fun y y' h0 h1 h1' => ?_) (fun y y' h1 h1' => ?_)
  · show V c (Pipeline.arrRef spec0 0) (((cfg0.win 0).blk t).view.emb y) = V c (Pipeline.arrRef spec0 0) y'
    refine congrArg (V c (Pipeline.arrRef spec0 0)) (funext fun a => Fin.ext ?_)
    match a with
    | ⟨0, _⟩ => show win0_0.index t (0 : Fin 2) * 2000 + 1 * (y 0).val = (y' 0).val; omega
    | ⟨1, _⟩ => show win0_0.index t (1 : Fin 2) * 128 + 1 * (y 1).val = (y' 1).val; omega
  · show V c (Pipeline.arrRef spec0 1) (((cfg0.win 1).blk t).view.emb y) = V c (Pipeline.arrRef spec0 1) y'
    refine congrArg (V c (Pipeline.arrRef spec0 1)) (funext fun a => Fin.ext ?_)
    match a with
    | ⟨0, _⟩ => show win0_1.index t (0 : Fin 2) * 2000 + 1 * (y 0).val = (y' 0).val; omega
    | ⟨1, _⟩ => show win0_1.index t (1 : Fin 2) * 128 + 1 * (y 1).val = (y' 1).val; omega
  · show V c (Pipeline.arrRef spec0 2) (((cfg0.win 2).blk t).view.emb y) = V c (Pipeline.arrRef spec0 2) y'
    refine congrArg (V c (Pipeline.arrRef spec0 2)) (funext fun a => Fin.ext ?_)
    match a with
    | ⟨0, _⟩ => show win0_2.index t (0 : Fin 2) * 128 + 1 * (y 0).val = (y' 0).val; omega
    | ⟨1, _⟩ => show win0_2.index t (1 : Fin 2) * 256 + 1 * (y 1).val = (y' 1).val; omega
  · show V c (Pipeline.arrRef spec0 3) (((cfg0.win 3).blk t).view.emb y) = V c (Pipeline.arrRef spec0 3) y'
    refine congrArg (V c (Pipeline.arrRef spec0 3)) (funext fun a => Fin.ext ?_)
    match a with
    | ⟨0, _⟩ => show win0_3.index t (0 : Fin 2) * 128 + 1 * (y 0).val = (y' 0).val; omega
    | ⟨1, _⟩ => show win0_3.index t (1 : Fin 2) * 256 + 1 * (y 1).val = (y' 1).val; omega
  · show V c (Pipeline.arrRef spec0 4) (((cfg0.win 4).blk t).view.emb y) = V c (Pipeline.arrRef spec0 4) y'
    refine congrArg (V c (Pipeline.arrRef spec0 4)) (funext fun a => Fin.ext ?_)
    have hy0 : (y 0).val < 1 := (y 0).isLt
    have hy0' : (y' 0).val < 1 := (y' 0).isLt
    match a with
    | ⟨0, _⟩ => show win0_4.index t (0 : Fin 2) * 1 + 1 * (y 0).val = (y' 0).val; omega
    | ⟨1, _⟩ => show win0_4.index t (1 : Fin 2) * 256 + 1 * (y 1).val = (y' 1).val; omega

/-- An index of the output array is in point t's band iff each coordinate is in the band's range on its axis. -/
theorem mem_blk (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole (Pipeline.arrRef spec0 5)).slice (win0_5.rect t)).set ↔ _
  rw [View.set_slice_whole, Rect.mem_set_unit]
  exact Iff.rfl

/-- Every row of the output is in the band of the point its row number divided by 2000 names. -/
theorem cover (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  have hN := points
  let t : Fin cfg0.N := ⟨(i 0).val / 2000, by omega⟩
  obtain ⟨e00, e01, e10, e11, e20, e21, e30, e31, e40, e41, e50, e51⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- After the launch its output array is the layer of the arrays it found. -/
theorem final (c : Dev nD) : (dat0 V c).arrAt 5 cfg0.N = G V c :=
  (dat0 V c).arrAt_eq_of_cover 5 (G V c) (fun t _ => flushed V c t) (cover)

end Cert.KernelIdeal.Region0

end
-- ==== Proof.Region1.lean ====
/-
  Launch 1 of the kernel program, read as one table.

  The launch walks `grid1`'s 50 points; point t stages rows [2000 t, 2000 t + 2000) of the aggregated table and of the hidden
  table (all 256 columns), the two whole weights and the bias row, and writes back rows [2000 t, 2000 t + 2000) of the output. The
  body is one graph-convolution layer on those bands (two matrix products into a zero accumulator, the bias row added to every
  row, the rectifier); an entry of a layer reads one row of the tables, so the band's entry (p, q) is the whole tables' entry
  (2000 t + p, q). The 50 bands tile the 100000 rows, so after the launch the output array is the layer of the arrays the
  launch found.
-/
import proofs.«173128_j60224031425324_2_alg».proof.Proof.GenP.KernelIdeal.Frame
import proofs.«173128_j60224031425324_2_alg».proof.Proof.LibGraphConv

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Cert.LibDense Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry is the layer of its five loaded bands at that entry: the format changes are the
    identity on the extended reals, each matrix product into the zero accumulator is the row-by-column sum. -/
theorem pay_apply (v0 v3 : Vec Ideal S2000x256 .f32) (v6 v9 : Vec Ideal S256x256 .f32) (v14 : Vec Ideal S1x256 .f32) (j : S2000x256.Idx) :
    k1_pay1 (F := Ideal) v0 v3 v6 v9 v14 j = layer (n := 2000) (K := 256) (d := 256) v0 v3 v6 v9 v14 j := by
  unfold k1_pay1
  simp only [shapeCast_self]
  unfold layer
  refine congrArg₂ max (congrArg₂ (· + ·) (congrArg₂ (· + ·) ?_ ?_) ?_) rfl
  · exact matmul_plain (M := 2000) (K := 256) (N := 256) (φ₁ := .bf16) (φ₂ := .bf16) v0 v6 j
  · exact matmul_plain (M := 2000) (K := 256) (N := 256) (φ₁ := .bf16) (φ₂ := .bf16) v3 v9 j
  · exact row_bcast (n := 2000) (d := 256) v14 broadcasts_S1x256_S2000x256 j

/-- The output table of the launch: the layer of the five arrays as the launch finds them. -/
def G (c : Dev nD) : S100000x256.Idx → EReal :=
  layer (n := 100000) (K := 256) (d := 256) (V c (Pipeline.arrRef spec1 0)) (V c (Pipeline.arrRef spec1 1))
    (V c (Pipeline.arrRef spec1 2)) (V c (Pipeline.arrRef spec1 3)) (V c (Pipeline.arrRef spec1 4))

/-- The printed block-index maps over the grid: the two tables and the output move down one band per point, the weights and
    the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem points : cfg1.N = 50 := by decide

set_option maxHeartbeats 1000000 in
/-- What point t writes back is band t of the output table. -/
theorem flushed (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  obtain ⟨e00, e01, e10, e11, e20, e21, e30, e31, e40, e41, e50, e51⟩ := idx_facts t
  funext j
  show k1_pay1 (iblk1 V c 0 t) (iblk1 V c 1 t) (iblk1 V c 2 t) (iblk1 V c 3 t) (iblk1 V c 4 t) j
      = G V c (((cfg1.win 5).blk t).view.emb j)
  refine (pay_apply (iblk1 V c 0 t) (iblk1 V c 1 t) (iblk1 V c 2 t) (iblk1 V c 3 t) (iblk1 V c 4 t) j).trans ?_
  have r0 : ((((cfg1.win 5).blk t).view.emb j) 0).val = win1_5.index t (0 : Fin 2) * 2000 + 1 * (j 0).val := rfl
  have r1 : ((((cfg1.win 5).blk t).view.emb j) 1).val = win1_5.index t (1 : Fin 2) * 256 + 1 * (j 1).val := rfl
  unfold G
  refine layer_congr_coords _ _ _ _ _ _ _ _ _ _ j (((cfg1.win 5).blk t).view.emb j)
    (fun y y' h0 h0' h1 => ?_) (fun y y' h0 h0' h1 => ?_) (fun y y' h0 h1 h1' => ?_) (fun y y' h0 h1 h1' => ?_) (fun y y' h1 h1' => ?_)
  · show V c (Pipeline.arrRef spec1 0) (((cfg1.win 0).blk t).view.emb y) = V c (Pipeline.arrRef spec1 0) y'
    refine congrArg (V c (Pipeline.arrRef spec1 0)) (funext fun a => Fin.ext ?_)
    match a with
    | ⟨0, _⟩ => show win1_0.index t (0 : Fin 2) * 2000 + 1 * (y 0).val = (y' 0).val; omega
    | ⟨1, _⟩ => show win1_0.index t (1 : Fin 2) * 256 + 1 * (y 1).val = (y' 1).val; omega
  · show V c (Pipeline.arrRef spec1 1) (((cfg1.win 1).blk t).view.emb y) = V c (Pipeline.arrRef spec1 1) y'
    refine congrArg (V c (Pipeline.arrRef spec1 1)) (funext fun a => Fin.ext ?_)
    match a with
    | ⟨0, _⟩ => show win1_1.index t (0 : Fin 2) * 2000 + 1 * (y 0).val = (y' 0).val; omega
    | ⟨1, _⟩ => show win1_1.index t (1 : Fin 2) * 256 + 1 * (y 1).val = (y' 1).val; omega
  · show V c (Pipeline.arrRef spec1 2) (((cfg1.win 2).blk t).view.emb y) = V c (Pipeline.arrRef spec1 2) y'
    refine congrArg (V c (Pipeline.arrRef spec1 2)) (funext fun a => Fin.ext ?_)
    match a with
    | ⟨0, _⟩ => show win1_2.index t (0 : Fin 2) * 256 + 1 * (y 0).val = (y' 0).val; omega
    | ⟨1, _⟩ => show win1_2.index t (1 : Fin 2) * 256 + 1 * (y 1).val = (y' 1).val; omega
  · show V c (Pipeline.arrRef spec1 3) (((cfg1.win 3).blk t).view.emb y) = V c (Pipeline.arrRef spec1 3) y'
    refine congrArg (V c (Pipeline.arrRef spec1 3)) (funext fun a => Fin.ext ?_)
    match a with
    | ⟨0, _⟩ => show win1_3.index t (0 : Fin 2) * 256 + 1 * (y 0).val = (y' 0).val; omega
    | ⟨1, _⟩ => show win1_3.index t (1 : Fin 2) * 256 + 1 * (y 1).val = (y' 1).val; omega
  · show V c (Pipeline.arrRef spec1 4) (((cfg1.win 4).blk t).view.emb y) = V c (Pipeline.arrRef spec1 4) y'
    refine congrArg (V c (Pipeline.arrRef spec1 4)) (funext fun a => Fin.ext ?_)
    have hy0 : (y 0).val < 1 := (y 0).isLt
    have hy0' : (y' 0).val < 1 := (y' 0).isLt
    match a with
    | ⟨0, _⟩ => show win1_4.index t (0 : Fin 2) * 1 + 1 * (y 0).val = (y' 0).val; omega
    | ⟨1, _⟩ => show win1_4.index t (1 : Fin 2) * 256 + 1 * (y 1).val = (y' 1).val; omega

/-- An index of the output array is in point t's band iff each coordinate is in the band's range on its axis. -/
theorem mem_blk (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole (Pipeline.arrRef spec1 5)).slice (win1_5.rect t)).set ↔ _
  rw [View.set_slice_whole, Rect.mem_set_unit]
  exact Iff.rfl

/-- Every row of the output is in the band of the point its row number divided by 2000 names. -/
theorem cover (i : S100000x256.Idx) : ∃ t : Fin cfg1.N, (cfg1.win 5).flush t = true ∧ i ∈ ((cfg1.win 5).blk t).view.set := by
  have hi0 : (i 0).val < 100000 := (i 0).isLt
  have hi1 : (i 1).val < 256 := (i 1).isLt
  have hN := points
  let t : Fin cfg1.N := ⟨(i 0).val / 2000, by omega⟩
  obtain ⟨e00, e01, e10, e11, e20, e21, e30, e31, e40, e41, e50, e51⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- After the launch its output array is the layer of the arrays it found. -/
theorem final (c : Dev nD) : (dat1 V c).arrAt 5 cfg1.N = G V c :=
  (dat1 V c).arrAt_eq_of_cover 5 (G V c) (fun t _ => flushed V c t) (cover)

end Cert.KernelIdeal.Region1

end
-- ==== Proof.Region2.lean ====
/-
  Launch 2 of the kernel program, read as one table.

  The launch walks `grid2`'s 50 points; point t stages rows [2000 t, 2000 t + 2000) of the aggregated table and of the hidden
  table (all 256 columns), the two whole weights and the bias row, and writes back rows [2000 t, 2000 t + 2000) of the output. The
  body is one graph-convolution layer on those bands (two matrix products into a zero accumulator, the bias row added to every
  row, the rectifier); an entry of a layer reads one row of the tables, so the band's entry (p, q) is the whole tables' entry
  (2000 t + p, q). The 50 bands tile the 100000 rows, so after the launch the output array is the layer of the arrays the
  launch found.
-/
import proofs.«173128_j60224031425324_2_alg».proof.Proof.GenP.KernelIdeal.Frame
import proofs.«173128_j60224031425324_2_alg».proof.Proof.LibGraphConv

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Cert.LibDense Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry is the layer of its five loaded bands at that entry: the format changes are the
    identity on the extended reals, each matrix product into the zero accumulator is the row-by-column sum. -/
theorem pay_apply (v0 v3 : Vec Ideal S2000x256 .f32) (v6 v9 : Vec Ideal S256x256 .f32) (v14 : Vec Ideal S1x256 .f32) (j : S2000x256.Idx) :
    k2_pay1 (F := Ideal) v0 v3 v6 v9 v14 j = layer (n := 2000) (K := 256) (d := 256) v0 v3 v6 v9 v14 j := by
  unfold k2_pay1
  simp only [shapeCast_self]
  unfold layer
  refine congrArg₂ max (congrArg₂ (· + ·) (congrArg₂ (· + ·) ?_ ?_) ?_) rfl
  · exact matmul_plain (M := 2000) (K := 256) (N := 256) (φ₁ := .bf16) (φ₂ := .bf16) v0 v6 j
  · exact matmul_plain (M := 2000) (K := 256) (N := 256) (φ₁ := .bf16) (φ₂ := .bf16) v3 v9 j
  · exact row_bcast (n := 2000) (d := 256) v14 broadcasts_S1x256_S2000x256 j

/-- The output table of the launch: the layer of the five arrays as the launch finds them. -/
def G (c : Dev nD) : S100000x256.Idx → EReal :=
  layer (n := 100000) (K := 256) (d := 256) (V c (Pipeline.arrRef spec2 0)) (V c (Pipeline.arrRef spec2 1))
    (V c (Pipeline.arrRef spec2 2)) (V c (Pipeline.arrRef spec2 3)) (V c (Pipeline.arrRef spec2 4))

/-- The printed block-index maps over the grid: the two tables and the output move down one band per point, the weights and
    the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem points : cfg2.N = 50 := by decide

set_option maxHeartbeats 1000000 in
/-- What point t writes back is band t of the output table. -/
theorem flushed (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  obtain ⟨e00, e01, e10, e11, e20, e21, e30, e31, e40, e41, e50, e51⟩ := idx_facts t
  funext j
  show k2_pay1 (iblk2 V c 0 t) (iblk2 V c 1 t) (iblk2 V c 2 t) (iblk2 V c 3 t) (iblk2 V c 4 t) j
      = G V c (((cfg2.win 5).blk t).view.emb j)
  refine (pay_apply (iblk2 V c 0 t) (iblk2 V c 1 t) (iblk2 V c 2 t) (iblk2 V c 3 t) (iblk2 V c 4 t) j).trans ?_
  have r0 : ((((cfg2.win 5).blk t).view.emb j) 0).val = win2_5.index t (0 : Fin 2) * 2000 + 1 * (j 0).val := rfl
  have r1 : ((((cfg2.win 5).blk t).view.emb j) 1).val = win2_5.index t (1 : Fin 2) * 256 + 1 * (j 1).val := rfl
  unfold G
  refine layer_congr_coords _ _ _ _ _ _ _ _ _ _ j (((cfg2.win 5).blk t).view.emb j)
    (fun y y' h0 h0' h1 => ?_) (fun y y' h0 h0' h1 => ?_) (fun y y' h0 h1 h1' => ?_) (fun y y' h0 h1 h1' => ?_) (fun y y' h1 h1' => ?_)
  · show V c (Pipeline.arrRef spec2 0) (((cfg2.win 0).blk t).view.emb y) = V c (Pipeline.arrRef spec2 0) y'
    refine congrArg (V c (Pipeline.arrRef spec2 0)) (funext fun a => Fin.ext ?_)
    match a with
    | ⟨0, _⟩ => show win2_0.index t (0 : Fin 2) * 2000 + 1 * (y 0).val = (y' 0).val; omega
    | ⟨1, _⟩ => show win2_0.index t (1 : Fin 2) * 256 + 1 * (y 1).val = (y' 1).val; omega
  · show V c (Pipeline.arrRef spec2 1) (((cfg2.win 1).blk t).view.emb y) = V c (Pipeline.arrRef spec2 1) y'
    refine congrArg (V c (Pipeline.arrRef spec2 1)) (funext fun a => Fin.ext ?_)
    match a with
    | ⟨0, _⟩ => show win2_1.index t (0 : Fin 2) * 2000 + 1 * (y 0).val = (y' 0).val; omega
    | ⟨1, _⟩ => show win2_1.index t (1 : Fin 2) * 256 + 1 * (y 1).val = (y' 1).val; omega
  · show V c (Pipeline.arrRef spec2 2) (((cfg2.win 2).blk t).view.emb y) = V c (Pipeline.arrRef spec2 2) y'
    refine congrArg (V c (Pipeline.arrRef spec2 2)) (funext fun a => Fin.ext ?_)
    match a with
    | ⟨0, _⟩ => show win2_2.index t (0 : Fin 2) * 256 + 1 * (y 0).val = (y' 0).val; omega
    | ⟨1, _⟩ => show win2_2.index t (1 : Fin 2) * 256 + 1 * (y 1).val = (y' 1).val; omega
  · show V c (Pipeline.arrRef spec2 3) (((cfg2.win 3).blk t).view.emb y) = V c (Pipeline.arrRef spec2 3) y'
    refine congrArg (V c (Pipeline.arrRef spec2 3)) (funext fun a => Fin.ext ?_)
    match a with
    | ⟨0, _⟩ => show win2_3.index t (0 : Fin 2) * 256 + 1 * (y 0).val = (y' 0).val; omega
    | ⟨1, _⟩ => show win2_3.index t (1 : Fin 2) * 256 + 1 * (y 1).val = (y' 1).val; omega
  · show V c (Pipeline.arrRef spec2 4) (((cfg2.win 4).blk t).view.emb y) = V c (Pipeline.arrRef spec2 4) y'
    refine congrArg (V c (Pipeline.arrRef spec2 4)) (funext fun a => Fin.ext ?_)
    have hy0 : (y 0).val < 1 := (y 0).isLt
    have hy0' : (y' 0).val < 1 := (y' 0).isLt
    match a with
    | ⟨0, _⟩ => show win2_4.index t (0 : Fin 2) * 1 + 1 * (y 0).val = (y' 0).val; omega
    | ⟨1, _⟩ => show win2_4.index t (1 : Fin 2) * 256 + 1 * (y 1).val = (y' 1).val; omega

/-- An index of the output array is in point t's band iff each coordinate is in the band's range on its axis. -/
theorem mem_blk (t : Fin cfg2.N) (i : S100000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole (Pipeline.arrRef spec2 5)).slice (win2_5.rect t)).set ↔ _
  rw [View.set_slice_whole, Rect.mem_set_unit]
  exact Iff.rfl

/-- Every row of the output is in the band of the point its row number divided by 2000 names. -/
theorem cover (i : S100000x256.Idx) : ∃ t : Fin cfg2.N, (cfg2.win 5).flush t = true ∧ i ∈ ((cfg2.win 5).blk t).view.set := by
  have hi0 : (i 0).val < 100000 := (i 0).isLt
  have hi1 : (i 1).val < 256 := (i 1).isLt
  have hN := points
  let t : Fin cfg2.N := ⟨(i 0).val / 2000, by omega⟩
  obtain ⟨e00, e01, e10, e11, e20, e21, e30, e31, e40, e41, e50, e51⟩ := idx_facts t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- After the launch its output array is the layer of the arrays it found. -/
theorem final (c : Dev nD) : (dat2 V c).arrAt 5 cfg2.N = G V c :=
  (dat2 V c).arrAt_eq_of_cover 5 (G V c) (fun t _ => flushed V c t) (cover)

end Cert.KernelIdeal.Region2

end
-- ==== Proof.LibHead.lean ====
/-
  The head that follows the three layers, on the extended reals, entry by entry.

  Row r of the paired table has two halves x1 (r, ·) and x2 (r, ·). Each half goes through a one-output linear map and the
  rectifier,  o = max (∑ k, x (r, k) · w (0, k) + b) 0,  the two outputs are combined by two scalars and a bias,
  z = (o1 · l0 + o2 · l1) + bl,  and the result is the logistic function of z. An entry reads one row of each half, so it is
  the same on a band of rows as on the whole table.
-/
import proofs.«173128_j60224031425324_2_alg».proof.Proof.LibGraphConv

noncomputable section

namespace Cert.Head

open Idealize.ShloMosaic Idealize.ShloMosaic.ValueIdx Cert.GraphConv

/-- One half's output at row r: the rectified one-output linear map. -/
def branch {n K : ℕ} (x : (⟨2, ![n, K]⟩ : Shape).Idx → EReal) (w : (⟨2, ![1, K]⟩ : Shape).Idx → EReal) (b : EReal) (r : Fin n) : EReal :=
  max ((∑ k : Fin K, x (ix2 r k) * w (ix2 row0 k)) + b) (Ideal.ofBits .f32 0x00000000#32)

/-- The head at entry (r, 0). -/
def head {n K : ℕ} (x1 x2 : (⟨2, ![n, K]⟩ : Shape).Idx → EReal) (w1 : (⟨2, ![1, K]⟩ : Shape).Idx → EReal) (b1 : EReal)
    (w2 : (⟨2, ![1, K]⟩ : Shape).Idx → EReal) (b2 l0 l1 bl : EReal) : (⟨2, ![n, 1]⟩ : Shape).Idx → EReal :=
  fun i => Ideal.logistic ((branch x1 w1 b1 (i 0) * l0 + branch x2 w2 b2 (i 0) * l1) + bl)

/-- Two tables that agree on the rows read give the same branch output. -/
theorem branch_congr {n n' K : ℕ} (x : (⟨2, ![n, K]⟩ : Shape).Idx → EReal) (x' : (⟨2, ![n', K]⟩ : Shape).Idx → EReal)
    (w w' : (⟨2, ![1, K]⟩ : Shape).Idx → EReal) (b : EReal) (r : Fin n) (r' : Fin n')
    (hx : ∀ (y : (⟨2, ![n, K]⟩ : Shape).Idx) (y' : (⟨2, ![n', K]⟩ : Shape).Idx),
      (y 0).val = r.val → (y' 0).val = r'.val → (y 1).val = (y' 1).val → x y = x' y')
    (hw : ∀ (y y' : (⟨2, ![1, K]⟩ : Shape).Idx), (y 1).val = (y' 1).val → w y = w' y') :
    branch x w b r = branch x' w' b r' := by
  unfold branch
  rw [Finset.sum_congr rfl (fun k _ => congrArg₂ (· * ·) (hx (ix2 r k) (ix2 r' k) rfl rfl rfl) (hw (ix2 row0 k) (ix2 row0 k) rfl))]

/-- The same for the head. -/
theorem head_congr {n n' K : ℕ} (x1 x2 : (⟨2, ![n, K]⟩ : Shape).Idx → EReal) (x1' x2' : (⟨2, ![n', K]⟩ : Shape).Idx → EReal)
    (w1 w1' w2 w2' : (⟨2, ![1, K]⟩ : Shape).Idx → EReal) (b1 b2 l0 l1 bl b1' b2' l0' l1' bl' : EReal)
    (i : (⟨2, ![n, 1]⟩ : Shape).Idx) (i' : (⟨2, ![n', 1]⟩ : Shape).Idx)
    (hb1 : b1 = b1') (hb2 : b2 = b2') (hl0 : l0 = l0') (hl1 : l1 = l1') (hbl : bl = bl')
    (hx1 : ∀ (y : (⟨2, ![n, K]⟩ : Shape).Idx) (y' : (⟨2, ![n', K]⟩ : Shape).Idx),
      (y 0).val = (i 0).val → (y' 0).val = (i' 0).val → (y 1).val = (y' 1).val → x1 y = x1' y')
    (hx2 : ∀ (y : (⟨2, ![n, K]⟩ : Shape).Idx) (y' : (⟨2, ![n', K]⟩ : Shape).Idx),
      (y 0).val = (i 0).val → (y' 0).val = (i' 0).val → (y 1).val = (y' 1).val → x2 y = x2' y')
    (hw1 : ∀ (y y' : (⟨2, ![1, K]⟩ : Shape).Idx), (y 1).val = (y' 1).val → w1 y = w1' y')
    (hw2 : ∀ (y y' : (⟨2, ![1, K]⟩ : Shape).Idx), (y 1).val = (y' 1).val → w2 y = w2' y') :
    head x1 x2 w1 b1 w2 b2 l0 l1 bl i = head x1' x2' w1' b1' w2' b2' l0' l1' bl' i' := by
  subst hb1 hb2 hl0 hl1 hbl
  unfold head
  rw [branch_congr x1 x1' w1 w1' b1 (i 0) (i' 0) hx1 hw1, branch_congr x2 x2' w2 w2' b2 (i 0) (i' 0) hx2 hw2]

/-- A one-entry table broadcast down n rows, at any entry, is its one entry. -/
theorem cell_bcast {n : ℕ} (b : (⟨2, ![1, 1]⟩ : Shape).Idx → EReal) (h2 : (⟨2, ![1, 1]⟩ : Shape).Broadcasts ⟨2, ![n, 1]⟩)
    (i : (⟨2, ![n, 1]⟩ : Shape).Idx) : broadcastTo ⟨2, ![n, 1]⟩ b h2 i = b (ix2 row0 row0) := by
  refine broadcastTo_apply _ h2 i (ix2 row0 row0) (fun a => ?_)
  match a with
  | ⟨0, _⟩ => exact (if_pos rfl).symm
  | ⟨1, _⟩ => exact (if_pos rfl).symm

end Cert.Head

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.Region3.lean ====
/-
  Launch 3 of the kernel program (the head), read as one table.

  The launch walks 25 points; point t stages rows [2000 t, 2000 t + 2000) of the two halves x1, x2 of the paired table, the two
  one-row weights, the three one-entry biases and the one-row pair of combining scalars, and writes back rows
  [2000 t, 2000 t + 2000) of the one-column output. The body multiplies each half's band by its weight row, sums along the
  lanes, adds the bias, rectifies, combines the two columns with the two scalars, adds the last bias and applies the logistic
  function: the head, on the band. Entry (p, 0) of the band's result is entry (2000 t + p, 0) of the head of the whole tables;
  the 25 bands tile the 50000 rows.
-/
import proofs.«173128_j60224031425324_2_alg».proof.Proof.GenP.KernelIdeal.Frame
import proofs.«173128_j60224031425324_2_alg».proof.Proof.LibHead
import proofs.«173128_j60224031425324_2_alg».proof.Proof.LibAxisSum
import proofs.«173128_j60224031425324_2_alg».proof.Proof.LibSoftmaxRow

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Cert.GraphConv Cert.Head

variable (V : (c : Dev nD) → (b : Ref sig .tc) → Buf (Elt Ideal) ((c : Thread nD τ).loc b))

theorem hz : (![0, 0] : Fin 2 → Nat) = fun _ => 0 := funext fun a => by fin_cases a <;> rfl

/-- A band multiplied by a broadcast weight row, summed along the lanes and laid out as a column: at (p, u) the sum over k
    of the band's (p, k) times the weight's (0, k). -/
theorem lane_dot (x : Vec Ideal S2000x256 .f32) (w : Vec Ideal S1x256 .f32) (p : Fin 2000) (u : Fin 1) :
    shapeCast S2000x1 (multiReduction (F := Ideal) .add [1] S2000 (mulf x (broadcastTo S2000x256 w broadcasts_S1x256_S2000x256)) 0x00000000#32
        reduces_S2000x256_S2000 (.inl rfl) rfl) shapeCasts_S2000_S2000x1 (ix2 p u)
      = ∑ k : Fin 256, x (ix2 p k) * w (ix2 row0 k) := by
  refine (Cert.LibSoftmaxRow.shapeCast_a_a1_apply (a := 2000) _ shapeCasts_S2000_S2000x1 p u).trans ?_
  refine (Cert.LibAxisSum.sum_last (n := 2000) (d := 256) (φ := .f32) _ _ reduces_S2000x256_S2000 (.inl rfl) rfl p).trans ?_
  exact Finset.sum_congr rfl fun k _ => congrArg₂ (· * ·) rfl (row_bcast (n := 2000) (d := 256) w broadcasts_S1x256_S2000x256 (ix2 p k))

/-- The body's stored value at an entry is the head of its loaded bands and blocks at that entry. -/
theorem pay_apply (x1 x2 : Vec Ideal S2000x256 .f32) (w1 w2 : Vec Ideal S1x256 .f32) (b1 b2 : Vec Ideal S1x1 .f32)
    (wl : Vec Ideal S1x2 .f32) (bl : Vec Ideal S1x1 .f32) (j : S2000x1.Idx) :
    k3_pay1 (F := Ideal) (k3_pay2 x1 x2 w1 w2 b1 b2 wl) (k3_pay3 bl) j
      = head (n := 2000) (K := 256) x1 x2 w1 (b1 (ix2 row0 row0)) w2 (b2 (ix2 row0 row0))
          (wl (ix2 row0 (0 : Fin 2))) (wl (ix2 row0 (1 : Fin 2))) (bl (ix2 row0 row0)) j := by
  obtain ⟨p, u, rfl⟩ : ∃ (p : Fin 2000) (u : Fin 1), j = ix2 p u := ⟨j 0, j 1, eq_ix2 j⟩
  unfold k3_pay1 k3_pay2 k3_pay3
  simp only [shapeCast_self]
  unfold head branch
  refine congrArg Ideal.logistic (congrArg₂ (· + ·) (congrArg₂ (· + ·)
    (congrArg₂ (· * ·) (congrArg₂ max (congrArg₂ (· + ·) ?_ ?_) rfl) ?_)
    (congrArg₂ (· * ·) (congrArg₂ max (congrArg₂ (· + ·) ?_ ?_) rfl) ?_)) ?_)
  · exact lane_dot x1 w1 p u
  · exact cell_bcast (n := 2000) b1 broadcasts_S1x1_S2000x1 (ix2 p u)
  · exact congrArg wl (funext fun a => Fin.ext (by match a with | ⟨0, _⟩ => rfl | ⟨1, _⟩ => rfl))
  · exact lane_dot x2 w2 p u
  · exact cell_bcast (n := 2000) b2 broadcasts_S1x1_S2000x1 (ix2 p u)
  · exact congrArg wl (funext fun a => Fin.ext (by match a with | ⟨0, _⟩ => rfl | ⟨1, _⟩ => rfl))
  · exact cell_bcast (n := 2000) bl broadcasts_S1x1_S2000x1 (ix2 p u)

/-- The output table of the launch: the head of the eight arrays as the launch finds them. -/
def G (c : Dev nD) : S50000x1.Idx → EReal :=
  head (n := 50000) (K := 256) (V c (Pipeline.arrRef spec3 0)) (V c (Pipeline.arrRef spec3 1))
    (V c (Pipeline.arrRef spec3 2)) (V c (Pipeline.arrRef spec3 3) (ix2 row0 row0))
    (V c (Pipeline.arrRef spec3 4)) (V c (Pipeline.arrRef spec3 5) (ix2 row0 row0))
    (V c (Pipeline.arrRef spec3 6) (ix2 row0 (0 : Fin 2))) (V c (Pipeline.arrRef spec3 6) (ix2 row0 (1 : Fin 2)))
    (V c (Pipeline.arrRef spec3 7) (ix2 row0 row0))

/-- The printed block-index maps over the grid: the two halves and the output move down one band per point, everything else
    stays. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

theorem points : cfg3.N = 25 := by decide

set_option maxHeartbeats 1000000 in
/-- What point t writes back is band t of the output table. -/
theorem flushed (c : Dev nD) (t : Fin cfg3.N) :
    (dat3 V c).flushed 8 t = ((cfg3.win 8).blk t).view.read (Elt Ideal) (G V c) := by
  show (cfg3.win 8).cut (grid3.coords t) ((dat3 V c).after 8 t) = _
  rw [after3_8]
  unfold out3_8
  rw [View.canon_unit_zero hz]
  simp only [View.ld_unit_zero (S := S2000x256) hz, View.ld_unit_zero (S := S1x256) hz, View.ld_unit_zero (S := S1x1) hz,
    View.ld_unit_zero (S := S1x2) hz]
  obtain ⟨e00, e01, e10, e11, e20, e21, e30, e31, e40, e41, e50, e51, e60, e61, e70, e71, e80, e81⟩ := idx_facts t
  funext j
  show k3_pay1 (k3_pay2 (iblk3 V c 0 t) (iblk3 V c 1 t) (iblk3 V c 2 t) (iblk3 V c 4 t) (iblk3 V c 3 t) (iblk3 V c 5 t) (iblk3 V c 6 t))
        (k3_pay3 (iblk3 V c 7 t)) j
      = G V c (((cfg3.win 8).blk t).view.emb j)
  refine (pay_apply (iblk3 V c 0 t) (iblk3 V c 1 t) (iblk3 V c 2 t) (iblk3 V c 4 t) (iblk3 V c 3 t) (iblk3 V c 5 t) (iblk3 V c 6 t)
    (iblk3 V c 7 t) j).trans ?_
  have r0 : ((((cfg3.win 8).blk t).view.emb j) 0).val = win3_8.index t (0 : Fin 2) * 2000 + 1 * (j 0).val := rfl
  have c3 : ∀ (y y' : S1x1.Idx), (y 1).val = (y' 1).val → iblk3 V c 3 t y = V c (Pipeline.arrRef spec3 3) y' := fun y y' h1 => by
    show V c (Pipeline.arrRef spec3 3) (((cfg3.win 3).blk t).view.emb y) = V c (Pipeline.arrRef spec3 3) y'
    refine congrArg (V c (Pipeline.arrRef spec3 3)) (funext fun a => Fin.ext ?_)
    have hy0 : (y 0).val < 1 := (y 0).isLt
    have hy0' : (y' 0).val < 1 := (y' 0).isLt
    match a with
    | ⟨0, _⟩ => show win3_3.index t (0 : Fin 2) * 1 + 1 * (y 0).val = (y' 0).val; omega
    | ⟨1, _⟩ => show win3_3.index t (1 : Fin 2) * 1 + 1 * (y 1).val = (y' 1).val; omega
  have c5 : ∀ (y y' : S1x1.Idx), (y 1).val = (y' 1).val → iblk3 V c 5 t y = V c (Pipeline.arrRef spec3 5) y' := fun y y' h1 => by
    show V c (Pipeline.arrRef spec3 5) (((cfg3.win 5).blk t).view.emb y) = V c (Pipeline.arrRef spec3 5) y'
    refine congrArg (V c (Pipeline.arrRef spec3 5)) (funext fun a => Fin.ext ?_)
    have hy0 : (y 0).val < 1 := (y 0).isLt
    have hy0' : (y' 0).val < 1 := (y' 0).isLt
    match a with
    | ⟨0, _⟩ => show win3_5.index t (0 : Fin 2) * 1 + 1 * (y 0).val = (y' 0).val; omega
    | ⟨1, _⟩ => show win3_5.index t (1 : Fin 2) * 1 + 1 * (y 1).val = (y' 1).val; omega
  have c6 : ∀ (y y' : S1x2.Idx), (y 1).val = (y' 1).val → iblk3 V c 6 t y = V c (Pipeline.arrRef spec3 6) y' := fun y y' h1 => by
    show V c (Pipeline.arrRef spec3 6) (((cfg3.win 6).blk t).view.emb y) = V c (Pipeline.arrRef spec3 6) y'
    refine congrArg (V c (Pipeline.arrRef spec3 6)) (funext fun a => Fin.ext ?_)
    have hy0 : (y 0).val < 1 := (y 0).isLt
    have hy0' : (y' 0).val < 1 := (y' 0).isLt
    match a with
    | ⟨0, _⟩ => show win3_6.index t (0 : Fin 2) * 1 + 1 * (y 0).val = (y' 0).val; omega
    | ⟨1, _⟩ => show win3_6.index t (1 : Fin 2) * 2 + 1 * (y 1).val = (y' 1).val; omega
  have c7 : ∀ (y y' : S1x1.Idx), (y 1).val = (y' 1).val → iblk3 V c 7 t y = V c (Pipeline.arrRef spec3 7) y' := fun y y' h1 => by
    show V c (Pipeline.arrRef spec3 7) (((cfg3.win 7).blk t).view.emb y) = V c (Pipeline.arrRef spec3 7) y'
    refine congrArg (V c (Pipeline.arrRef spec3 7)) (funext fun a => Fin.ext ?_)
    have hy0 : (y 0).val < 1 := (y 0).isLt
    have hy0' : (y' 0).val < 1 := (y' 0).isLt
    match a with
    | ⟨0, _⟩ => show win3_7.index t (0 : Fin 2) * 1 + 1 * (y 0).val = (y' 0).val; omega
    | ⟨1, _⟩ => show win3_7.index t (1 : Fin 2) * 1 + 1 * (y 1).val = (y' 1).val; omega
  unfold G
  refine head_congr _ _ _ _ _ _ _ _ _ _ _ _ _ _ _ _ _ _ j (((cfg3.win 8).blk t).view.emb j)
    (c3 _ _ rfl) (c5 _ _ rfl) (c6 _ _ rfl) (c6 _ _ rfl) (c7 _ _ rfl)
    (fun y y' h0 h0' h1 => ?_) (fun y y' h0 h0' h1 => ?_) (fun y y' h1 => ?_) (fun y y' h1 => ?_)
  · show V c (Pipeline.arrRef spec3 0) (((cfg3.win 0).blk t).view.emb y) = V c (Pipeline.arrRef spec3 0) y'
    refine congrArg (V c (Pipeline.arrRef spec3 0)) (funext fun a => Fin.ext ?_)
    match a with
    | ⟨0, _⟩ => show win3_0.index t (0 : Fin 2) * 2000 + 1 * (y 0).val = (y' 0).val; omega
    | ⟨1, _⟩ => show win3_0.index t (1 : Fin 2) * 256 + 1 * (y 1).val = (y' 1).val; omega
  · show V c (Pipeline.arrRef spec3 1) (((cfg3.win 1).blk t).view.emb y) = V c (Pipeline.arrRef spec3 1) y'
    refine congrArg (V c (Pipeline.arrRef spec3 1)) (funext fun a => Fin.ext ?_)
    match a with
    | ⟨0, _⟩ => show win3_1.index t (0 : Fin 2) * 2000 + 1 * (y 0).val = (y' 0).val; omega
    | ⟨1, _⟩ => show win3_1.index t (1 : Fin 2) * 256 + 1 * (y 1).val = (y' 1).val; omega
  · show V c (Pipeline.arrRef spec3 2) (((cfg3.win 2).blk t).view.emb y) = V c (Pipeline.arrRef spec3 2) y'
    refine congrArg (V c (Pipeline.arrRef spec3 2)) (funext fun a => Fin.ext ?_)
    have hy0 : (y 0).val < 1 := (y 0).isLt
    have hy0' : (y' 0).val < 1 := (y' 0).isLt
    match a with
    | ⟨0, _⟩ => show win3_2.index t (0 : Fin 2) * 1 + 1 * (y 0).val = (y' 0).val; omega
    | ⟨1, _⟩ => show win3_2.index t (1 : Fin 2) * 256 + 1 * (y 1).val = (y' 1).val; omega
  · show V c (Pipeline.arrRef spec3 4) (((cfg3.win 4).blk t).view.emb y) = V c (Pipeline.arrRef spec3 4) y'
    refine congrArg (V c (Pipeline.arrRef spec3 4)) (funext fun a => Fin.ext ?_)
    have hy0 : (y 0).val < 1 := (y 0).isLt
    have hy0' : (y' 0).val < 1 := (y' 0).isLt
    match a with
    | ⟨0, _⟩ => show win3_4.index t (0 : Fin 2) * 1 + 1 * (y 0).val = (y' 0).val; omega
    | ⟨1, _⟩ => show win3_4.index t (1 : Fin 2) * 256 + 1 * (y 1).val = (y' 1).val; omega

/-- An index of the output array is in point t's band iff each coordinate is in the band's range on its axis. -/
theorem mem_blk (t : Fin cfg3.N) (i : S50000x1.Idx) :
    i ∈ ((cfg3.win 8).blk t).view.set ↔ ∀ a : Fin 2, win3_8.index t a * S2000x1.size a ≤ (i a).val ∧ (i a).val < win3_8.index t a * S2000x1.size a + S2000x1.size a := by
  show i ∈ ((View.whole (Pipeline.arrRef spec3 8)).slice (win3_8.rect t)).set ↔ _
  rw [View.set_slice_whole, Rect.mem_set_unit]
  exact Iff.rfl

/-- Every row of the output is in the band of the point its row number divided by 2000 names. -/
theorem cover (i : S50000x1.Idx) : ∃ t : Fin cfg3.N, (cfg3.win 8).flush t = true ∧ i ∈ ((cfg3.win 8).blk t).view.set := by
  have hi0 : (i 0).val < 50000 := (i 0).isLt
  have hi1 : (i 1).val < 1 := (i 1).isLt
  have hN := points
  let t : Fin cfg3.N := ⟨(i 0).val / 2000, by omega⟩
  obtain ⟨e00, e01, e10, e11, e20, e21, e30, e31, e40, e41, e50, e51, e60, e61, e70, e71, e80, e81⟩ := idx_facts t
  have ht : t.val = (i 0).val / 2000 := rfl
  refine ⟨t, flush3_8 t, ?_⟩
  rw [mem_blk]
  intro a
  match a with
  | ⟨0, _⟩ => show win3_8.index t (0 : Fin 2) * 2000 ≤ (i 0).val ∧ (i 0).val < win3_8.index t (0 : Fin 2) * 2000 + 2000; omega
  | ⟨1, _⟩ => show win3_8.index t (1 : Fin 2) * 1 ≤ (i 1).val ∧ (i 1).val < win3_8.index t (1 : Fin 2) * 1 + 1; omega

/-- After the launch its output array is the head of the arrays it found. -/
theorem final (c : Dev nD) : (dat3 V c).arrAt 8 cfg3.N = G V c :=
  (dat3 V c).arrAt_eq_of_cover 8 (G V c) (fun t _ => flushed V c t) (cover)

end Cert.KernelIdeal.Region3

end
-- ==== Proof.NonzeroSpec.lean ====
/-
  The row numbers `jnp.nonzero(mask, size = 100000, fill_value = 0)[0]` yields, as the reference program composes them
  out of whole-array operations, written as one pure function of the mask; and the index column the following
  `h[sel]` builds from them.

  The composition, stage by stage (each stage one definition, in the program's order and spelling):
    * `cumsum0`     a running sum of 32-bit words: a window reduction by addition, window 100000, padded 99999 low;
    * `cumsumMask`  the running count of set mask bits: the mask widened to 32-bit words, then `cumsum0`;
    * `clip0`       the maximum with zero;
    * `wrap`        python's negative-index rule: a negative number `v` becomes `v + 100000`;
    * `col`         a length-100000 vector as a 100000 × 1 column;
    * `bincount`    a histogram: ones added into zeros at the positions a vector names (a position outside
                      `[0, 100000)` is dropped);
    * `floorDiv1`   the floored quotient by one (the truncated quotient, lowered by one where the signs differ and the
                      remainder is not zero);
    * `rem100000`   the floored remainder by 100000 (the truncated remainder, raised by the divisor where its sign
                      differs from the divisor's and it is not zero);
    * `count`       the number of set mask bits;
    * `selOf`       the whole: position `q` holds the index of the `q`-th set bit, or the fill value 0 from position
                      `count` on.
-/
import proofs.«173128_j60224031425324_2_alg».proof.ReferenceIdeal

noncomputable section

namespace Cert.ReferenceIdeal.Nonzero

open Cert.ReferenceIdeal Idealize.ShloMosaic
open Cert.ReferenceIdeal.Facts₀ Cert.ReferenceIdeal.Facts

variable [Facts]

/-- A running sum of 100000 words: the window reduction by addition from a zero initial value, window 100000, stride
    one, padded 99999 low. -/
def cumsum0 (x : IVec S100000 32) : IVec S100000 32 :=
  Host.reduceWindow IntOp.addi ![100000] ![1] ![99999] ![0] x (broadcastInDim S_ ![] bcast_S_S_ (constantI S_ 32 0#32))
    reduceWindows_S100000_S100000_w100000s1p99999_0 h_S_

/-- The running count of the mask's set bits. -/
def cumsumMask (mask : IVec S100000 1) : IVec S100000 32 :=
  cumsum0 (extui 32 mask natLt_1_32)

/-- The maximum with zero. -/
def clip0 (x : IVec S100000 32) : IVec S100000 32 :=
  maxsi (broadcastInDim S100000 ![] bcast_S_S100000 (id (constantI S_ 32 0#32))) x

/-- Python's negative-index rule on row numbers of a 100000-row table: a negative `v` becomes `v + 100000`. -/
def wrap (s : IVec S100000 32) : IVec S100000 32 :=
  select (cmpi .slt s (broadcastInDim S100000 ![] bcast_S_S100000 (constantI S_ 32 0#32)))
    (addi s (broadcastInDim S100000 ![] bcast_S_S100000 (constantI S_ 32 100000#32))) s

/-- A vector as a one-column matrix. -/
def col (s : IVec S100000 32) : IVec S100000x1 32 :=
  broadcastInDim S100000x1 ![0] bcast_S100000_S100000x1_0 s

/-- The histogram of the positions `c` names: ones added into zeros at column `c`. -/
def bincount (c : IVec S100000 32) : IVec S100000 32 :=
  Host.scatter scatter_S100000_S100000x1_S100000_n_0_0_1 IntOp.addi
    (broadcastInDim S100000 ![] bcast_S_S100000 (constantI S_ 32 0#32)) (col c)
    (broadcastInDim S100000 ![] bcast_S_S100000 (constantI S_ 32 1#32))

/-- The floored quotient by one. -/
def floorDiv1 (x : IVec S100000 32) : IVec S100000 32 :=
  select
    (andi
      (cmpi .ne (signi x) (broadcastInDim S100000 ![] bcast_S_S100000 (signi (constantI S_ 32 1#32))))
      (cmpi .ne (Host.remsi x (broadcastInDim S100000 ![] bcast_S_S100000 (constantI S_ 32 1#32)))
        (broadcastInDim S100000 ![] bcast_S_S100000 (constantI S_ 32 0#32))))
    (subi (Host.divsi x (broadcastInDim S100000 ![] bcast_S_S100000 (constantI S_ 32 1#32)))
      (broadcastInDim S100000 ![] bcast_S_S100000 (constantI S_ 32 1#32)))
    (Host.divsi x (broadcastInDim S100000 ![] bcast_S_S100000 (constantI S_ 32 1#32)))

/-- The divisor the floored remainder uses: one in place of a zero divisor, else the divisor 100000 itself. -/
def remDivisor : IVec S_ 32 :=
  select (cmpi .eq (id (constantI S_ 32 100000#32)) (constantI S_ 32 0#32)) (constantI S_ 32 1#32)
    (id (constantI S_ 32 100000#32))

/-- The floored remainder by 100000. -/
def rem100000 (x : IVec S100000 32) : IVec S100000 32 :=
  select
    (andi
      (cmpi .ne
        (cmpi .slt (Host.remsi x (broadcastInDim S100000 ![] bcast_S_S100000 remDivisor))
          (broadcastInDim S100000 ![] bcast_S_S100000 (constantI S_ 32 0#32)))
        (broadcastInDim S100000 ![] bcast_S_S100000 (cmpi .slt remDivisor (constantI S_ 32 0#32))))
      (cmpi .ne (Host.remsi x (broadcastInDim S100000 ![] bcast_S_S100000 remDivisor))
        (broadcastInDim S100000 ![] bcast_S_S100000 (constantI S_ 32 0#32))))
    (addi (Host.remsi x (broadcastInDim S100000 ![] bcast_S_S100000 remDivisor))
      (broadcastInDim S100000 ![] bcast_S_S100000 remDivisor))
    (Host.remsi x (broadcastInDim S100000 ![] bcast_S_S100000 remDivisor))

/-- The number of set mask bits, as a rank-zero word. -/
def count (mask : IVec S100000 1) : IVec S_ 32 :=
  Host.reduce IntOp.addi (extui 32 mask natLt_1_32) (constantI S_ 32 0#32) reducesTo_S100000_S_d0 h_S_

/-- `jnp.nonzero(mask, size = 100000, fill_value = 0)[0]` as the reference's operations compose it, as one pure
    function of the mask: position `q` holds the index of the `q`-th set bit (the running count of the histogram of
    the clipped, wrapped running count of the mask), floored-divided by one and reduced modulo 100000, and from position
    `count mask` on the fill value 0. -/
def selOf (mask : IVec S100000 1) : IVec S100000 32 :=
  select
    (cmpi .sge (iotaInDim S100000 32 0) (broadcastInDim S100000 ![] bcast_S_S100000 (count mask)))
    (broadcastInDim S100000 ![] bcast_S_S100000 (id (constantI S_ 32 0#32)))
    (rem100000 (floorDiv1 (cumsum0 (bincount (wrap (clip0 (cumsumMask mask)))))))

/-- The negative-index wrap of the selected row numbers, as the 100000 × 1 index column `h[sel]` gathers at. -/
def wrapCol (s : IVec S100000 32) : IVec S100000x1 32 :=
  broadcastInDim S100000x1 ![0] bcast_S100000_S100000x1_0
    (select (cmpi .slt s (broadcastInDim S100000 ![] bcast_S_S100000 (constantI S_ 32 0#32)))
      (addi s (broadcastInDim S100000 ![] bcast_S_S100000 (constantI S_ 32 100000#32))) s)

/-- `selOf` with every stage written out: the operations in the program's order, each applied to the earlier
    values. -/
theorem selOf_unfold (mask : IVec S100000 1) :
    selOf mask =
      let z : IVec S_ 32 := constantI S_ 32 0#32
      let zs : IVec S100000 32 := broadcastInDim S100000 ![] bcast_S_S100000 (constantI S_ 32 0#32)
      let v67 : IVec S100000 32 :=
        Host.reduceWindow IntOp.addi ![100000] ![1] ![99999] ![0] (extui 32 mask natLt_1_32)
          (broadcastInDim S_ ![] bcast_S_S_ (constantI S_ 32 0#32)) reduceWindows_S100000_S100000_w100000s1p99999_0 h_S_
      let v69 : IVec S100000 32 := maxsi (broadcastInDim S100000 ![] bcast_S_S100000 (id z)) v67
      let v74 : IVec S100000 32 :=
        select (cmpi .slt v69 zs) (addi v69 (broadcastInDim S100000 ![] bcast_S_S100000 (constantI S_ 32 100000#32))) v69
      let v77 : IVec S100000 32 :=
        Host.scatter scatter_S100000_S100000x1_S100000_n_0_0_1 IntOp.addi zs
          (broadcastInDim S100000x1 ![0] bcast_S100000_S100000x1_0 v74)
          (broadcastInDim S100000 ![] bcast_S_S100000 (constantI S_ 32 1#32))
      let v78 : IVec S100000 32 :=
        Host.reduceWindow IntOp.addi ![100000] ![1] ![99999] ![0] v77
          (broadcastInDim S_ ![] bcast_S_S_ (constantI S_ 32 0#32)) reduceWindows_S100000_S100000_w100000s1p99999_0 h_S_
      select
        (cmpi .sge (iotaInDim S100000 32 0)
          (broadcastInDim S100000 ![] bcast_S_S100000
            (Host.reduce IntOp.addi (extui 32 mask natLt_1_32) (constantI S_ 32 0#32) reducesTo_S100000_S_d0 h_S_)))
        (broadcastInDim S100000 ![] bcast_S_S100000 (id z))
        (rem100000 (floorDiv1 v78)) := rfl

end Cert.ReferenceIdeal.Nonzero

end
-- ==== Proof.RefStages.lean ====
/- The reference program's values as pure functions of its argument arrays, cut into named stages: the edge table's two
   rows, one neighbourhood sum (gather the source rows, add them into the destination rows), one graph-convolution
   layer (the neighbourhood sum times one weight, plus a bias, plus the node's own row times another weight, then
   max with 0), the degree mask (out-degree > 2), and the head (two one-column projections with max 0, their
   two-column mix, the logistic function). Each definition is the program's operations composed, in program order. -/
import proofs.«173128_j60224031425324_2_alg».proof.Proof.Gen.ReferenceIdeal
import proofs.«173128_j60224031425324_2_alg».proof.Proof.NonzeroSpec

noncomputable section

namespace Cert.ReferenceIdeal.RefRun

open Cert.ReferenceIdeal Idealize.ShloMosaic Idealize.ShloMosaic.TcCoe Idealize.SL.Sem
open Cert.ReferenceIdeal.Facts₀ Cert.ReferenceIdeal.Facts

variable {F : FTy → Type} [FloatOps F] [Facts]

/-- The edges' source nodes: row 0 of the edge table (%0, %1). -/
def srcOf (ei : IVec S2x400000 32) : IVec S400000 32 :=
  shapeCast S400000 (extractStridedSlice S1x400000 ![0, 0] ei slices_S2x400000_S1x400000_0_0) shapeCasts_S1x400000_S400000

/-- The edges' destination nodes: row 1 of the edge table (%2, %3). -/
def dstOf (ei : IVec S2x400000 32) : IVec S400000 32 :=
  shapeCast S400000 (extractStridedSlice S1x400000 ![1, 0] ei slices_S2x400000_S1x400000_1_0) shapeCasts_S1x400000_S400000

/-- The source nodes as the gather's index column: a negative index is shifted up by the node count (%4 … %9). -/
def srcCol (ei : IVec S2x400000 32) : IVec S400000x1 32 :=
  broadcastInDim S400000x1 ![0] bcast_S400000_S400000x1_0
    (select (cmpi .slt (srcOf ei) (broadcastInDim S400000 ![] bcast_S_S400000 (constantI S_ 32 0#32)))
      (addi (srcOf ei) (broadcastInDim S400000 ![] bcast_S_S400000 (constantI S_ 32 100000#32)))
      (srcOf ei))

/-- The destination nodes as the scatter's index column (%12). -/
def dstCol (ei : IVec S2x400000 32) : IVec S400000x1 32 :=
  broadcastInDim S400000x1 ![0] bcast_S400000_S400000x1_0 (dstOf ei)

/-- The neighbourhood sum of 128-column rows: row `dst e` of the result is the sum over the edges `e` into it of row
    `src e` of `h` (%10, %11, %13). -/
def aggOf128 (h : FVec F S100000x128 .f32) (ei : IVec S2x400000 32) : FVec F S100000x128 .f32 :=
  Host.scatterAdd scatter_S100000x128_S400000x1_S400000x128_1_0_0_1
    (broadcastInDim S100000x128 ![] bcast_S_S100000x128 (constant S_ .f32 0x00000000#32))
    (dstCol ei)
    (Host.gather gather_S100000x128_S400000x1_S400000x128_1_0_n_n_0_1_1128 h (srcCol ei))

/-- The neighbourhood sum of 256-column rows (%23 … %32, and again %42 … %51). -/
def aggOf256 (h : FVec F S100000x256 .f32) (ei : IVec S2x400000 32) : FVec F S100000x256 .f32 :=
  Host.scatterAdd scatter_S100000x256_S400000x1_S400000x256_1_0_0_1
    (broadcastInDim S100000x256 ![] bcast_S_S100000x256 (constant S_ .f32 0x00000000#32))
    (dstCol ei)
    (Host.gather gather_S100000x256_S400000x1_S400000x256_1_0_n_n_0_1_1256 h (srcCol ei))

/-- The first layer: max 0 of (neighbourhood sum · Wrᵀ + b + x · Wsᵀ) (%14 … %22). -/
def layer0 (x : FVec F S100000x128 .f32) (ei : IVec S2x400000 32) (Wr : FVec F S256x128 .f32) (b : FVec F S256 .f32)
    (Ws : FVec F S256x128 .f32) : FVec F S100000x256 .f32 :=
  maximumf
    (addf
      (addf
        (Host.dotGeneral dot_S100000x128_S128x256_S100000x256_1_0_0_1_n_n none (aggOf128 x ei)
          (transpose S128x256 [1, 0] Wr transposes_S256x128_S128x256_1_0))
        (broadcastInDim S100000x256 ![0, 1] bcast_S1x256_S100000x256_0_1 (broadcastInDim S1x256 ![1] bcast_S256_S1x256_1 b)))
      (Host.dotGeneral dot_S100000x128_S128x256_S100000x256_1_0_0_1_n_n none x
        (transpose S128x256 [1, 0] Ws transposes_S256x128_S128x256_1_0)))
    (broadcastInDim S100000x256 ![] bcast_S_S100000x256 (constant S_ .f32 0x00000000#32))

/-- A later layer: the same over 256-column rows (%33 … %41, and again %52 … %60). -/
def layer1 (h : FVec F S100000x256 .f32) (ei : IVec S2x400000 32) (Wr : FVec F S256x256 .f32) (b : FVec F S256 .f32)
    (Ws : FVec F S256x256 .f32) : FVec F S100000x256 .f32 :=
  maximumf
    (addf
      (addf
        (Host.dotGeneral dot_S100000x256_S256x256_S100000x256_1_0_0_1_n_n none (aggOf256 h ei)
          (transpose S256x256 [1, 0] Wr transposes_S256x256_S256x256_1_0))
        (broadcastInDim S100000x256 ![0, 1] bcast_S1x256_S100000x256_0_1 (broadcastInDim S1x256 ![1] bcast_S256_S1x256_1 b)))
      (Host.dotGeneral dot_S100000x256_S256x256_S100000x256_1_0_0_1_n_n none h
        (transpose S256x256 [1, 0] Ws transposes_S256x256_S256x256_1_0)))
    (broadcastInDim S100000x256 ![] bcast_S_S100000x256 (constant S_ .f32 0x00000000#32))

/-- The degree mask: node `n` is kept when the number of edges whose source is `n`, counted in floats, exceeds 2
    (%61 … %66). The float family is the one the count is made in; the mask itself is an integer vector. -/
def maskOf (ei : IVec S2x400000 32) : IVec S100000 1 :=
  cmpf .ogt
    (Host.scatterAdd scatter_S100000_S400000x1_S400000_n_0_0_1
      (broadcastInDim S100000 ![] bcast_S_S100000 (constant (F := F) S_ .f32 0x00000000#32))
      (broadcastInDim S400000x1 ![0] bcast_S400000_S400000x1_0 (srcOf ei))
      (broadcastInDim S400000 ![] bcast_S_S400000 (constant (F := F) S_ .f32 0x3F800000#32)))
    (broadcastInDim S100000 ![] bcast_S_S100000 (constant (F := F) S_ .f32 0x40000000#32))

/-- One branch of the head: max 0 of (x · Wᵀ + b), one column (%97 … %102, and %103 … %108). -/
def branchOf (x : FVec F S50000x256 .f32) (W : FVec F S1x256 .f32) (b : FVec F S1 .f32) : FVec F S50000x1 .f32 :=
  maximumf
    (addf
      (Host.dotGeneral dot_S50000x256_S256x1_S50000x1_1_0_0_1_n_n none x (transpose S256x1 [1, 0] W transposes_S1x256_S256x1_1_0))
      (broadcastInDim S50000x1 ![0, 1] bcast_S1x1_S50000x1_0_1 (broadcastInDim S1x1 ![1] bcast_S1_S1x1_1 b)))
    (broadcastInDim S50000x1 ![] bcast_S_S50000x1 (constant S_ .f32 0x00000000#32))

/-- The head: the two branches side by side, times Wlᵀ, plus bl, through the logistic function 1 / (1 + exp (−z))
    (%97 … %120). -/
def headOf (x1 x2 : FVec F S50000x256 .f32) (Wsp1 : FVec F S1x256 .f32) (bsp1 : FVec F S1 .f32) (Wsp2 : FVec F S1x256 .f32)
    (bsp2 : FVec F S1 .f32) (Wl : FVec F S1x2 .f32) (bl : FVec F S1 .f32) : FVec F S50000x1 .f32 :=
  Host.divf (broadcastInDim S50000x1 ![] bcast_S_S50000x1 (constant S_ .f32 0x3F800000#32))
    (addf (broadcastInDim S50000x1 ![] bcast_S_S50000x1 (constant S_ .f32 0x3F800000#32))
      (Host.exp (Host.negf
        (addf
          (Host.dotGeneral dot_S50000x2_S2x1_S50000x1_1_0_0_1_n_n none
            (concatenate S50000x2 1 [⟨S50000x1, branchOf x1 Wsp1 bsp1⟩, ⟨S50000x1, branchOf x2 Wsp2 bsp2⟩]
              concatenates_S50000x1_S50000x1_S50000x2_d1)
            (transpose S2x1 [1, 0] Wl transposes_S1x2_S2x1_1_0))
          (broadcastInDim S50000x1 ![0, 1] bcast_S1x1_S50000x1_0_1 (broadcastInDim S1x1 ![1] bcast_S1_S1x1_1 bl))))))

section Results

variable (m : (ℓ : Loc nD τ sig) → Buf (Elt F) ℓ) (c : Dev nD)

/-- The three layers' output over the launch contents of the arguments (%60). -/
def resH : FVec F S100000x256 .f32 :=
  layer1
    (layer1
      (layer0 (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)))
      (m ((c.tc : Thread nD τ).loc main_arg1)) (m ((c.tc : Thread nD τ).loc main_arg6)) (m ((c.tc : Thread nD τ).loc main_arg7))
      (m ((c.tc : Thread nD τ).loc main_arg8)))
    (m ((c.tc : Thread nD τ).loc main_arg1)) (m ((c.tc : Thread nD τ).loc main_arg9)) (m ((c.tc : Thread nD τ).loc main_arg10))
    (m ((c.tc : Thread nD τ).loc main_arg11))

/-- The kept rows, two to a row (%94): the rows of the layers' output at the nonzero positions of the degree mask,
    read as 50000 rows of 512. -/
def resXs : FVec F S50000x512 .f32 :=
  shapeCast S50000x512
    (Host.gather gather_S100000x256_S100000x1_S100000x256_1_0_n_n_0_1_1256 (resH m c)
      (Nonzero.wrapCol (Nonzero.selOf (maskOf (F := F) (m ((c.tc : Thread nD τ).loc main_arg1))))))
    shapeCasts_S100000x256_S50000x512

/-- The left halves of those rows (%95). -/
def resX1 : FVec F S50000x256 .f32 := extractStridedSlice S50000x256 ![0, 0] (resXs m c) slices_S50000x512_S50000x256_0_0

/-- The right halves (%96). -/
def resX2 : FVec F S50000x256 .f32 := extractStridedSlice S50000x256 ![0, 256] (resXs m c) slices_S50000x512_S50000x256_0_256

/-- The head's output (%120). -/
def resY : FVec F S50000x1 .f32 :=
  headOf (resX1 m c) (resX2 m c) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16))
    (m ((c.tc : Thread nD τ).loc main_arg17))

end Results

end Cert.ReferenceIdeal.RefRun

end
-- ==== Proof.RefLayer.lean ====
/-
  The reference program's layer stages, entry by entry.

  A stage is the host's spelling of one graph-convolution layer: two dot_generals against transposed weights, the bias vector
  laid out as a row and broadcast down the rows, two additions and a maximum against a broadcast zero. At an entry that is the
  layer of Proof/LibGraphConv.lean on the aggregated table, the table, the transposed weights and the bias read as a one-row table.
-/
import proofs.«173128_j60224031425324_2_alg».proof.Proof.RefStages
import proofs.«173128_j60224031425324_2_alg».proof.Proof.LibGraphConv

noncomputable section

namespace Cert.ReferenceIdeal.Bridge

open Cert.ReferenceIdeal Cert.ReferenceIdeal.RefRun Cert.ReferenceIdeal.Facts₀ Cert.ReferenceIdeal.Facts
open Idealize.ShloMosaic Idealize.ShloMosaic.ValueIdx Cert.LibDense Cert.GraphConv

variable [Facts]

/-- A bias vector read as a one-row table. -/
def biasRow (b : S256.Idx → EReal) : (⟨2, ![1, 256]⟩ : Shape).Idx → EReal := fun y => b (ix1 (y 1))

/-- The bias vector laid out as a row and broadcast down the rows, at entry (r, j), is its entry j. -/
theorem bias2 (b : S256.Idx → EReal) (i : S100000x256.Idx) :
    broadcastInDim S100000x256 ![0, 1] bcast_S1x256_S100000x256_0_1 (broadcastInDim S1x256 ![1] bcast_S256_S1x256_1 b) i
      = biasRow b (ix2 row0 (i 1)) := by
  refine (broadcastInDim_apply _ _ _ i (ix2 row0 (i 1) : S1x256.Idx) (fun a => ?_)).trans ?_
  · match a with
    | ⟨0, _⟩ => exact (if_pos rfl).symm
    | ⟨1, _⟩ => exact (if_neg (by show ¬ ((256 : ℕ) = 1); omega)).symm
  · refine broadcastInDim_apply _ _ _ (ix2 row0 (i 1) : S1x256.Idx) (ix1 (i 1) : S256.Idx) (fun a => ?_)
    match a with
    | ⟨0, _⟩ => exact (if_neg (by show ¬ ((256 : ℕ) = 1); omega)).symm

/-- The zero word broadcast over the table, at any entry, is the zero word's value. -/
theorem zero_bcast (i : S100000x256.Idx) :
    broadcastInDim S100000x256 ![] bcast_S_S100000x256 (constant (F := Ideal) S_ .f32 0x00000000#32) i = Ideal.ofBits .f32 0x00000000#32 :=
  broadcastInDim_apply _ _ _ i (fun a => a.elim0) (fun a => a.elim0)

/-- The reference's layer on a [100000, 128] table, entry by entry: its two host products are row-by-column sums, its bias
    reaches every row, and adding the bias before the second product is the same sum. -/
theorem layer0_apply (x : FVec Ideal S100000x128 .f32) (ei : IVec S2x400000 32) (Wr : FVec Ideal S256x128 .f32)
    (b : FVec Ideal S256 .f32) (Ws : FVec Ideal S256x128 .f32) (i : S100000x256.Idx) :
    layer0 (F := Ideal) x ei Wr b Ws i
      = layer (n := 100000) (K := 128) (d := 256) (aggOf128 x ei) x
          (transpose S128x256 [1, 0] Wr transposes_S256x128_S128x256_1_0) (transpose S128x256 [1, 0] Ws transposes_S256x128_S128x256_1_0)
          (biasRow b) i := by
  unfold layer0
  refine Eq.trans ?_ (layer_bias_first _ _ _ _ _ i)
  refine congrArg₂ max (congrArg₂ (· + ·) (congrArg₂ (· + ·) ?_ ?_) ?_) ?_
  · exact dotGeneral_plain (M := 100000) (K := 128) (N := 256) _ _ _ i
  · exact bias2 b i
  · exact dotGeneral_plain (M := 100000) (K := 128) (N := 256) _ _ _ i
  · exact zero_bcast i

/-- The reference's layer on a [100000, 256] table, entry by entry: its two host products are row-by-column sums, its bias
    reaches every row, and adding the bias before the second product is the same sum. -/
theorem layer1_apply (x : FVec Ideal S100000x256 .f32) (ei : IVec S2x400000 32) (Wr : FVec Ideal S256x256 .f32)
    (b : FVec Ideal S256 .f32) (Ws : FVec Ideal S256x256 .f32) (i : S100000x256.Idx) :
    layer1 (F := Ideal) x ei Wr b Ws i
      = layer (n := 100000) (K := 256) (d := 256) (aggOf256 x ei) x
          (transpose S256x256 [1, 0] Wr transposes_S256x256_S256x256_1_0) (transpose S256x256 [1, 0] Ws transposes_S256x256_S256x256_1_0)
          (biasRow b) i := by
  unfold layer1
  refine Eq.trans ?_ (layer_bias_first _ _ _ _ _ i)
  refine congrArg₂ max (congrArg₂ (· + ·) (congrArg₂ (· + ·) ?_ ?_) ?_) ?_
  · exact dotGeneral_plain (M := 100000) (K := 256) (N := 256) _ _ _ i
  · exact bias2 b i
  · exact dotGeneral_plain (M := 100000) (K := 256) (N := 256) _ _ _ i
  · exact zero_bcast i

end Cert.ReferenceIdeal.Bridge

end
-- ==== Proof.LibPlaneSum.lean ====
/-
  A rank-4 array [A, B, H, W] summed over its last two axes, and the logistic function spelt with words.

  * The indices of [A, B, H, W] whose first two coordinates are (a, b) are the H · W positions of one plane; numbered
    k = W · h + w they are h = k / W, w = k % W. A sum over that set of indices — what a reduction over the axes
    [2, 3] computes at (a, b), in any commutative additive monoid — is the sum over k : Fin (H · W) of the array at
    position k of the plane. The same numbering is the row-major re-laying [A, B, H, W] → [A, B, H · W].
  * The f32 word of 1.0 is the extended real 1, and 1 / (1 + exp (-x)) spelt with that word is the logistic function.
-/
import Idealize.ShloMosaic.PureOps.Ideal
import Idealize.ShloMosaic.PureOps.Ideal.Laws
import Idealize.ShloMosaic.Lib.ValueIdx

noncomputable section

namespace Cert.LibPlaneSum

open Idealize.ShloMosaic Idealize.ShloMosaic.ValueIdx

/-- Position k of the plane of (a, b): row k / W, column k % W. -/
def planeIdx {A B H W : ℕ} (a : Fin A) (b : Fin B) (k : Fin (H * W)) : (⟨4, ![A, B, H, W]⟩ : Shape).Idx :=
  have hW : 0 < W := Nat.pos_of_ne_zero fun h => by
    have hpos : 0 < H * W := Nat.lt_of_le_of_lt (Nat.zero_le _) k.isLt
    rw [h, Nat.mul_zero] at hpos; exact Nat.lt_irrefl _ hpos
  ix4 a b (⟨k.val / W, (Nat.div_lt_iff_lt_mul hW).mpr k.isLt⟩ : Fin H) (⟨k.val % W, Nat.mod_lt _ hW⟩ : Fin W)

theorem planeIdx_val0 {A B H W : ℕ} (a : Fin A) (b : Fin B) (k : Fin (H * W)) : (planeIdx a b k 0).val = a.val := rfl
theorem planeIdx_val1 {A B H W : ℕ} (a : Fin A) (b : Fin B) (k : Fin (H * W)) : (planeIdx a b k 1).val = b.val := rfl
theorem planeIdx_val2 {A B H W : ℕ} (a : Fin A) (b : Fin B) (k : Fin (H * W)) : (planeIdx a b k 2).val = k.val / W := rfl
theorem planeIdx_val3 {A B H W : ℕ} (a : Fin A) (b : Fin B) (k : Fin (H * W)) : (planeIdx a b k 3).val = k.val % W := rfl

/-- Position W · h + w of the plane is (h, w). -/
theorem pos_lt {H W : ℕ} (h : Fin H) (w : Fin W) : h.val * W + w.val < H * W := by
  have hh : h.val + 1 ≤ H := h.isLt
  calc h.val * W + w.val < h.val * W + W := Nat.add_lt_add_left w.isLt _
    _ = (h.val + 1) * W := (Nat.succ_mul _ _).symm
    _ ≤ H * W := Nat.mul_le_mul_right _ hh

theorem planeIdx_pos {A B H W : ℕ} (a : Fin A) (b : Fin B) (h : Fin H) (w : Fin W) :
    planeIdx a b (⟨h.val * W + w.val, pos_lt h w⟩ : Fin (H * W)) = ix4 a b h w := by
  have hW : 0 < W := Nat.lt_of_le_of_lt (Nat.zero_le _) w.isLt
  refine funext fun d => Fin.ext ?_
  match d with
  | ⟨0, _⟩ => rfl
  | ⟨1, _⟩ => rfl
  | ⟨2, _⟩ =>
    show (h.val * W + w.val) / W = h.val
    rw [Nat.mul_comm, Nat.mul_add_div hW, Nat.div_eq_of_lt w.isLt, Nat.add_zero]
  | ⟨3, _⟩ =>
    show (h.val * W + w.val) % W = w.val
    rw [Nat.mul_comm, Nat.mul_add_mod, Nat.mod_eq_of_lt w.isLt]

/-- A sum over the indices that a map keeping the first two coordinates sends to j is the sum over the plane of
    (j 0, j 1). `drop` is a reduction's index map over the axes [2, 3]. -/
theorem sum_plane {M : Type*} [AddCommMonoid M] {A B H W : ℕ} (X : (⟨4, ![A, B, H, W]⟩ : Shape).Idx → M)
    (drop : (⟨4, ![A, B, H, W]⟩ : Shape).Idx → (⟨2, ![A, B]⟩ : Shape).Idx)
    (h0 : ∀ i, (drop i 0).val = (i 0).val) (h1 : ∀ i, (drop i 1).val = (i 1).val)
    (j : (⟨2, ![A, B]⟩ : Shape).Idx) :
    ∑ i ∈ Finset.univ.filter (fun i => drop i = j), X i = ∑ k : Fin (H * W), X (planeIdx (j 0) (j 1) k) := by
  symm
  refine Finset.sum_bij (fun k _ => planeIdx (j 0) (j 1) k) (fun k _ => ?_) (fun k _ k' _ hk => ?_) (fun i hi => ?_)
    (fun _ _ => rfl)
  · refine Finset.mem_filter.mpr ⟨Finset.mem_univ _, funext fun d => Fin.ext ?_⟩
    match d with
    | ⟨0, _⟩ => exact h0 _
    | ⟨1, _⟩ => exact h1 _
  · have e2 : k.val / W = k'.val / W := congrArg (fun i => (i 2).val) hk
    have e3 : k.val % W = k'.val % W := congrArg (fun i => (i 3).val) hk
    refine Fin.ext ?_
    rw [← Nat.div_add_mod k.val W, ← Nat.div_add_mod k'.val W, e2, e3]
  · have hj : drop i = j := (Finset.mem_filter.mp hi).2
    have e0 : (j 0).val = (i 0).val := by rw [← hj]; exact h0 i
    have e1 : (j 1).val = (i 1).val := by rw [← hj]; exact h1 i
    have hi2 : i 2 = (⟨(i 2).val, (i 2).isLt⟩ : Fin H) := rfl
    refine ⟨(⟨(i 2).val * W + (i 3).val, pos_lt (⟨(i 2).val, (i 2).isLt⟩ : Fin H) (⟨(i 3).val, (i 3).isLt⟩ : Fin W)⟩ : Fin (H * W)),
      Finset.mem_univ _, ?_⟩
    refine (planeIdx_pos (j 0) (j 1) (⟨(i 2).val, (i 2).isLt⟩ : Fin H) (⟨(i 3).val, (i 3).isLt⟩ : Fin W)).trans
      (funext fun d => Fin.ext ?_)
    match d with
    | ⟨0, _⟩ => exact e0
    | ⟨1, _⟩ => exact e1
    | ⟨2, _⟩ => rfl
    | ⟨3, _⟩ => rfl

/-- The word of 1.0 is the extended real 1. -/
theorem ofBits_one_f32 : Ideal.ofBits .f32 0x3F800000#32 = 1 := by
  simp [Ideal.ofBits, Ideal.ieee, -EReal.coe_mul]; norm_num

/-- The logistic function spelt with the word of 1.0 for both ones, 1 / (1 + exp (-x)), is the logistic function. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.LibPlaneSum

end
-- ==== Proof.RefHead.lean ====
/-
  The reference's head stage on the extended reals, entry by entry.

  Each branch is a one-column product with the transposed weight row, plus the bias broadcast down the rows, with the
  larger of that and zero taken: at row r it is  max (∑ k, x (r, k) · W (0, k) + b 0) 0.  The two branches are laid side
  by side as two columns, multiplied by the transposed mixing row — a sum of two terms —, the last bias is added, and
  1 / (1 + exp (−z)) of the result is the logistic function of it. Only the definition of each operation at an index,
  the two-term sum and the spelling of the logistic function are used; nothing needs a value to be finite.
-/
import proofs.«173128_j60224031425324_2_alg».proof.Proof.RefStages
import proofs.«173128_j60224031425324_2_alg».proof.Proof.LibHead
import proofs.«173128_j60224031425324_2_alg».proof.Proof.LibDense
import proofs.«173128_j60224031425324_2_alg».proof.Proof.LibPlaneSum
import Idealize.ShloMosaic.Lib.Pipeline.Value
import Idealize.ShloMosaic.Lib.ValueIdx

open scoped BigOperators

noncomputable section

namespace Cert.ReferenceIdeal.Bridge

open Cert.ReferenceIdeal Idealize.ShloMosaic Idealize.ShloMosaic.ValueIdx Cert.ReferenceIdeal.RefRun Cert.GraphConv
open Cert.ReferenceIdeal.Facts₀ Cert.ReferenceIdeal.Facts

variable [Facts]

/-- A one-entry bias, laid out as a 1 × 1 table and broadcast down 50000 rows, is at every entry its one entry. -/
theorem bias_cell (b : FVec Ideal S1 .f32) (j : S50000x1.Idx) :
    broadcastInDim S50000x1 ![0, 1] bcast_S1x1_S50000x1_0_1 (broadcastInDim S1x1 ![1] bcast_S1_S1x1_1 b) j
      = b (ix1 ⟨0, Nat.one_pos⟩) := by
  rw [broadcastInDim_apply _ _ _ j (ix2 row0 row0) (fun a => by
    match a with
    | ⟨0, _⟩ => exact (if_pos rfl).symm
    | ⟨1, _⟩ => exact (if_pos rfl).symm)]
  exact broadcastInDim_apply _ _ _ _ (ix1 ⟨0, Nat.one_pos⟩) (fun a => by
    match a with
    | ⟨0, _⟩ => exact (if_pos rfl).symm)

/-- One branch at row r: the rectified one-column linear map. -/
theorem branchOf_apply (x : FVec Ideal S50000x256 .f32) (W : FVec Ideal S1x256 .f32) (b : FVec Ideal S1 .f32) (r : Fin 50000) :
    branchOf (F := Ideal) x W b (ix2 r row0)
      = Cert.Head.branch (n := 50000) (K := 256) x W (b (ix1 ⟨0, Nat.one_pos⟩)) r := by
  have hdot : Host.dotGeneral dot_S50000x256_S256x1_S50000x1_1_0_0_1_n_n none x
      (transpose S256x1 [1, 0] W transposes_S1x256_S256x1_1_0) (ix2 r row0)
      = ∑ k : Fin 256, x (ix2 r k) * W (ix2 row0 k) := by
    have hd : dot_S50000x256_S256x1_S50000x1_1_0_0_1_n_n = DotDims.plain 50000 256 1 := rfl
    show FloatOps.dotGeneral _ none HostSchedule.single x _ _ = _
    rw [hd, Cert.LibDense.dotGeneral_plain]
    unfold Cert.LibDense.prod
    refine Finset.sum_congr rfl fun k _ => ?_
    refine congrArg (x (ix2 r k) * ·) ?_
    exact transpose_apply _ _ _ _ (ix2 row0 k) (fun b => by
      match b with
      | ⟨0, _⟩ => rfl
      | ⟨1, _⟩ => rfl)
  unfold branchOf Cert.Head.branch
  rw [maximumf_apply, addf_apply, hdot, bias_cell]
  rfl

/-- The two branches side by side, read in the left column. -/
theorem concat_left (y1 y2 : FVec Ideal S50000x1 .f32) (r : Fin 50000) :
    concatenate S50000x2 1 [⟨S50000x1, y1⟩, ⟨S50000x1, y2⟩] concatenates_S50000x1_S50000x1_S50000x2_d1 (ix2 r (0 : Fin 2))
      = y1 (ix2 r row0) :=
  concatenate_pair_apply_left (1 : Fin S50000x2.rank) y1 y2 concatenates_S50000x1_S50000x1_S50000x2_d1 (ix2 r (0 : Fin 2)) rfl
    (ix2 r row0) (fun b => by
      match b with
      | ⟨0, _⟩ => rfl
      | ⟨1, _⟩ => rfl)

/-- The two branches side by side, read in the right column. -/
theorem concat_right (y1 y2 : FVec Ideal S50000x1 .f32) (r : Fin 50000) :
    concatenate S50000x2 1 [⟨S50000x1, y1⟩, ⟨S50000x1, y2⟩] concatenates_S50000x1_S50000x1_S50000x2_d1 (ix2 r (1 : Fin 2))
      = y2 (ix2 r row0) :=
  concatenate_pair_apply_right (1 : Fin S50000x2.rank) y1 y2 concatenates_S50000x1_S50000x1_S50000x2_d1 (ix2 r (1 : Fin 2)) rfl rfl
    (ix2 r row0) (fun b hb => by
      match b with
      | ⟨0, _⟩ => rfl
      | ⟨1, _⟩ => exact absurd rfl hb) rfl

/-- The head at row r. -/
theorem headOf_apply_row (x1 x2 : FVec Ideal S50000x256 .f32) (Wsp1 : FVec Ideal S1x256 .f32) (bsp1 : FVec Ideal S1 .f32)
    (Wsp2 : FVec Ideal S1x256 .f32) (bsp2 : FVec Ideal S1 .f32) (Wl : FVec Ideal S1x2 .f32) (bl : FVec Ideal S1 .f32) (r : Fin 50000) :
    headOf (F := Ideal) x1 x2 Wsp1 bsp1 Wsp2 bsp2 Wl bl (ix2 r row0)
      = Cert.Head.head (n := 50000) (K := 256) x1 x2 Wsp1 (bsp1 (ix1 ⟨0, Nat.one_pos⟩)) Wsp2 (bsp2 (ix1 ⟨0, Nat.one_pos⟩))
          (Wl (ix2 row0 (0 : Fin 2))) (Wl (ix2 row0 (1 : Fin 2))) (bl (ix1 ⟨0, Nat.one_pos⟩)) (ix2 r row0) := by
  have hdot : Host.dotGeneral dot_S50000x2_S2x1_S50000x1_1_0_0_1_n_n none
      (concatenate S50000x2 1 [⟨S50000x1, branchOf x1 Wsp1 bsp1⟩, ⟨S50000x1, branchOf x2 Wsp2 bsp2⟩]
        concatenates_S50000x1_S50000x1_S50000x2_d1)
      (transpose S2x1 [1, 0] Wl transposes_S1x2_S2x1_1_0) (ix2 r row0)
      = branchOf (F := Ideal) x1 Wsp1 bsp1 (ix2 r row0) * Wl (ix2 row0 (0 : Fin 2))
        + branchOf (F := Ideal) x2 Wsp2 bsp2 (ix2 r row0) * Wl (ix2 row0 (1 : Fin 2)) := by
    have hd : dot_S50000x2_S2x1_S50000x1_1_0_0_1_n_n = DotDims.plain 50000 2 1 := rfl
    show FloatOps.dotGeneral _ none HostSchedule.single _ _ _ = _
    rw [hd, Cert.LibDense.dotGeneral_plain]
    unfold Cert.LibDense.prod
    rw [Fin.sum_univ_two]
    have t0 : transpose S2x1 [1, 0] Wl transposes_S1x2_S2x1_1_0 (ix2 (0 : Fin 2) row0) = Wl (ix2 row0 (0 : Fin 2)) :=
      transpose_apply _ _ _ _ (ix2 row0 (0 : Fin 2)) (fun b => by
        match b with
        | ⟨0, _⟩ => rfl
        | ⟨1, _⟩ => rfl)
    have t1 : transpose S2x1 [1, 0] Wl transposes_S1x2_S2x1_1_0 (ix2 (1 : Fin 2) row0) = Wl (ix2 row0 (1 : Fin 2)) :=
      transpose_apply _ _ _ _ (ix2 row0 (1 : Fin 2)) (fun b => by
        match b with
        | ⟨0, _⟩ => rfl
        | ⟨1, _⟩ => rfl)
    exact congrArg₂ (· + ·) (congrArg₂ (· * ·) (concat_left _ _ r) t0) (congrArg₂ (· * ·) (concat_right _ _ r) t1)
  unfold headOf Cert.Head.head
  show Ideal.div (Ideal.ofBits .f32 0x3F800000#32) (Ideal.ofBits .f32 0x3F800000#32 + Ideal.exp (-(_ + _))) = _
  rw [Cert.LibPlaneSum.logistic_spelt, hdot, bias_cell, branchOf_apply, branchOf_apply]

/-- The head, entry by entry. -/
theorem headOf_apply (x1 x2 : FVec Ideal S50000x256 .f32) (Wsp1 : FVec Ideal S1x256 .f32) (bsp1 : FVec Ideal S1 .f32)
    (Wsp2 : FVec Ideal S1x256 .f32) (bsp2 : FVec Ideal S1 .f32) (Wl : FVec Ideal S1x2 .f32) (bl : FVec Ideal S1 .f32) (i : S50000x1.Idx) :
    headOf (F := Ideal) x1 x2 Wsp1 bsp1 Wsp2 bsp2 Wl bl i
      = Cert.Head.head (n := 50000) (K := 256) x1 x2 Wsp1 (bsp1 (ix1 ⟨0, Nat.one_pos⟩)) Wsp2 (bsp2 (ix1 ⟨0, Nat.one_pos⟩))
          (Wl (ix2 row0 (0 : Fin 2))) (Wl (ix2 row0 (1 : Fin 2))) (bl (ix1 ⟨0, Nat.one_pos⟩)) i := by
  have hi : i = ix2 (i 0) row0 := by
    rw [eq_ix2 (n0 := 50000) (n1 := 1) i]
    exact congrArg (ix2 (n0 := 50000) (n1 := 1) (i 0)) (Subsingleton.elim _ _)
  rw [hi]
  exact headOf_apply_row x1 x2 Wsp1 bsp1 Wsp2 bsp2 Wl bl (i 0)

end Cert.ReferenceIdeal.Bridge

end
-- ==== Proof.KernelWalk.lean ====
/-
  The kernel program's buffers at its eight boundaries, read back to the arguments.

  Walking the fold from the launch memory: a host stretch's results are its operations composed over what the boundary before
  it holds; a launch's output is the layer (or the head) of the arrays it found; buffers nobody writes in between keep their
  contents. The stretches' gather / scatter-add / transpose terms are, word for word, the reference's own aggregate and weight
  terms once the two format changes (which are the identity on the extended reals) are dropped, so each launch's output comes out
  as the reference's layer stage of the previous one.
-/
import proofs.«173128_j60224031425324_2_alg».proof.Proof.KernelRun
import proofs.«173128_j60224031425324_2_alg».proof.Proof.Region0
import proofs.«173128_j60224031425324_2_alg».proof.Proof.Region1
import proofs.«173128_j60224031425324_2_alg».proof.Proof.Region2
import proofs.«173128_j60224031425324_2_alg».proof.Proof.Region3
import proofs.«173128_j60224031425324_2_alg».proof.Proof.RefLayer
import proofs.«173128_j60224031425324_2_alg».proof.Proof.RefHead
import Idealize.ShloMosaic.Lib.StableHlo.Run
import Idealize.ShloMosaic.Lib.ValueLayout

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo
open Cert.ReferenceIdeal.RefRun Cert.ReferenceIdeal.Bridge Cert.GraphConv Cert.LibDense

/-- The reference program's stated side conditions, at the witnesses its generated module proves. -/
local instance refFacts : Cert.ReferenceIdeal.Facts := Cert.ReferenceIdeal.Gen.facts

variable (m : (ℓ : Loc nD τ sig) → Buf (Elt Ideal) ℓ) (ρ : Dev nD → PrngReg)

/-! ## The first stretch -/

set_option maxHeartbeats 4000000 in
theorem w1_agg (c : Dev nD) : (W1 m ρ c (Proc.devRef .tc main_v15) : S100000x128.Idx → EReal)
    = aggOf128 (F := Ideal) (m ((c : Thread nD τ).loc main_arg0)) (m ((c : Thread nD τ).loc main_arg1)) := by
  show StableHlo.after hostOps0 (W0 m ρ c) (Proc.devRef .tc main_v15) = _
  after_results_simp
  all_goals rfl

set_option maxHeartbeats 4000000 in
theorem w1_x (c : Dev nD) : (W1 m ρ c (Proc.devRef .tc main_arg0) : S100000x128.Idx → EReal)
    = (m ((c : Thread nD τ).loc main_arg0)) := by
  show StableHlo.after hostOps0 (W0 m ρ c) (Proc.devRef .tc main_arg0) = _
  after_results_simp
  all_goals rfl

set_option maxHeartbeats 4000000 in
theorem w1_wr (c : Dev nD) : (W1 m ρ c (Proc.devRef .tc main_v16) : S128x256.Idx → EReal)
    = transpose S128x256 [1, 0] (m ((c : Thread nD τ).loc main_arg3)) transposes_S256x128_S128x256_1_0 := by
  show StableHlo.after hostOps0 (W0 m ρ c) (Proc.devRef .tc main_v16) = _
  after_results_simp
  all_goals rfl

set_option maxHeartbeats 4000000 in
theorem w1_ws (c : Dev nD) : (W1 m ρ c (Proc.devRef .tc main_v17) : S128x256.Idx → EReal)
    = transpose S128x256 [1, 0] (m ((c : Thread nD τ).loc main_arg5)) transposes_S256x128_S128x256_1_0 := by
  show StableHlo.after hostOps0 (W0 m ρ c) (Proc.devRef .tc main_v17) = _
  after_results_simp
  all_goals rfl

set_option maxHeartbeats 4000000 in
theorem w1_b (c : Dev nD) : (W1 m ρ c (Proc.devRef .tc main_v18) : S1x256.Idx → EReal)
    = shapeCast S1x256 (m ((c : Thread nD τ).loc main_arg4)) shapeCasts_S256_S1x256 := by
  show StableHlo.after hostOps0 (W0 m ρ c) (Proc.devRef .tc main_v18) = _
  after_results_simp
  all_goals rfl

set_option maxHeartbeats 4000000 in
theorem w1_src (c : Dev nD) : (W1 m ρ c (Proc.devRef .tc main_v1) : S400000.Idx → BitVec 32)
    = srcOf (m ((c : Thread nD τ).loc main_arg1)) := by
  show StableHlo.after hostOps0 (W0 m ρ c) (Proc.devRef .tc main_v1) = _
  after_results_simp
  all_goals rfl

set_option maxHeartbeats 4000000 in
theorem w1_dst (c : Dev nD) : (W1 m ρ c (Proc.devRef .tc main_v3) : S400000.Idx → BitVec 32)
    = dstOf (m ((c : Thread nD τ).loc main_arg1)) := by
  show StableHlo.after hostOps0 (W0 m ρ c) (Proc.devRef .tc main_v3) = _
  after_results_simp
  all_goals rfl

/-- A vector laid out as a one-row table, at (0, j), is its entry j. -/
theorem row_of_vec (b : S256.Idx → EReal) (y : S1x256.Idx) : shapeCast S1x256 b shapeCasts_S256_S1x256 y = biasRow b y := by
  refine (shapeCast_apply b shapeCasts_S256_S1x256 y (ix1 (y 1)) ?_)
  rw [Shape.rowMajor_val_one, Shape.rowMajor_val_two]
  have h0 : (y 0).val < 1 := (y 0).isLt
  show (y 1).val = (y 0).val * 256 + (y 1).val
  omega

/-- Launch 0's output is the reference's first layer stage of the arguments. -/
theorem h1 (c : Dev nD) : (W2 m ρ c (Proc.devRef .tc main_v19) : S100000x256.Idx → EReal)
    = layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Region0.final (V1 m ρ) c).trans ?_)
  funext i
  rw [layer0_apply]
  unfold Region0.G
  refine layer_congr _ _ _ _ _ _ _ _ _ _ i i (fun k => ?_) (fun k => ?_) (fun k => ?_) (fun k => ?_) ?_
  · exact congrFun (w1_agg m ρ c) _
  · exact congrFun (w1_x m ρ c) _
  · exact congrFun (w1_wr m ρ c) _
  · exact congrFun (w1_ws m ρ c) _
  · exact (congrFun (w1_b m ρ c) _).trans (row_of_vec _ _)

/-! ## The arguments and the two edge-end vectors at the later boundaries: nobody writes them -/

set_option maxHeartbeats 4000000 in
theorem w1_arg6 (c : Dev nD) : (W1 m ρ c (Proc.devRef .tc main_arg6) : S256x256.Idx → EReal)
    = (m ((c : Thread nD τ).loc main_arg6)) := by
  show StableHlo.after hostOps0 (W0 m ρ c) (Proc.devRef .tc main_arg6) = _
  after_results_simp
  all_goals rfl

theorem w2_arg6 (c : Dev nD) : (W2 m ρ c (Proc.devRef .tc main_arg6) : S256x256.Idx → EReal)
    = (m ((c : Thread nD τ).loc main_arg6)) :=
  (W2_of_ne m ρ c main_arg6 (by decide)).trans (w1_arg6 m ρ c)

set_option maxHeartbeats 4000000 in
theorem w1_arg7 (c : Dev nD) : (W1 m ρ c (Proc.devRef .tc main_arg7) : S256.Idx → EReal)
    = (m ((c : Thread nD τ).loc main_arg7)) := by
  show StableHlo.after hostOps0 (W0 m ρ c) (Proc.devRef .tc main_arg7) = _
  after_results_simp
  all_goals rfl

theorem w2_arg7 (c : Dev nD) : (W2 m ρ c (Proc.devRef .tc main_arg7) : S256.Idx → EReal)
    = (m ((c : Thread nD τ).loc main_arg7)) :=
  (W2_of_ne m ρ c main_arg7 (by decide)).trans (w1_arg7 m ρ c)

set_option maxHeartbeats 4000000 in
theorem w1_arg8 (c : Dev nD) : (W1 m ρ c (Proc.devRef .tc main_arg8) : S256x256.Idx → EReal)
    = (m ((c : Thread nD τ).loc main_arg8)) := by
  show StableHlo.after hostOps0 (W0 m ρ c) (Proc.devRef .tc main_arg8) = _
  after_results_simp
  all_goals rfl

theorem w2_arg8 (c : Dev nD) : (W2 m ρ c (Proc.devRef .tc main_arg8) : S256x256.Idx → EReal)
    = (m ((c : Thread nD τ).loc main_arg8)) :=
  (W2_of_ne m ρ c main_arg8 (by decide)).trans (w1_arg8 m ρ c)

set_option maxHeartbeats 4000000 in
theorem w1_arg9 (c : Dev nD) : (W1 m ρ c (Proc.devRef .tc main_arg9) : S256x256.Idx → EReal)
    = (m ((c : Thread nD τ).loc main_arg9)) := by
  show StableHlo.after hostOps0 (W0 m ρ c) (Proc.devRef .tc main_arg9) = _
  after_results_simp
  all_goals rfl

theorem w2_arg9 (c : Dev nD) : (W2 m ρ c (Proc.devRef .tc main_arg9) : S256x256.Idx → EReal)
    = (m ((c : Thread nD τ).loc main_arg9)) :=
  (W2_of_ne m ρ c main_arg9 (by decide)).trans (w1_arg9 m ρ c)

set_option maxHeartbeats 4000000 in
theorem w3_arg9 (c : Dev nD) : (W3 m ρ c (Proc.devRef .tc main_arg9) : S256x256.Idx → EReal)
    = (m ((c : Thread nD τ).loc main_arg9)) := by
  show StableHlo.after hostOps1 (W2 m ρ c) (Proc.devRef .tc main_arg9) = _
  after_results_simp
  exact w2_arg9 m ρ c

theorem w4_arg9 (c : Dev nD) : (W4 m ρ c (Proc.devRef .tc main_arg9) : S256x256.Idx → EReal)
    = (m ((c : Thread nD τ).loc main_arg9)) :=
  (W4_of_ne m ρ c main_arg9 (by decide)).trans (w3_arg9 m ρ c)

set_option maxHeartbeats 4000000 in
theorem w1_arg10 (c : Dev nD) : (W1 m ρ c (Proc.devRef .tc main_arg10) : S256.Idx → EReal)
    = (m ((c : Thread nD τ).loc main_arg10)) := by
  show StableHlo.after hostOps0 (W0 m ρ c) (Proc.devRef .tc main_arg10) = _
  after_results_simp
  all_goals rfl

theorem w2_arg10 (c : Dev nD) : (W2 m ρ c (Proc.devRef .tc main_arg10) : S256.Idx → EReal)
    = (m ((c : Thread nD τ).loc main_arg10)) :=
  (W2_of_ne m ρ c main_arg10 (by decide)).trans (w1_arg10 m ρ c)

set_option maxHeartbeats 4000000 in
theorem w3_arg10 (c : Dev nD) : (W3 m ρ c (Proc.devRef .tc main_arg10) : S256.Idx → EReal)
    = (m ((c : Thread nD τ).loc main_arg10)) := by
  show StableHlo.after hostOps1 (W2 m ρ c) (Proc.devRef .tc main_arg10) = _
  after_results_simp
  exact w2_arg10 m ρ c

theorem w4_arg10 (c : Dev nD) : (W4 m ρ c (Proc.devRef .tc main_arg10) : S256.Idx → EReal)
    = (m ((c : Thread nD τ).loc main_arg10)) :=
  (W4_of_ne m ρ c main_arg10 (by decide)).trans (w3_arg10 m ρ c)

set_option maxHeartbeats 4000000 in
theorem w1_arg11 (c : Dev nD) : (W1 m ρ c (Proc.devRef .tc main_arg11) : S256x256.Idx → EReal)
    = (m ((c : Thread nD τ).loc main_arg11)) := by
  show StableHlo.after hostOps0 (W0 m ρ c) (Proc.devRef .tc main_arg11) = _
  after_results_simp
  all_goals rfl

theorem w2_arg11 (c : Dev nD) : (W2 m ρ c (Proc.devRef .tc main_arg11) : S256x256.Idx → EReal)
    = (m ((c : Thread nD τ).loc main_arg11)) :=
  (W2_of_ne m ρ c main_arg11 (by decide)).trans (w1_arg11 m ρ c)

set_option maxHeartbeats 4000000 in
theorem w3_arg11 (c : Dev nD) : (W3 m ρ c (Proc.devRef .tc main_arg11) : S256x256.Idx → EReal)
    = (m ((c : Thread nD τ).loc main_arg11)) := by
  show StableHlo.after hostOps1 (W2 m ρ c) (Proc.devRef .tc main_arg11) = _
  after_results_simp
  exact w2_arg11 m ρ c

theorem w4_arg11 (c : Dev nD) : (W4 m ρ c (Proc.devRef .tc main_arg11) : S256x256.Idx → EReal)
    = (m ((c : Thread nD τ).loc main_arg11)) :=
  (W4_of_ne m ρ c main_arg11 (by decide)).trans (w3_arg11 m ρ c)

set_option maxHeartbeats 4000000 in
theorem w1_arg12 (c : Dev nD) : (W1 m ρ c (Proc.devRef .tc main_arg12) : S1x256.Idx → EReal)
    = (m ((c : Thread nD τ).loc main_arg12)) := by
  show StableHlo.after hostOps0 (W0 m ρ c) (Proc.devRef .tc main_arg12) = _
  after_results_simp
  all_goals rfl

theorem w2_arg12 (c : Dev nD) : (W2 m ρ c (Proc.devRef .tc main_arg12) : S1x256.Idx → EReal)
    = (m ((c : Thread nD τ).loc main_arg12)) :=
  (W2_of_ne m ρ c main_arg12 (by decide)).trans (w1_arg12 m ρ c)

set_option maxHeartbeats 4000000 in
theorem w3_arg12 (c : Dev nD) : (W3 m ρ c (Proc.devRef .tc main_arg12) : S1x256.Idx → EReal)
    = (m ((c : Thread nD τ).loc main_arg12)) := by
  show StableHlo.after hostOps1 (W2 m ρ c) (Proc.devRef .tc main_arg12) = _
  after_results_simp
  exact w2_arg12 m ρ c

theorem w4_arg12 (c : Dev nD) : (W4 m ρ c (Proc.devRef .tc main_arg12) : S1x256.Idx → EReal)
    = (m ((c : Thread nD τ).loc main_arg12)) :=
  (W4_of_ne m ρ c main_arg12 (by decide)).trans (w3_arg12 m ρ c)

set_option maxHeartbeats 4000000 in
theorem w5_arg12 (c : Dev nD) : (W5 m ρ c (Proc.devRef .tc main_arg12) : S1x256.Idx → EReal)
    = (m ((c : Thread nD τ).loc main_arg12)) := by
  show StableHlo.after hostOps2 (W4 m ρ c) (Proc.devRef .tc main_arg12) = _
  after_results_simp
  exact w4_arg12 m ρ c

theorem w6_arg12 (c : Dev nD) : (W6 m ρ c (Proc.devRef .tc main_arg12) : S1x256.Idx → EReal)
    = (m ((c : Thread nD τ).loc main_arg12)) :=
  (W6_of_ne m ρ c main_arg12 (by decide)).trans (w5_arg12 m ρ c)

set_option maxHeartbeats 4000000 in
theorem w7_arg12 (c : Dev nD) : (W7 m ρ c (Proc.devRef .tc main_arg12) : S1x256.Idx → EReal)
    = (m ((c : Thread nD τ).loc main_arg12)) := by
  show StableHlo.after hostOps3 (W6 m ρ c) (Proc.devRef .tc main_arg12) = _
  after_results_simp
  exact w6_arg12 m ρ c

set_option maxHeartbeats 4000000 in
theorem w1_arg13 (c : Dev nD) : (W1 m ρ c (Proc.devRef .tc main_arg13) : S1.Idx → EReal)
    = (m ((c : Thread nD τ).loc main_arg13)) := by
  show StableHlo.after hostOps0 (W0 m ρ c) (Proc.devRef .tc main_arg13) = _
  after_results_simp
  all_goals rfl

theorem w2_arg13 (c : Dev nD) : (W2 m ρ c (Proc.devRef .tc main_arg13) : S1.Idx → EReal)
    = (m ((c : Thread nD τ).loc main_arg13)) :=
  (W2_of_ne m ρ c main_arg13 (by decide)).trans (w1_arg13 m ρ c)

set_option maxHeartbeats 4000000 in
theorem w3_arg13 (c : Dev nD) : (W3 m ρ c (Proc.devRef .tc main_arg13) : S1.Idx → EReal)
    = (m ((c : Thread nD τ).loc main_arg13)) := by
  show StableHlo.after hostOps1 (W2 m ρ c) (Proc.devRef .tc main_arg13) = _
  after_results_simp
  exact w2_arg13 m ρ c

theorem w4_arg13 (c : Dev nD) : (W4 m ρ c (Proc.devRef .tc main_arg13) : S1.Idx → EReal)
    = (m ((c : Thread nD τ).loc main_arg13)) :=
  (W4_of_ne m ρ c main_arg13 (by decide)).trans (w3_arg13 m ρ c)

set_option maxHeartbeats 4000000 in
theorem w5_arg13 (c : Dev nD) : (W5 m ρ c (Proc.devRef .tc main_arg13) : S1.Idx → EReal)
    = (m ((c : Thread nD τ).loc main_arg13)) := by
  show StableHlo.after hostOps2 (W4 m ρ c) (Proc.devRef .tc main_arg13) = _
  after_results_simp
  exact w4_arg13 m ρ c

theorem w6_arg13 (c : Dev nD) : (W6 m ρ c (Proc.devRef .tc main_arg13) : S1.Idx → EReal)
    = (m ((c : Thread nD τ).loc main_arg13)) :=
  (W6_of_ne m ρ c main_arg13 (by decide)).trans (w5_arg13 m ρ c)

set_option maxHeartbeats 4000000 in
theorem w1_arg14 (c : Dev nD) : (W1 m ρ c (Proc.devRef .tc main_arg14) : S1x256.Idx → EReal)
    = (m ((c : Thread nD τ).loc main_arg14)) := by
  show StableHlo.after hostOps0 (W0 m ρ c) (Proc.devRef .tc main_arg14) = _
  after_results_simp
  all_goals rfl

theorem w2_arg14 (c : Dev nD) : (W2 m ρ c (Proc.devRef .tc main_arg14) : S1x256.Idx → EReal)
    = (m ((c : Thread nD τ).loc main_arg14)) :=
  (W2_of_ne m ρ c main_arg14 (by decide)).trans (w1_arg14 m ρ c)

set_option maxHeartbeats 4000000 in
theorem w3_arg14 (c : Dev nD) : (W3 m ρ c (Proc.devRef .tc main_arg14) : S1x256.Idx → EReal)
    = (m ((c : Thread nD τ).loc main_arg14)) := by
  show StableHlo.after hostOps1 (W2 m ρ c) (Proc.devRef .tc main_arg14) = _
  after_results_simp
  exact w2_arg14 m ρ c

theorem w4_arg14 (c : Dev nD) : (W4 m ρ c (Proc.devRef .tc main_arg14) : S1x256.Idx → EReal)
    = (m ((c : Thread nD τ).loc main_arg14)) :=
  (W4_of_ne m ρ c main_arg14 (by decide)).trans (w3_arg14 m ρ c)

set_option maxHeartbeats 4000000 in
theorem w5_arg14 (c : Dev nD) : (W5 m ρ c (Proc.devRef .tc main_arg14) : S1x256.Idx → EReal)
    = (m ((c : Thread nD τ).loc main_arg14)) := by
  show StableHlo.after hostOps2 (W4 m ρ c) (Proc.devRef .tc main_arg14) = _
  after_results_simp
  exact w4_arg14 m ρ c

theorem w6_arg14 (c : Dev nD) : (W6 m ρ c (Proc.devRef .tc main_arg14) : S1x256.Idx → EReal)
    = (m ((c : Thread nD τ).loc main_arg14)) :=
  (W6_of_ne m ρ c main_arg14 (by decide)).trans (w5_arg14 m ρ c)

set_option maxHeartbeats 4000000 in
theorem w7_arg14 (c : Dev nD) : (W7 m ρ c (Proc.devRef .tc main_arg14) : S1x256.Idx → EReal)
    = (m ((c : Thread nD τ).loc main_arg14)) := by
  show StableHlo.after hostOps3 (W6 m ρ c) (Proc.devRef .tc main_arg14) = _
  after_results_simp
  exact w6_arg14 m ρ c

set_option maxHeartbeats 4000000 in
theorem w1_arg15 (c : Dev nD) : (W1 m ρ c (Proc.devRef .tc main_arg15) : S1.Idx → EReal)
    = (m ((c : Thread nD τ).loc main_arg15)) := by
  show StableHlo.after hostOps0 (W0 m ρ c) (Proc.devRef .tc main_arg15) = _
  after_results_simp
  all_goals rfl

theorem w2_arg15 (c : Dev nD) : (W2 m ρ c (Proc.devRef .tc main_arg15) : S1.Idx → EReal)
    = (m ((c : Thread nD τ).loc main_arg15)) :=
  (W2_of_ne m ρ c main_arg15 (by decide)).trans (w1_arg15 m ρ c)

set_option maxHeartbeats 4000000 in
theorem w3_arg15 (c : Dev nD) : (W3 m ρ c (Proc.devRef .tc main_arg15) : S1.Idx → EReal)
    = (m ((c : Thread nD τ).loc main_arg15)) := by
  show StableHlo.after hostOps1 (W2 m ρ c) (Proc.devRef .tc main_arg15) = _
  after_results_simp
  exact w2_arg15 m ρ c

theorem w4_arg15 (c : Dev nD) : (W4 m ρ c (Proc.devRef .tc main_arg15) : S1.Idx → EReal)
    = (m ((c : Thread nD τ).loc main_arg15)) :=
  (W4_of_ne m ρ c main_arg15 (by decide)).trans (w3_arg15 m ρ c)

set_option maxHeartbeats 4000000 in
theorem w5_arg15 (c : Dev nD) : (W5 m ρ c (Proc.devRef .tc main_arg15) : S1.Idx → EReal)
    = (m ((c : Thread nD τ).loc main_arg15)) := by
  show StableHlo.after hostOps2 (W4 m ρ c) (Proc.devRef .tc main_arg15) = _
  after_results_simp
  exact w4_arg15 m ρ c

theorem w6_arg15 (c : Dev nD) : (W6 m ρ c (Proc.devRef .tc main_arg15) : S1.Idx → EReal)
    = (m ((c : Thread nD τ).loc main_arg15)) :=
  (W6_of_ne m ρ c main_arg15 (by decide)).trans (w5_arg15 m ρ c)

set_option maxHeartbeats 4000000 in
theorem w1_arg16 (c : Dev nD) : (W1 m ρ c (Proc.devRef .tc main_arg16) : S1x2.Idx → EReal)
    = (m ((c : Thread nD τ).loc main_arg16)) := by
  show StableHlo.after hostOps0 (W0 m ρ c) (Proc.devRef .tc main_arg16) = _
  after_results_simp
  all_goals rfl

theorem w2_arg16 (c : Dev nD) : (W2 m ρ c (Proc.devRef .tc main_arg16) : S1x2.Idx → EReal)
    = (m ((c : Thread nD τ).loc main_arg16)) :=
  (W2_of_ne m ρ c main_arg16 (by decide)).trans (w1_arg16 m ρ c)

set_option maxHeartbeats 4000000 in
theorem w3_arg16 (c : Dev nD) : (W3 m ρ c (Proc.devRef .tc main_arg16) : S1x2.Idx → EReal)
    = (m ((c : Thread nD τ).loc main_arg16)) := by
  show StableHlo.after hostOps1 (W2 m ρ c) (Proc.devRef .tc main_arg16) = _
  after_results_simp
  exact w2_arg16 m ρ c

theorem w4_arg16 (c : Dev nD) : (W4 m ρ c (Proc.devRef .tc main_arg16) : S1x2.Idx → EReal)
    = (m ((c : Thread nD τ).loc main_arg16)) :=
  (W4_of_ne m ρ c main_arg16 (by decide)).trans (w3_arg16 m ρ c)

set_option maxHeartbeats 4000000 in
theorem w5_arg16 (c : Dev nD) : (W5 m ρ c (Proc.devRef .tc main_arg16) : S1x2.Idx → EReal)
    = (m ((c : Thread nD τ).loc main_arg16)) := by
  show StableHlo.after hostOps2 (W4 m ρ c) (Proc.devRef .tc main_arg16) = _
  after_results_simp
  exact w4_arg16 m ρ c

theorem w6_arg16 (c : Dev nD) : (W6 m ρ c (Proc.devRef .tc main_arg16) : S1x2.Idx → EReal)
    = (m ((c : Thread nD τ).loc main_arg16)) :=
  (W6_of_ne m ρ c main_arg16 (by decide)).trans (w5_arg16 m ρ c)

set_option maxHeartbeats 4000000 in
theorem w7_arg16 (c : Dev nD) : (W7 m ρ c (Proc.devRef .tc main_arg16) : S1x2.Idx → EReal)
    = (m ((c : Thread nD τ).loc main_arg16)) := by
  show StableHlo.after hostOps3 (W6 m ρ c) (Proc.devRef .tc main_arg16) = _
  after_results_simp
  exact w6_arg16 m ρ c

set_option maxHeartbeats 4000000 in
theorem w1_arg17 (c : Dev nD) : (W1 m ρ c (Proc.devRef .tc main_arg17) : S1.Idx → EReal)
    = (m ((c : Thread nD τ).loc main_arg17)) := by
  show StableHlo.after hostOps0 (W0 m ρ c) (Proc.devRef .tc main_arg17) = _
  after_results_simp
  all_goals rfl

theorem w2_arg17 (c : Dev nD) : (W2 m ρ c (Proc.devRef .tc main_arg17) : S1.Idx → EReal)
    = (m ((c : Thread nD τ).loc main_arg17)) :=
  (W2_of_ne m ρ c main_arg17 (by decide)).trans (w1_arg17 m ρ c)

set_option maxHeartbeats 4000000 in
theorem w3_arg17 (c : Dev nD) : (W3 m ρ c (Proc.devRef .tc main_arg17) : S1.Idx → EReal)
    = (m ((c : Thread nD τ).loc main_arg17)) := by
  show StableHlo.after hostOps1 (W2 m ρ c) (Proc.devRef .tc main_arg17) = _
  after_results_simp
  exact w2_arg17 m ρ c

theorem w4_arg17 (c : Dev nD) : (W4 m ρ c (Proc.devRef .tc main_arg17) : S1.Idx → EReal)
    = (m ((c : Thread nD τ).loc main_arg17)) :=
  (W4_of_ne m ρ c main_arg17 (by decide)).trans (w3_arg17 m ρ c)

set_option maxHeartbeats 4000000 in
theorem w5_arg17 (c : Dev nD) : (W5 m ρ c (Proc.devRef .tc main_arg17) : S1.Idx → EReal)
    = (m ((c : Thread nD τ).loc main_arg17)) := by
  show StableHlo.after hostOps2 (W4 m ρ c) (Proc.devRef .tc main_arg17) = _
  after_results_simp
  exact w4_arg17 m ρ c

theorem w6_arg17 (c : Dev nD) : (W6 m ρ c (Proc.devRef .tc main_arg17) : S1.Idx → EReal)
    = (m ((c : Thread nD τ).loc main_arg17)) :=
  (W6_of_ne m ρ c main_arg17 (by decide)).trans (w5_arg17 m ρ c)

theorem w2_src (c : Dev nD) : (W2 m ρ c (Proc.devRef .tc main_v1) : S400000.Idx → BitVec 32)
    = srcOf (m ((c : Thread nD τ).loc main_arg1)) :=
  (W2_of_ne m ρ c main_v1 (by decide)).trans (w1_src m ρ c)

set_option maxHeartbeats 4000000 in
theorem w3_src (c : Dev nD) : (W3 m ρ c (Proc.devRef .tc main_v1) : S400000.Idx → BitVec 32)
    = srcOf (m ((c : Thread nD τ).loc main_arg1)) := by
  show StableHlo.after hostOps1 (W2 m ρ c) (Proc.devRef .tc main_v1) = _
  after_results_simp
  exact w2_src m ρ c

theorem w4_src (c : Dev nD) : (W4 m ρ c (Proc.devRef .tc main_v1) : S400000.Idx → BitVec 32)
    = srcOf (m ((c : Thread nD τ).loc main_arg1)) :=
  (W4_of_ne m ρ c main_v1 (by decide)).trans (w3_src m ρ c)

theorem w2_dst (c : Dev nD) : (W2 m ρ c (Proc.devRef .tc main_v3) : S400000.Idx → BitVec 32)
    = dstOf (m ((c : Thread nD τ).loc main_arg1)) :=
  (W2_of_ne m ρ c main_v3 (by decide)).trans (w1_dst m ρ c)

set_option maxHeartbeats 4000000 in
theorem w3_dst (c : Dev nD) : (W3 m ρ c (Proc.devRef .tc main_v3) : S400000.Idx → BitVec 32)
    = dstOf (m ((c : Thread nD τ).loc main_arg1)) := by
  show StableHlo.after hostOps1 (W2 m ρ c) (Proc.devRef .tc main_v3) = _
  after_results_simp
  exact w2_dst m ρ c

theorem w4_dst (c : Dev nD) : (W4 m ρ c (Proc.devRef .tc main_v3) : S400000.Idx → BitVec 32)
    = dstOf (m ((c : Thread nD τ).loc main_arg1)) :=
  (W4_of_ne m ρ c main_v3 (by decide)).trans (w3_dst m ρ c)

/-! ## Stretch 1 and launch 1 -/

set_option maxHeartbeats 4000000 in
theorem w3_agg (c : Dev nD) : (W3 m ρ c (Proc.devRef .tc main_v31) : S100000x256.Idx → EReal)
    = aggOf256 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps1 (W2 m ρ c) (Proc.devRef .tc main_v31) = _
  after_results_simp
  rw [h1 m ρ c, w2_src m ρ c, w2_dst m ρ c]
  rfl

set_option maxHeartbeats 4000000 in
theorem w3_h (c : Dev nD) : (W3 m ρ c (Proc.devRef .tc main_v19) : S100000x256.Idx → EReal)
    = (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps1 (W2 m ρ c) (Proc.devRef .tc main_v19) = _
  after_results_simp
  exact h1 m ρ c

set_option maxHeartbeats 4000000 in
theorem w3_wr (c : Dev nD) : (W3 m ρ c (Proc.devRef .tc main_v32) : S256x256.Idx → EReal)
    = transpose S256x256 [1, 0] (m ((c : Thread nD τ).loc main_arg6)) transposes_S256x256_S256x256_1_0 := by
  show StableHlo.after hostOps1 (W2 m ρ c) (Proc.devRef .tc main_v32) = _
  after_results_simp
  rw [w2_arg6 m ρ c]

set_option maxHeartbeats 4000000 in
theorem w3_ws (c : Dev nD) : (W3 m ρ c (Proc.devRef .tc main_v33) : S256x256.Idx → EReal)
    = transpose S256x256 [1, 0] (m ((c : Thread nD τ).loc main_arg8)) transposes_S256x256_S256x256_1_0 := by
  show StableHlo.after hostOps1 (W2 m ρ c) (Proc.devRef .tc main_v33) = _
  after_results_simp
  rw [w2_arg8 m ρ c]

set_option maxHeartbeats 4000000 in
theorem w3_b (c : Dev nD) : (W3 m ρ c (Proc.devRef .tc main_v34) : S1x256.Idx → EReal)
    = shapeCast S1x256 (m ((c : Thread nD τ).loc main_arg7)) shapeCasts_S256_S1x256 := by
  show StableHlo.after hostOps1 (W2 m ρ c) (Proc.devRef .tc main_v34) = _
  after_results_simp
  rw [w2_arg7 m ρ c]
  rfl

/-- Launch 1's output is the reference's layer stage of the previous output. -/
theorem h2 (c : Dev nD) : (W4 m ρ c (Proc.devRef .tc main_v35) : S100000x256.Idx → EReal)
    = layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) := by
  refine (W4_arr m ρ c 5).trans ((Region1.final (V3 m ρ) c).trans ?_)
  funext i
  rw [layer1_apply]
  unfold Region1.G
  refine layer_congr _ _ _ _ _ _ _ _ _ _ i i (fun k => ?_) (fun k => ?_) (fun k => ?_) (fun k => ?_) ?_
  · exact congrFun (w3_agg m ρ c) _
  · exact congrFun (w3_h m ρ c) _
  · exact congrFun (w3_wr m ρ c) _
  · exact congrFun (w3_ws m ρ c) _
  · exact (congrFun (w3_b m ρ c) _).trans (row_of_vec _ _)

/-! ## Stretch 2 and launch 2 -/

set_option maxHeartbeats 4000000 in
theorem w5_agg (c : Dev nD) : (W5 m ρ c (Proc.devRef .tc main_v47) : S100000x256.Idx → EReal)
    = aggOf256 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) := by
  show StableHlo.after hostOps2 (W4 m ρ c) (Proc.devRef .tc main_v47) = _
  after_results_simp
  rw [h2 m ρ c, w4_src m ρ c, w4_dst m ρ c]
  rfl

set_option maxHeartbeats 4000000 in
theorem w5_h (c : Dev nD) : (W5 m ρ c (Proc.devRef .tc main_v35) : S100000x256.Idx → EReal)
    = (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) := by
  show StableHlo.after hostOps2 (W4 m ρ c) (Proc.devRef .tc main_v35) = _
  after_results_simp
  exact h2 m ρ c

set_option maxHeartbeats 4000000 in
theorem w5_wr (c : Dev nD) : (W5 m ρ c (Proc.devRef .tc main_v48) : S256x256.Idx → EReal)
    = transpose S256x256 [1, 0] (m ((c : Thread nD τ).loc main_arg9)) transposes_S256x256_S256x256_1_0 := by
  show StableHlo.after hostOps2 (W4 m ρ c) (Proc.devRef .tc main_v48) = _
  after_results_simp
  rw [w4_arg9 m ρ c]

set_option maxHeartbeats 4000000 in
theorem w5_ws (c : Dev nD) : (W5 m ρ c (Proc.devRef .tc main_v49) : S256x256.Idx → EReal)
    = transpose S256x256 [1, 0] (m ((c : Thread nD τ).loc main_arg11)) transposes_S256x256_S256x256_1_0 := by
  show StableHlo.after hostOps2 (W4 m ρ c) (Proc.devRef .tc main_v49) = _
  after_results_simp
  rw [w4_arg11 m ρ c]

set_option maxHeartbeats 4000000 in
theorem w5_b (c : Dev nD) : (W5 m ρ c (Proc.devRef .tc main_v50) : S1x256.Idx → EReal)
    = shapeCast S1x256 (m ((c : Thread nD τ).loc main_arg10)) shapeCasts_S256_S1x256 := by
  show StableHlo.after hostOps2 (W4 m ρ c) (Proc.devRef .tc main_v50) = _
  after_results_simp
  rw [w4_arg10 m ρ c]
  rfl

/-- Launch 2's output is the reference's layer stage of the previous output. -/
theorem h3 (c : Dev nD) : (W6 m ρ c (Proc.devRef .tc main_v51) : S100000x256.Idx → EReal)
    = layer1 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11)) := by
  refine (W6_arr m ρ c 5).trans ((Region2.final (V5 m ρ) c).trans ?_)
  funext i
  rw [layer1_apply]
  unfold Region2.G
  refine layer_congr _ _ _ _ _ _ _ _ _ _ i i (fun k => ?_) (fun k => ?_) (fun k => ?_) (fun k => ?_) ?_
  · exact congrFun (w5_agg m ρ c) _
  · exact congrFun (w5_h m ρ c) _
  · exact congrFun (w5_wr m ρ c) _
  · exact congrFun (w5_ws m ρ c) _
  · exact (congrFun (w5_b m ρ c) _).trans (row_of_vec _ _)

/-! ## Stretch 3: the paired table, its two halves and the three one-entry biases -/

set_option maxHeartbeats 4000000 in
theorem w7_xs (c : Dev nD) : (W7 m ρ c (Proc.devRef .tc main_v52) : S50000x512.Idx → EReal)
    = shapeCast S50000x512 (layer1 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11))) shapeCasts_S100000x256_S50000x512 := by
  show StableHlo.after hostOps3 (W6 m ρ c) (Proc.devRef .tc main_v52) = _
  after_results_simp
  rw [h3 m ρ c]
  rfl

set_option maxHeartbeats 4000000 in
theorem w7_x1 (c : Dev nD) : (W7 m ρ c (Proc.devRef .tc main_v53) : S50000x256.Idx → EReal)
    = extractStridedSlice S50000x256 ![0, 0] (shapeCast S50000x512 (layer1 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11))) shapeCasts_S100000x256_S50000x512) slices_S50000x512_S50000x256_0_0 := by
  show StableHlo.after hostOps3 (W6 m ρ c) (Proc.devRef .tc main_v53) = _
  after_results_simp
  rw [h3 m ρ c]
  rfl

set_option maxHeartbeats 4000000 in
theorem w7_x2 (c : Dev nD) : (W7 m ρ c (Proc.devRef .tc main_v54) : S50000x256.Idx → EReal)
    = extractStridedSlice S50000x256 ![0, 256] (shapeCast S50000x512 (layer1 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11))) shapeCasts_S100000x256_S50000x512) slices_S50000x512_S50000x256_0_256 := by
  show StableHlo.after hostOps3 (W6 m ρ c) (Proc.devRef .tc main_v54) = _
  after_results_simp
  rw [h3 m ρ c]
  rfl

set_option maxHeartbeats 4000000 in
theorem w7_b1 (c : Dev nD) : (W7 m ρ c (Proc.devRef .tc main_v55) : S1x1.Idx → EReal)
    = shapeCast S1x1 (m ((c : Thread nD τ).loc main_arg13)) shapeCasts_S1_S1x1 := by
  show StableHlo.after hostOps3 (W6 m ρ c) (Proc.devRef .tc main_v55) = _
  after_results_simp
  rw [w6_arg13 m ρ c]
  rfl

set_option maxHeartbeats 4000000 in
theorem w7_b2 (c : Dev nD) : (W7 m ρ c (Proc.devRef .tc main_v56) : S1x1.Idx → EReal)
    = shapeCast S1x1 (m ((c : Thread nD τ).loc main_arg15)) shapeCasts_S1_S1x1 := by
  show StableHlo.after hostOps3 (W6 m ρ c) (Proc.devRef .tc main_v56) = _
  after_results_simp
  rw [w6_arg15 m ρ c]
  rfl

set_option maxHeartbeats 4000000 in
theorem w7_bl (c : Dev nD) : (W7 m ρ c (Proc.devRef .tc main_v57) : S1x1.Idx → EReal)
    = shapeCast S1x1 (m ((c : Thread nD τ).loc main_arg17)) shapeCasts_S1_S1x1 := by
  show StableHlo.after hostOps3 (W6 m ρ c) (Proc.devRef .tc main_v57) = _
  after_results_simp
  rw [w6_arg17 m ρ c]
  rfl

/-- A one-entry vector laid out as a one-entry table: its entry. -/
theorem cell_of_vec (b : S1.Idx → EReal) (y : S1x1.Idx) : shapeCast S1x1 b shapeCasts_S1_S1x1 y = b (ix1 ⟨0, Nat.one_pos⟩) := by
  refine (shapeCast_apply b shapeCasts_S1_S1x1 y (ix1 ⟨0, Nat.one_pos⟩) ?_)
  rw [Shape.rowMajor_val_one, Shape.rowMajor_val_two]
  have h0 : (y 0).val < 1 := (y 0).isLt
  have h1 : (y 1).val < 1 := (y 1).isLt
  show 0 = (y 0).val * 1 + (y 1).val
  omega

/-! ## The four results -/

/-- The head's output is the reference's head stage of the two halves. -/
theorem res_y (c : Dev nD) : (W8 m ρ c (Proc.devRef .tc main_v58) : S50000x1.Idx → EReal)
    = headOf (F := Ideal) (extractStridedSlice S50000x256 ![0, 0] (shapeCast S50000x512 (layer1 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11))) shapeCasts_S100000x256_S50000x512) slices_S50000x512_S50000x256_0_0) (extractStridedSlice S50000x256 ![0, 256] (shapeCast S50000x512 (layer1 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11))) shapeCasts_S100000x256_S50000x512) slices_S50000x512_S50000x256_0_256) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W8_arr m ρ c 8).trans ((Region3.final (V7 m ρ) c).trans ?_)
  funext i
  rw [headOf_apply]
  unfold Region3.G
  refine Cert.Head.head_congr _ _ _ _ _ _ _ _ _ _ _ _ _ _ _ _ _ _ i i
    ((congrFun (w7_b1 m ρ c) _).trans (cell_of_vec _ _)) ((congrFun (w7_b2 m ρ c) _).trans (cell_of_vec _ _))
    (congrFun (w7_arg16 m ρ c) _) (congrFun (w7_arg16 m ρ c) _) ((congrFun (w7_bl m ρ c) _).trans (cell_of_vec _ _))
    (fun y y' h0 h0' h1 => ?_) (fun y y' h0 h0' h1 => ?_) (fun y y' h1 => ?_) (fun y y' h1 => ?_)
  · refine (congrFun (w7_x1 m ρ c) y).trans (congrArg _ (funext fun a => Fin.ext ?_))
    match a with
    | ⟨0, _⟩ => show (y 0).val = (y' 0).val; omega
    | ⟨1, _⟩ => show (y 1).val = (y' 1).val; omega
  · refine (congrFun (w7_x2 m ρ c) y).trans (congrArg _ (funext fun a => Fin.ext ?_))
    match a with
    | ⟨0, _⟩ => show (y 0).val = (y' 0).val; omega
    | ⟨1, _⟩ => show (y 1).val = (y' 1).val; omega
  · refine (congrFun (w7_arg12 m ρ c) y).trans (congrArg _ (funext fun a => Fin.ext ?_))
    have hy0 : (y 0).val < 1 := (y 0).isLt
    have hy0' : (y' 0).val < 1 := (y' 0).isLt
    match a with
    | ⟨0, _⟩ => show (y 0).val = (y' 0).val; omega
    | ⟨1, _⟩ => show (y 1).val = (y' 1).val; omega
  · refine (congrFun (w7_arg14 m ρ c) y).trans (congrArg _ (funext fun a => Fin.ext ?_))
    have hy0 : (y 0).val < 1 := (y 0).isLt
    have hy0' : (y' 0).val < 1 := (y' 0).isLt
    match a with
    | ⟨0, _⟩ => show (y 0).val = (y' 0).val; omega
    | ⟨1, _⟩ => show (y 1).val = (y' 1).val; omega

/-- The paired table: launch 3 does not own it. -/
theorem res_xs (c : Dev nD) : (W8 m ρ c (Proc.devRef .tc main_v52) : S50000x512.Idx → EReal) = shapeCast S50000x512 (layer1 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11))) shapeCasts_S100000x256_S50000x512 :=
  (W8_of_ne m ρ c main_v52 (by decide)).trans (w7_xs m ρ c)

/-- Its first half: an input array of launch 3, left as found. -/
theorem res_x1 (c : Dev nD) : (W8 m ρ c (Proc.devRef .tc main_v53) : S50000x256.Idx → EReal) = extractStridedSlice S50000x256 ![0, 0] (shapeCast S50000x512 (layer1 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11))) shapeCasts_S100000x256_S50000x512) slices_S50000x512_S50000x256_0_0 :=
  ((W8_arr m ρ c 0).trans (((dat3 (V7 m ρ) c).arrAt_in 0 rfl _).trans (A_eq3 (V7 m ρ) c 0))).trans (w7_x1 m ρ c)

/-- Its second half, likewise. -/
theorem res_x2 (c : Dev nD) : (W8 m ρ c (Proc.devRef .tc main_v54) : S50000x256.Idx → EReal) = extractStridedSlice S50000x256 ![0, 256] (shapeCast S50000x512 (layer1 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11))) shapeCasts_S100000x256_S50000x512) slices_S50000x512_S50000x256_0_256 :=
  ((W8_arr m ρ c 1).trans (((dat3 (V7 m ρ) c).arrAt_in 1 rfl _).trans (A_eq3 (V7 m ρ) c 1))).trans (w7_x2 m ρ c)

/-! ## The kernel program's run, read -/

/-- The hidden table after the three layers, as the reference's stages of the arguments. -/
def specH (c : Dev nD) : S100000x256.Idx → EReal := layer1 (F := Ideal) (layer1 (F := Ideal) (layer0 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11))

/-- The paired table: consecutive rows of the hidden table side by side. -/
def specXs (c : Dev nD) : S50000x512.Idx → EReal := shapeCast S50000x512 (specH m c) shapeCasts_S100000x256_S50000x512

/-- Its two halves. -/
def specX1 (c : Dev nD) : S50000x256.Idx → EReal := extractStridedSlice S50000x256 ![0, 0] (specXs m c) slices_S50000x512_S50000x256_0_0
def specX2 (c : Dev nD) : S50000x256.Idx → EReal := extractStridedSlice S50000x256 ![0, 256] (specXs m c) slices_S50000x512_S50000x256_0_256

/-- The head of the two halves. -/
def specY (c : Dev nD) : S50000x1.Idx → EReal :=
  headOf (F := Ideal) (specX1 m c) (specX2 m c) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Every weakly fair execution of the idealized kernel program terminates, nothing faulting, with its four results at the
    reference's stages of the argument arrays and the arguments as launched. -/
theorem run : θ_run defs (onTc (τ := τ) (main (F := Ideal))) ⟨m, fun _ => 0, ρ⟩ (fun r => ∀ c : Dev nD,
      r.2.mem ((c.tc : Thread nD τ).loc main_v58) = specY m c
      ∧ r.2.mem ((c.tc : Thread nD τ).loc main_v52) = specXs m c
      ∧ r.2.mem ((c.tc : Thread nD τ).loc main_v53) = specX1 m c
      ∧ r.2.mem ((c.tc : Thread nD τ).loc main_v54) = specX2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.1.trans (res_y m ρ c), (h c).1.2.1.trans (res_xs m ρ c),
      (h c).1.2.2.1.trans (res_x1 m ρ c), (h c).1.2.2.2.trans (res_x2 m ρ c), (h c).2⟩)
    (Cert.KernelIdeal.Run.run_results (F := Ideal) m ρ)

end Cert.KernelIdeal.Walk

end
-- ==== Proof.RefOps.lean ====
/- The reference program's @main as LISTS of its host operations, every module-local function's operations written at
   its call site over that call's buffers, in order: twenty-one consecutive pieces (cut where a later piece reads only a
   few of the buffers written so far), the three printed windows as their concatenations, each piece's written
   buffers, and that @main is the straight line of them. -/
import proofs.«173128_j60224031425324_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

-- the host operations that fold or search over an operand's elements stay folded while lists are compared: no
-- equation below looks inside one, and unfolding one walks the whole array
attribute [local irreducible] Host.reduceWindow Host.reduce Host.scatter Host.scatterAdd Host.gather

/-- @main's operations 1 … 4 of 200 (printed window main_part0). -/
abbrev c01 : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000 ]
/-- The buffers piece c01 writes, in order. -/
abbrev c01_W : List (Ref sig .tc) := [main_v0, main_v1, main_v2, main_v3]
theorem c01_sub : (c01 : List (HloOp τ sig (Elt F))).Forall fun op => op.bufs ⊆ tcRefs τ sig :=
  ⟨unary_bufs_sub .., reshape_bufs_sub .., unary_bufs_sub .., reshape_bufs_sub ..⟩
theorem c01_writes : (c01 : List (HloOp τ sig (Elt F))).Forall fun op => op.writes ⊆ (c01_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 5 … 17 of 200 (printed window main_part0). -/
abbrev c02 : List (HloOp τ sig (Elt F)) :=
  [ StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v1 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 100000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v1 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg0 main_v9 main_v10 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S400000x1 ![0] bcast_S400000_S400000x1_0 : (⟨S400000, .i32⟩ : BufTy).Contents (Elt F) → (⟨S400000x1, .i32⟩ : BufTy).Contents (Elt F)),
    StableHlo.ternary main_v11 main_v12 main_v10 main_v13 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)) ]
/-- The buffers piece c02 writes, in order. -/
abbrev c02_W : List (Ref sig .tc) := [main_c, main_v4, main_v5, main_c_0, main_v6, main_v7, main_v8, main_v9, main_v10, main_cst, main_v11, main_v12, main_v13]
theorem c02_sub : (c02 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem c02_writes : (c02 : List (HloOp τ sig (Elt F))).Forall fun op => op.writes ⊆ (c02_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 18 … 28 of 200 (printed window main_part0). -/
abbrev c03 : List (HloOp τ sig (Elt F)) :=
  [ StableHlo.unary main_arg3 main_v14 ((transpose S128x256 [1, 0] · transposes_S256x128_S128x256_1_0) : (⟨S256x128, .f32⟩ : BufTy).Contents (Elt F) → (⟨S128x256, .f32⟩ : BufTy).Contents (Elt F)),
    StableHlo.binary main_v13 main_v14 main_v15 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg4 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S100000x256 ![0, 1] bcast_S1x256_S100000x256_0_1 : (⟨S1x256, .f32⟩ : BufTy).Contents (Elt F) → (⟨S100000x256, .f32⟩ : BufTy).Contents (Elt F)),
    StableHlo.binary main_v15 main_v17 main_v18 (addf : (⟨S100000x256, .f32⟩ : BufTy).Contents (Elt F) → (⟨S100000x256, .f32⟩ : BufTy).Contents (Elt F) → (⟨S100000x256, .f32⟩ : BufTy).Contents (Elt F)),
    StableHlo.unary main_arg5 main_v19 ((transpose S128x256 [1, 0] · transposes_S256x128_S128x256_1_0) : (⟨S256x128, .f32⟩ : BufTy).Contents (Elt F) → (⟨S128x256, .f32⟩ : BufTy).Contents (Elt F)),
    StableHlo.binary main_arg0 main_v19 main_v20 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v18 main_v20 main_v21 (addf : (⟨S100000x256, .f32⟩ : BufTy).Contents (Elt F) → (⟨S100000x256, .f32⟩ : BufTy).Contents (Elt F) → (⟨S100000x256, .f32⟩ : BufTy).Contents (Elt F)),
    StableHlo.nullary main_call0.cst.ref ((constant S_ .f32 0x00000000#32) : (⟨S_, .f32⟩ : BufTy).Contents (Elt F)),
    StableHlo.unary main_call0.cst.ref main_call0.v0.ref ((broadcastInDim S100000x256 ![] bcast_S_S100000x256) : (⟨S_, .f32⟩ : BufTy).Contents (Elt F) → (⟨S100000x256, .f32⟩ : BufTy).Contents (Elt F)),
    StableHlo.binary main_v21 main_call0.v0.ref main_call0.v1.ref (maximumf : (⟨S100000x256, .f32⟩ : BufTy).Contents (Elt F) → (⟨S100000x256, .f32⟩ : BufTy).Contents (Elt F) → (⟨S100000x256, .f32⟩ : BufTy).Contents (Elt F)) ]
/-- The same operations as the module-local functions' bodies spell them: the builders over typed references. -/
abbrev t03 : List (HloOp τ sig (Elt F)) :=
  [ StableHlo.unary main_arg3 main_v14 ((transpose S128x256 [1, 0] · transposes_S256x128_S128x256_1_0) : (⟨S256x128, .f32⟩ : BufTy).Contents (Elt F) → (⟨S128x256, .f32⟩ : BufTy).Contents (Elt F)),
    StableHlo.binary main_v13 main_v14 main_v15 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg4 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S100000x256 ![0, 1] bcast_S1x256_S100000x256_0_1 : (⟨S1x256, .f32⟩ : BufTy).Contents (Elt F) → (⟨S100000x256, .f32⟩ : BufTy).Contents (Elt F)),
    StableHlo.binary main_v15 main_v17 main_v18 (addf : (⟨S100000x256, .f32⟩ : BufTy).Contents (Elt F) → (⟨S100000x256, .f32⟩ : BufTy).Contents (Elt F) → (⟨S100000x256, .f32⟩ : BufTy).Contents (Elt F)),
    StableHlo.unary main_arg5 main_v19 ((transpose S128x256 [1, 0] · transposes_S256x128_S128x256_1_0) : (⟨S256x128, .f32⟩ : BufTy).Contents (Elt F) → (⟨S128x256, .f32⟩ : BufTy).Contents (Elt F)),
    StableHlo.binary main_arg0 main_v19 main_v20 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v18 main_v20 main_v21 (addf : (⟨S100000x256, .f32⟩ : BufTy).Contents (Elt F) → (⟨S100000x256, .f32⟩ : BufTy).Contents (Elt F) → (⟨S100000x256, .f32⟩ : BufTy).Contents (Elt F)),
    StableHlo.TRef.nullary main_call0.cst (constant S_ .f32 0x00000000#32),
    StableHlo.TRef.unary main_call0.cst main_call0.v0 (broadcastInDim S100000x256 ![] bcast_S_S100000x256),
    StableHlo.TRef.binary (.of main_v21 : StableHlo.TRef sig ⟨S100000x256, .f32⟩) main_call0.v0 main_call0.v1 maximumf ]
theorem t03_eq : (t03 : List (HloOp τ sig (Elt F))) = c03 := rfl
/-- The buffers piece c03 writes, in order. -/
abbrev c03_W : List (Ref sig .tc) := [main_v14, main_v15, main_v16, main_v17, main_v18, main_v19, main_v20, main_v21, main_call0.cst.ref, main_call0.v0.ref, main_call0.v1.ref]
theorem c03_sub : (c03 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub .., nullary_bufs_sub .., unary_bufs_sub .., binary_bufs_sub ..⟩
theorem c03_writes : (c03 : List (HloOp τ sig (Elt F))).Forall fun op => op.writes ⊆ (c03_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 29 … 41 of 200 (printed window main_part0). -/
abbrev c04 : List (HloOp τ sig (Elt F)) :=
  [ StableHlo.nullary main_c_1 (constantI S_ 32 0#32),
    StableHlo.unary main_c_1 main_v23 (broadcastInDim S400000 ![] bcast_S_S400000 : (⟨S_, .i32⟩ : BufTy).Contents (Elt F) → (⟨S400000, .i32⟩ : BufTy).Contents (Elt F)),
    StableHlo.binary main_v1 main_v23 main_v24 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 100000#32),
    StableHlo.unary main_c_2 main_v25 (broadcastInDim S400000 ![] bcast_S_S400000 : (⟨S_, .i32⟩ : BufTy).Contents (Elt F) → (⟨S400000, .i32⟩ : BufTy).Contents (Elt F)),
    StableHlo.binary main_v1 main_v25 main_v26 (addi : (⟨S400000, .i32⟩ : BufTy).Contents (Elt F) → (⟨S400000, .i32⟩ : BufTy).Contents (Elt F) → (⟨S400000, .i32⟩ : BufTy).Contents (Elt F)),
    StableHlo.ternary main_v24 main_v26 main_v1 main_v27 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v27 main_v28 (broadcastInDim S400000x1 ![0] bcast_S400000_S400000x1_0 : (⟨S400000, .i32⟩ : BufTy).Contents (Elt F) → (⟨S400000x1, .i32⟩ : BufTy).Contents (Elt F)),
    StableHlo.binary main_v22 main_v28 main_v29 ((fun x i => Host.gather gather_S100000x256_S400000x1_S400000x256_1_0_n_n_0_1_1256 x i) : (⟨S100000x256, .f32⟩ : BufTy).Contents (Elt F) → (⟨S400000x1, .i32⟩ : BufTy).Contents (Elt F) → (⟨S400000x256, .f32⟩ : BufTy).Contents (Elt F)),
    StableHlo.nullary main_cst_3 (constant S_ .f32 0x00000000#32),
    StableHlo.unary main_cst_3 main_v30 (broadcastInDim S100000x256 ![] bcast_S_S100000x256 : (⟨S_, .f32⟩ : BufTy).Contents (Elt F) → (⟨S100000x256, .f32⟩ : BufTy).Contents (Elt F)),
    StableHlo.unary main_v3 main_v31 (broadcastInDim S400000x1 ![0] bcast_S400000_S400000x1_0 : (⟨S400000, .i32⟩ : BufTy).Contents (Elt F) → (⟨S400000x1, .i32⟩ : BufTy).Contents (Elt F)),
    StableHlo.ternary main_v30 main_v31 main_v29 main_v32 ((fun x i u => Host.scatterAdd scatter_S100000x256_S400000x1_S400000x256_1_0_0_1 x i u) : (⟨S100000x256, .f32⟩ : BufTy).Contents (Elt F) → (⟨S400000x1, .i32⟩ : BufTy).Contents (Elt F) → (⟨S400000x256, .f32⟩ : BufTy).Contents (Elt F) → (⟨S100000x256, .f32⟩ : BufTy).Contents (Elt F)) ]
/-- The buffers piece c04 writes, in order. -/
abbrev c04_W : List (Ref sig .tc) := [main_c_1, main_v23, main_v24, main_c_2, main_v25, main_v26, main_v27, main_v28, main_v29, main_cst_3, main_v30, main_v31, main_v32]
theorem c04_sub : (c04 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem c04_writes : (c04 : List (HloOp τ sig (Elt F))).Forall fun op => op.writes ⊆ (c04_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 42 … 52 of 200 (printed window main_part0). -/
abbrev c05 : List (HloOp τ sig (Elt F)) :=
  [ StableHlo.unary main_arg6 main_v33 ((transpose S256x256 [1, 0] · transposes_S256x256_S256x256_1_0) : (⟨S256x256, .f32⟩ : BufTy).Contents (Elt F) → (⟨S256x256, .f32⟩ : BufTy).Contents (Elt F)),
    StableHlo.binary main_v32 main_v33 main_v34 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg7 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S100000x256 ![0, 1] bcast_S1x256_S100000x256_0_1 : (⟨S1x256, .f32⟩ : BufTy).Contents (Elt F) → (⟨S100000x256, .f32⟩ : BufTy).Contents (Elt F)),
    StableHlo.binary main_v34 main_v36 main_v37 (addf : (⟨S100000x256, .f32⟩ : BufTy).Contents (Elt F) → (⟨S100000x256, .f32⟩ : BufTy).Contents (Elt F) → (⟨S100000x256, .f32⟩ : BufTy).Contents (Elt F)),
    StableHlo.unary main_arg8 main_v38 ((transpose S256x256 [1, 0] · transposes_S256x256_S256x256_1_0) : (⟨S256x256, .f32⟩ : BufTy).Contents (Elt F) → (⟨S256x256, .f32⟩ : BufTy).Contents (Elt F)),
    StableHlo.binary main_v22 main_v38 main_v39 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v37 main_v39 main_v40 (addf : (⟨S100000x256, .f32⟩ : BufTy).Contents (Elt F) → (⟨S100000x256, .f32⟩ : BufTy).Contents (Elt F) → (⟨S100000x256, .f32⟩ : BufTy).Contents (Elt F)),
    StableHlo.nullary main_call1.cst.ref ((constant S_ .f32 0x00000000#32) : (⟨S_, .f32⟩ : BufTy).Contents (Elt F)),
    StableHlo.unary main_call1.cst.ref main_call1.v0.ref ((broadcastInDim S100000x256 ![] bcast_S_S100000x256) : (⟨S_, .f32⟩ : BufTy).Contents (Elt F) → (⟨S100000x256, .f32⟩ : BufTy).Contents (Elt F)),
    StableHlo.binary main_v40 main_call1.v0.ref main_call1.v1.ref (maximumf : (⟨S100000x256, .f32⟩ : BufTy).Contents (Elt F) → (⟨S100000x256, .f32⟩ : BufTy).Contents (Elt F) → (⟨S100000x256, .f32⟩ : BufTy).Contents (Elt F)) ]
/-- The same operations as the module-local functions' bodies spell them: the builders over typed references. -/
abbrev t05 : List (HloOp τ sig (Elt F)) :=
  [ StableHlo.unary main_arg6 main_v33 ((transpose S256x256 [1, 0] · transposes_S256x256_S256x256_1_0) : (⟨S256x256, .f32⟩ : BufTy).Contents (Elt F) → (⟨S256x256, .f32⟩ : BufTy).Contents (Elt F)),
    StableHlo.binary main_v32 main_v33 main_v34 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg7 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S100000x256 ![0, 1] bcast_S1x256_S100000x256_0_1 : (⟨S1x256, .f32⟩ : BufTy).Contents (Elt F) → (⟨S100000x256, .f32⟩ : BufTy).Contents (Elt F)),
    StableHlo.binary main_v34 main_v36 main_v37 (addf : (⟨S100000x256, .f32⟩ : BufTy).Contents (Elt F) → (⟨S100000x256, .f32⟩ : BufTy).Contents (Elt F) → (⟨S100000x256, .f32⟩ : BufTy).Contents (Elt F)),
    StableHlo.unary main_arg8 main_v38 ((transpose S256x256 [1, 0] · transposes_S256x256_S256x256_1_0) : (⟨S256x256, .f32⟩ : BufTy).Contents (Elt F) → (⟨S256x256, .f32⟩ : BufTy).Contents (Elt F)),
    StableHlo.binary main_v22 main_v38 main_v39 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v37 main_v39 main_v40 (addf : (⟨S100000x256, .f32⟩ : BufTy).Contents (Elt F) → (⟨S100000x256, .f32⟩ : BufTy).Contents (Elt F) → (⟨S100000x256, .f32⟩ : BufTy).Contents (Elt F)),
    StableHlo.TRef.nullary main_call1.cst (constant S_ .f32 0x00000000#32),
    StableHlo.TRef.unary main_call1.cst main_call1.v0 (broadcastInDim S100000x256 ![] bcast_S_S100000x256),
    StableHlo.TRef.binary (.of main_v40 : StableHlo.TRef sig ⟨S100000x256, .f32⟩) main_call1.v0 main_call1.v1 maximumf ]
theorem t05_eq : (t05 : List (HloOp τ sig (Elt F))) = c05 := rfl
/-- The buffers piece c05 writes, in order. -/
abbrev c05_W : List (Ref sig .tc) := [main_v33, main_v34, main_v35, main_v36, main_v37, main_v38, main_v39, main_v40, main_call1.cst.ref, main_call1.v0.ref, main_call1.v1.ref]
theorem c05_sub : (c05 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub .., nullary_bufs_sub .., unary_bufs_sub .., binary_bufs_sub ..⟩
theorem c05_writes : (c05 : List (HloOp τ sig (Elt F))).Forall fun op => op.writes ⊆ (c05_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 53 … 64 of 200 (printed window main_part0). -/
abbrev c06a : List (HloOp τ sig (Elt F)) :=
  [ StableHlo.nullary main_c_4 (constantI S_ 32 0#32),
    StableHlo.unary main_c_4 main_v42 (broadcastInDim S400000 ![] bcast_S_S400000 : (⟨S_, .i32⟩ : BufTy).Contents (Elt F) → (⟨S400000, .i32⟩ : BufTy).Contents (Elt F)),
    StableHlo.binary main_v1 main_v42 main_v43 (cmpi .slt : (⟨S400000, .i32⟩ : BufTy).Contents (Elt F) → (⟨S400000, .i32⟩ : BufTy).Contents (Elt F) → (⟨S400000, .i1⟩ : BufTy).Contents (Elt F)),
    StableHlo.nullary main_c_5 (constantI S_ 32 100000#32),
    StableHlo.unary main_c_5 main_v44 (broadcastInDim S400000 ![] bcast_S_S400000 : (⟨S_, .i32⟩ : BufTy).Contents (Elt F) → (⟨S400000, .i32⟩ : BufTy).Contents (Elt F)),
    StableHlo.binary main_v1 main_v44 main_v45 (addi : (⟨S400000, .i32⟩ : BufTy).Contents (Elt F) → (⟨S400000, .i32⟩ : BufTy).Contents (Elt F) → (⟨S400000, .i32⟩ : BufTy).Contents (Elt F)),
    StableHlo.ternary main_v43 main_v45 main_v1 main_v46 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v46 main_v47 (broadcastInDim S400000x1 ![0] bcast_S400000_S400000x1_0 : (⟨S400000, .i32⟩ : BufTy).Contents (Elt F) → (⟨S400000x1, .i32⟩ : BufTy).Contents (Elt F)),
    StableHlo.binary main_v41 main_v47 main_v48 ((fun x i => Host.gather gather_S100000x256_S400000x1_S400000x256_1_0_n_n_0_1_1256 x i) : (⟨S100000x256, .f32⟩ : BufTy).Contents (Elt F) → (⟨S400000x1, .i32⟩ : BufTy).Contents (Elt F) → (⟨S400000x256, .f32⟩ : BufTy).Contents (Elt F)),
    StableHlo.nullary main_cst_6 (constant S_ .f32 0x00000000#32),
    StableHlo.unary main_cst_6 main_v49 (broadcastInDim S100000x256 ![] bcast_S_S100000x256 : (⟨S_, .f32⟩ : BufTy).Contents (Elt F) → (⟨S100000x256, .f32⟩ : BufTy).Contents (Elt F)),
    StableHlo.unary main_v3 main_v50 (broadcastInDim S400000x1 ![0] bcast_S400000_S400000x1_0 : (⟨S400000, .i32⟩ : BufTy).Contents (Elt F) → (⟨S400000x1, .i32⟩ : BufTy).Contents (Elt F)) ]
/-- The buffers piece c06a writes, in order. -/
abbrev c06a_W : List (Ref sig .tc) := [main_c_4, main_v42, main_v43, main_c_5, main_v44, main_v45, main_v46, main_v47, main_v48, main_cst_6, main_v49, main_v50]
theorem c06a_sub : (c06a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩
theorem c06a_writes : (c06a : List (HloOp τ sig (Elt F))).Forall fun op => op.writes ⊆ (c06a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 65 … 65 of 200 (printed window main_part1). -/
abbrev c06b : List (HloOp τ sig (Elt F)) :=
  [ StableHlo.ternary main_v49 main_v50 main_v48 main_v51 ((fun x i u => Host.scatterAdd scatter_S100000x256_S400000x1_S400000x256_1_0_0_1 x i u) : (⟨S100000x256, .f32⟩ : BufTy).Contents (Elt F) → (⟨S400000x1, .i32⟩ : BufTy).Contents (Elt F) → (⟨S400000x256, .f32⟩ : BufTy).Contents (Elt F) → (⟨S100000x256, .f32⟩ : BufTy).Contents (Elt F)) ]
/-- The buffers piece c06b writes, in order. -/
abbrev c06b_W : List (Ref sig .tc) := [main_v51]
theorem c06b_sub : (c06b : List (HloOp τ sig (Elt F))).Forall fun op => op.bufs ⊆ tcRefs τ sig :=
  ternary_bufs_sub ..
theorem c06b_writes : (c06b : List (HloOp τ sig (Elt F))).Forall fun op => op.writes ⊆ (c06b_W.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))

/-- @main's operations 66 … 76 of 200 (printed window main_part1). -/
abbrev c07 : List (HloOp τ sig (Elt F)) :=
  [ StableHlo.unary main_arg9 main_v52 ((transpose S256x256 [1, 0] · transposes_S256x256_S256x256_1_0) : (⟨S256x256, .f32⟩ : BufTy).Contents (Elt F) → (⟨S256x256, .f32⟩ : BufTy).Contents (Elt F)),
    StableHlo.binary main_v51 main_v52 main_v53 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg10 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S100000x256 ![0, 1] bcast_S1x256_S100000x256_0_1 : (⟨S1x256, .f32⟩ : BufTy).Contents (Elt F) → (⟨S100000x256, .f32⟩ : BufTy).Contents (Elt F)),
    StableHlo.binary main_v53 main_v55 main_v56 (addf : (⟨S100000x256, .f32⟩ : BufTy).Contents (Elt F) → (⟨S100000x256, .f32⟩ : BufTy).Contents (Elt F) → (⟨S100000x256, .f32⟩ : BufTy).Contents (Elt F)),
    StableHlo.unary main_arg11 main_v57 ((transpose S256x256 [1, 0] · transposes_S256x256_S256x256_1_0) : (⟨S256x256, .f32⟩ : BufTy).Contents (Elt F) → (⟨S256x256, .f32⟩ : BufTy).Contents (Elt F)),
    StableHlo.binary main_v41 main_v57 main_v58 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v56 main_v58 main_v59 (addf : (⟨S100000x256, .f32⟩ : BufTy).Contents (Elt F) → (⟨S100000x256, .f32⟩ : BufTy).Contents (Elt F) → (⟨S100000x256, .f32⟩ : BufTy).Contents (Elt F)),
    StableHlo.nullary main_call2.cst.ref ((constant S_ .f32 0x00000000#32) : (⟨S_, .f32⟩ : BufTy).Contents (Elt F)),
    StableHlo.unary main_call2.cst.ref main_call2.v0.ref ((broadcastInDim S100000x256 ![] bcast_S_S100000x256) : (⟨S_, .f32⟩ : BufTy).Contents (Elt F) → (⟨S100000x256, .f32⟩ : BufTy).Contents (Elt F)),
    StableHlo.binary main_v59 main_call2.v0.ref main_call2.v1.ref (maximumf : (⟨S100000x256, .f32⟩ : BufTy).Contents (Elt F) → (⟨S100000x256, .f32⟩ : BufTy).Contents (Elt F) → (⟨S100000x256, .f32⟩ : BufTy).Contents (Elt F)) ]
/-- The same operations as the module-local functions' bodies spell them: the builders over typed references. -/
abbrev t07 : List (HloOp τ sig (Elt F)) :=
  [ StableHlo.unary main_arg9 main_v52 ((transpose S256x256 [1, 0] · transposes_S256x256_S256x256_1_0) : (⟨S256x256, .f32⟩ : BufTy).Contents (Elt F) → (⟨S256x256, .f32⟩ : BufTy).Contents (Elt F)),
    StableHlo.binary main_v51 main_v52 main_v53 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg10 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S100000x256 ![0, 1] bcast_S1x256_S100000x256_0_1 : (⟨S1x256, .f32⟩ : BufTy).Contents (Elt F) → (⟨S100000x256, .f32⟩ : BufTy).Contents (Elt F)),
    StableHlo.binary main_v53 main_v55 main_v56 (addf : (⟨S100000x256, .f32⟩ : BufTy).Contents (Elt F) → (⟨S100000x256, .f32⟩ : BufTy).Contents (Elt F) → (⟨S100000x256, .f32⟩ : BufTy).Contents (Elt F)),
    StableHlo.unary main_arg11 main_v57 ((transpose S256x256 [1, 0] · transposes_S256x256_S256x256_1_0) : (⟨S256x256, .f32⟩ : BufTy).Contents (Elt F) → (⟨S256x256, .f32⟩ : BufTy).Contents (Elt F)),
    StableHlo.binary main_v41 main_v57 main_v58 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v56 main_v58 main_v59 (addf : (⟨S100000x256, .f32⟩ : BufTy).Contents (Elt F) → (⟨S100000x256, .f32⟩ : BufTy).Contents (Elt F) → (⟨S100000x256, .f32⟩ : BufTy).Contents (Elt F)),
    StableHlo.TRef.nullary main_call2.cst (constant S_ .f32 0x00000000#32),
    StableHlo.TRef.unary main_call2.cst main_call2.v0 (broadcastInDim S100000x256 ![] bcast_S_S100000x256),
    StableHlo.TRef.binary (.of main_v59 : StableHlo.TRef sig ⟨S100000x256, .f32⟩) main_call2.v0 main_call2.v1 maximumf ]
theorem t07_eq : (t07 : List (HloOp τ sig (Elt F))) = c07 := rfl
/-- The buffers piece c07 writes, in order. -/
abbrev c07_W : List (Ref sig .tc) := [main_v52, main_v53, main_v54, main_v55, main_v56, main_v57, main_v58, main_v59, main_call2.cst.ref, main_call2.v0.ref, main_call2.v1.ref]
theorem c07_sub : (c07 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub .., nullary_bufs_sub .., unary_bufs_sub .., binary_bufs_sub ..⟩
theorem c07_writes : (c07 : List (HloOp τ sig (Elt F))).Forall fun op => op.writes ⊆ (c07_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 77 … 85 of 200 (printed window main_part1). -/
abbrev c08 : List (HloOp τ sig (Elt F)) :=
  [ StableHlo.nullary main_cst_7 (constant S_ .f32 0x3F800000#32),
    StableHlo.unary main_cst_7 main_v61 (broadcastInDim S400000 ![] bcast_S_S400000 : (⟨S_, .f32⟩ : BufTy).Contents (Elt F) → (⟨S400000, .f32⟩ : BufTy).Contents (Elt F)),
    StableHlo.nullary main_cst_8 (constant S_ .f32 0x00000000#32),
    StableHlo.unary main_cst_8 main_v62 (broadcastInDim S100000 ![] bcast_S_S100000 : (⟨S_, .f32⟩ : BufTy).Contents (Elt F) → (⟨S100000, .f32⟩ : BufTy).Contents (Elt F)),
    StableHlo.unary main_v1 main_v63 (broadcastInDim S400000x1 ![0] bcast_S400000_S400000x1_0 : (⟨S400000, .i32⟩ : BufTy).Contents (Elt F) → (⟨S400000x1, .i32⟩ : BufTy).Contents (Elt F)),
    StableHlo.ternary main_v62 main_v63 main_v61 main_v64 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_9 (constant S_ .f32 0x40000000#32),
    StableHlo.unary main_cst_9 main_v65 (broadcastInDim S100000 ![] bcast_S_S100000 : (⟨S_, .f32⟩ : BufTy).Contents (Elt F) → (⟨S100000, .f32⟩ : BufTy).Contents (Elt F)),
    StableHlo.binary main_v64 main_v65 main_v66 (cmpf .ogt : (⟨S100000, .f32⟩ : BufTy).Contents (Elt F) → (⟨S100000, .f32⟩ : BufTy).Contents (Elt F) → (⟨S100000, .i1⟩ : BufTy).Contents (Elt F)) ]
/-- The buffers piece c08 writes, in order. -/
abbrev c08_W : List (Ref sig .tc) := [main_cst_7, main_v61, main_cst_8, main_v62, main_v63, main_v64, main_cst_9, main_v65, main_v66]
theorem c08_sub : (c08 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub ..⟩
theorem c08_writes : (c08 : List (HloOp τ sig (Elt F))).Forall fun op => op.writes ⊆ (c08_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 86 … 89 of 200 (printed window main_part1). -/
abbrev c09a : List (HloOp τ sig (Elt F)) :=
  [ StableHlo.unary main_v66 main_call3.v0.ref ((extui 32 · natLt_1_32) : (⟨S100000, .i1⟩ : BufTy).Contents (Elt F) → (⟨S100000, .i32⟩ : BufTy).Contents (Elt F)),
    StableHlo.nullary main_call3.call0.c.ref ((constantI S_ 32 0#32) : (⟨S_, .i32⟩ : BufTy).Contents (Elt F)),
    StableHlo.unary main_call3.call0.c.ref main_call3.call0.v0.ref ((broadcastInDim S_ ![] bcast_S_S_) : (⟨S_, .i32⟩ : BufTy).Contents (Elt F) → (⟨S_, .i32⟩ : BufTy).Contents (Elt F)),
    StableHlo.binary main_call3.v0.ref main_call3.call0.v0.ref main_call3.call0.v1.ref ((fun x v => Host.reduceWindow IntOp.addi ![100000] ![1] ![99999] ![0] x v reduceWindows_S100000_S100000_w100000s1p99999_0 h_S_) : (⟨S100000, .i32⟩ : BufTy).Contents (Elt F) → (⟨S_, .i32⟩ : BufTy).Contents (Elt F) → (⟨S100000, .i32⟩ : BufTy).Contents (Elt F)) ]
/-- The same operations as the module-local functions' bodies spell them: the builders over typed references. -/
abbrev t09a : List (HloOp τ sig (Elt F)) :=
  [ StableHlo.TRef.unary (.of main_v66 : StableHlo.TRef sig ⟨S100000, .i1⟩) main_call3.v0 (extui 32 · natLt_1_32),
    StableHlo.TRef.nullary main_call3.call0.c (constantI S_ 32 0#32),
    StableHlo.TRef.unary main_call3.call0.c main_call3.call0.v0 (broadcastInDim S_ ![] bcast_S_S_),
    StableHlo.TRef.binary main_call3.v0 main_call3.call0.v0 main_call3.call0.v1 (fun x v => Host.reduceWindow IntOp.addi ![100000] ![1] ![99999] ![0] x v reduceWindows_S100000_S100000_w100000s1p99999_0 h_S_) ]
theorem t09a_eq : (t09a : List (HloOp τ sig (Elt F))) = c09a := rfl
/-- The buffers piece c09a writes, in order. -/
abbrev c09a_W : List (Ref sig .tc) := [main_call3.v0.ref, main_call3.call0.c.ref, main_call3.call0.v0.ref, main_call3.call0.v1.ref]
theorem c09a_sub : (c09a : List (HloOp τ sig (Elt F))).Forall fun op => op.bufs ⊆ tcRefs τ sig :=
  ⟨unary_bufs_sub .., nullary_bufs_sub .., unary_bufs_sub .., binary_bufs_sub ..⟩
theorem c09a_writes : (c09a : List (HloOp τ sig (Elt F))).Forall fun op => op.writes ⊆ (c09a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 90 … 95 of 200 (printed window main_part1). -/
abbrev c09b : List (HloOp τ sig (Elt F)) :=
  [ StableHlo.nullary main_c_10 (constantI S_ 32 0#32),
    StableHlo.unary main_c_10 main_v68 (broadcastInDim S100000 ![] bcast_S_S100000 : (⟨S_, .i32⟩ : BufTy).Contents (Elt F) → (⟨S100000, .i32⟩ : BufTy).Contents (Elt F)),
    StableHlo.nullary main_c_11 (constantI S_ 32 0#32),
    StableHlo.unary main_c_11 main_call4.v0.ref (id : (⟨S_, .i32⟩ : BufTy).Contents (Elt F) → (⟨S_, .i32⟩ : BufTy).Contents (Elt F)),
    StableHlo.unary main_call4.v0.ref main_call4.v1.ref ((broadcastInDim S100000 ![] bcast_S_S100000) : (⟨S_, .i32⟩ : BufTy).Contents (Elt F) → (⟨S100000, .i32⟩ : BufTy).Contents (Elt F)),
    StableHlo.binary main_call4.v1.ref main_v67 main_call4.v2.ref (maxsi : (⟨S100000, .i32⟩ : BufTy).Contents (Elt F) → (⟨S100000, .i32⟩ : BufTy).Contents (Elt F) → (⟨S100000, .i32⟩ : BufTy).Contents (Elt F)) ]
/-- The same operations as the module-local functions' bodies spell them: the builders over typed references. -/
abbrev t09b : List (HloOp τ sig (Elt F)) :=
  [ StableHlo.nullary main_c_10 (constantI S_ 32 0#32),
    StableHlo.unary main_c_10 main_v68 (broadcastInDim S100000 ![] bcast_S_S100000 : (⟨S_, .i32⟩ : BufTy).Contents (Elt F) → (⟨S100000, .i32⟩ : BufTy).Contents (Elt F)),
    StableHlo.nullary main_c_11 (constantI S_ 32 0#32),
    StableHlo.TRef.unary (.of main_c_11 : StableHlo.TRef sig ⟨S_, .i32⟩) main_call4.v0 id,
    StableHlo.TRef.unary main_call4.v0 main_call4.v1 (broadcastInDim S100000 ![] bcast_S_S100000),
    StableHlo.TRef.binary main_call4.v1 (.of main_v67 : StableHlo.TRef sig ⟨S100000, .i32⟩) main_call4.v2 maxsi ]
theorem t09b_eq : (t09b : List (HloOp τ sig (Elt F))) = c09b := rfl
/-- The buffers piece c09b writes, in order. -/
abbrev c09b_W : List (Ref sig .tc) := [main_c_10, main_v68, main_c_11, main_call4.v0.ref, main_call4.v1.ref, main_call4.v2.ref]
theorem c09b_sub : (c09b : List (HloOp τ sig (Elt F))).Forall fun op => op.bufs ⊆ tcRefs τ sig :=
  ⟨nullary_bufs_sub .., unary_bufs_sub .., nullary_bufs_sub .., unary_bufs_sub .., unary_bufs_sub .., binary_bufs_sub ..⟩
theorem c09b_writes : (c09b : List (HloOp τ sig (Elt F))).Forall fun op => op.writes ⊆ (c09b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 96 … 106 of 200 (printed window main_part1). -/
abbrev c09c : List (HloOp τ sig (Elt F)) :=
  [ StableHlo.nullary main_c_12 (constantI S_ 32 0#32),
    StableHlo.unary main_c_12 main_v70 (broadcastInDim S100000 ![] bcast_S_S100000 : (⟨S_, .i32⟩ : BufTy).Contents (Elt F) → (⟨S100000, .i32⟩ : BufTy).Contents (Elt F)),
    StableHlo.binary main_v69 main_v70 main_v71 (cmpi .slt : (⟨S100000, .i32⟩ : BufTy).Contents (Elt F) → (⟨S100000, .i32⟩ : BufTy).Contents (Elt F) → (⟨S100000, .i1⟩ : BufTy).Contents (Elt F)),
    StableHlo.nullary main_c_13 (constantI S_ 32 100000#32),
    StableHlo.unary main_c_13 main_v72 (broadcastInDim S100000 ![] bcast_S_S100000 : (⟨S_, .i32⟩ : BufTy).Contents (Elt F) → (⟨S100000, .i32⟩ : BufTy).Contents (Elt F)),
    StableHlo.binary main_v69 main_v72 main_v73 (addi : (⟨S100000, .i32⟩ : BufTy).Contents (Elt F) → (⟨S100000, .i32⟩ : BufTy).Contents (Elt F) → (⟨S100000, .i32⟩ : BufTy).Contents (Elt F)),
    StableHlo.ternary main_v71 main_v73 main_v69 main_v74 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v74 main_v75 (broadcastInDim S100000x1 ![0] bcast_S100000_S100000x1_0 : (⟨S100000, .i32⟩ : BufTy).Contents (Elt F) → (⟨S100000x1, .i32⟩ : BufTy).Contents (Elt F)),
    StableHlo.nullary main_c_14 (constantI S_ 32 1#32),
    StableHlo.unary main_c_14 main_v76 (broadcastInDim S100000 ![] bcast_S_S100000 : (⟨S_, .i32⟩ : BufTy).Contents (Elt F) → (⟨S100000, .i32⟩ : BufTy).Contents (Elt F)),
    StableHlo.ternary main_v68 main_v75 main_v76 main_v77 ((fun x i u => Host.scatter scatter_S100000_S100000x1_S100000_n_0_0_1 IntOp.addi x i u) : (⟨S100000, .i32⟩ : BufTy).Contents (Elt F) → (⟨S100000x1, .i32⟩ : BufTy).Contents (Elt F) → (⟨S100000, .i32⟩ : BufTy).Contents (Elt F) → (⟨S100000, .i32⟩ : BufTy).Contents (Elt F)) ]
/-- The buffers piece c09c writes, in order. -/
abbrev c09c_W : List (Ref sig .tc) := [main_c_12, main_v70, main_v71, main_c_13, main_v72, main_v73, main_v74, main_v75, main_c_14, main_v76, main_v77]
theorem c09c_sub : (c09c : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem c09c_writes : (c09c : List (HloOp τ sig (Elt F))).Forall fun op => op.writes ⊆ (c09c_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 107 … 109 of 200 (printed window main_part1). -/
abbrev c09d : List (HloOp τ sig (Elt F)) :=
  [ StableHlo.nullary main_call5.call0.c.ref ((constantI S_ 32 0#32) : (⟨S_, .i32⟩ : BufTy).Contents (Elt F)),
    StableHlo.unary main_call5.call0.c.ref main_call5.call0.v0.ref ((broadcastInDim S_ ![] bcast_S_S_) : (⟨S_, .i32⟩ : BufTy).Contents (Elt F) → (⟨S_, .i32⟩ : BufTy).Contents (Elt F)),
    StableHlo.binary main_v77 main_call5.call0.v0.ref main_call5.call0.v1.ref ((fun x v => Host.reduceWindow IntOp.addi ![100000] ![1] ![99999] ![0] x v reduceWindows_S100000_S100000_w100000s1p99999_0 h_S_) : (⟨S100000, .i32⟩ : BufTy).Contents (Elt F) → (⟨S_, .i32⟩ : BufTy).Contents (Elt F) → (⟨S100000, .i32⟩ : BufTy).Contents (Elt F)) ]
/-- The same operations as the module-local functions' bodies spell them: the builders over typed references. -/
abbrev t09d : List (HloOp τ sig (Elt F)) :=
  [ StableHlo.TRef.nullary main_call5.call0.c (constantI S_ 32 0#32),
    StableHlo.TRef.unary main_call5.call0.c main_call5.call0.v0 (broadcastInDim S_ ![] bcast_S_S_),
    StableHlo.TRef.binary (.of main_v77 : StableHlo.TRef sig ⟨S100000, .i32⟩) main_call5.call0.v0 main_call5.call0.v1 (fun x v => Host.reduceWindow IntOp.addi ![100000] ![1] ![99999] ![0] x v reduceWindows_S100000_S100000_w100000s1p99999_0 h_S_) ]
theorem t09d_eq : (t09d : List (HloOp τ sig (Elt F))) = c09d := rfl
/-- The buffers piece c09d writes, in order. -/
abbrev c09d_W : List (Ref sig .tc) := [main_call5.call0.c.ref, main_call5.call0.v0.ref, main_call5.call0.v1.ref]
theorem c09d_sub : (c09d : List (HloOp τ sig (Elt F))).Forall fun op => op.bufs ⊆ tcRefs τ sig :=
  ⟨nullary_bufs_sub .., unary_bufs_sub .., binary_bufs_sub ..⟩
theorem c09d_writes : (c09d : List (HloOp τ sig (Elt F))).Forall fun op => op.writes ⊆ (c09d_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 110 … 126 of 200 (printed window main_part1). -/
abbrev c09e : List (HloOp τ sig (Elt F)) :=
  [ StableHlo.nullary main_c_15 (constantI S_ 32 1#32),
    StableHlo.unary main_c_15 main_call6.v0.ref ((broadcastInDim S100000 ![] bcast_S_S100000) : (⟨S_, .i32⟩ : BufTy).Contents (Elt F) → (⟨S100000, .i32⟩ : BufTy).Contents (Elt F)),
    StableHlo.binary main_v78 main_call6.v0.ref main_call6.v1.ref (Host.divsi : (⟨S100000, .i32⟩ : BufTy).Contents (Elt F) → (⟨S100000, .i32⟩ : BufTy).Contents (Elt F) → (⟨S100000, .i32⟩ : BufTy).Contents (Elt F)),
    StableHlo.unary main_v78 main_call6.v2.ref (signi : (⟨S100000, .i32⟩ : BufTy).Contents (Elt F) → (⟨S100000, .i32⟩ : BufTy).Contents (Elt F)),
    StableHlo.unary main_c_15 main_call6.v3.ref (signi : (⟨S_, .i32⟩ : BufTy).Contents (Elt F) → (⟨S_, .i32⟩ : BufTy).Contents (Elt F)),
    StableHlo.unary main_call6.v3.ref main_call6.v4.ref ((broadcastInDim S100000 ![] bcast_S_S100000) : (⟨S_, .i32⟩ : BufTy).Contents (Elt F) → (⟨S100000, .i32⟩ : BufTy).Contents (Elt F)),
    StableHlo.binary main_call6.v2.ref main_call6.v4.ref main_call6.v5.ref ((cmpi .ne) : (⟨S100000, .i32⟩ : BufTy).Contents (Elt F) → (⟨S100000, .i32⟩ : BufTy).Contents (Elt F) → (⟨S100000, .i1⟩ : BufTy).Contents (Elt F)),
    StableHlo.unary main_c_15 main_call6.v6.ref ((broadcastInDim S100000 ![] bcast_S_S100000) : (⟨S_, .i32⟩ : BufTy).Contents (Elt F) → (⟨S100000, .i32⟩ : BufTy).Contents (Elt F)),
    StableHlo.binary main_v78 main_call6.v6.ref main_call6.v7.ref (Host.remsi : (⟨S100000, .i32⟩ : BufTy).Contents (Elt F) → (⟨S100000, .i32⟩ : BufTy).Contents (Elt F) → (⟨S100000, .i32⟩ : BufTy).Contents (Elt F)),
    StableHlo.nullary main_call6.c.ref ((constantI S_ 32 0#32) : (⟨S_, .i32⟩ : BufTy).Contents (Elt F)),
    StableHlo.unary main_call6.c.ref main_call6.v8.ref ((broadcastInDim S100000 ![] bcast_S_S100000) : (⟨S_, .i32⟩ : BufTy).Contents (Elt F) → (⟨S100000, .i32⟩ : BufTy).Contents (Elt F)),
    StableHlo.binary main_call6.v7.ref main_call6.v8.ref main_call6.v9.ref ((cmpi .ne) : (⟨S100000, .i32⟩ : BufTy).Contents (Elt F) → (⟨S100000, .i32⟩ : BufTy).Contents (Elt F) → (⟨S100000, .i1⟩ : BufTy).Contents (Elt F)),
    StableHlo.binary main_call6.v5.ref main_call6.v9.ref main_call6.v10.ref (andi : (⟨S100000, .i1⟩ : BufTy).Contents (Elt F) → (⟨S100000, .i1⟩ : BufTy).Contents (Elt F) → (⟨S100000, .i1⟩ : BufTy).Contents (Elt F)),
    StableHlo.nullary main_call6.c_0.ref ((constantI S_ 32 1#32) : (⟨S_, .i32⟩ : BufTy).Contents (Elt F)),
    StableHlo.unary main_call6.c_0.ref main_call6.v11.ref ((broadcastInDim S100000 ![] bcast_S_S100000) : (⟨S_, .i32⟩ : BufTy).Contents (Elt F) → (⟨S100000, .i32⟩ : BufTy).Contents (Elt F)),
    StableHlo.binary main_call6.v1.ref main_call6.v11.ref main_call6.v12.ref (subi : (⟨S100000, .i32⟩ : BufTy).Contents (Elt F) → (⟨S100000, .i32⟩ : BufTy).Contents (Elt F) → (⟨S100000, .i32⟩ : BufTy).Contents (Elt F)),
    StableHlo.ternary main_call6.v10.ref main_call6.v12.ref main_call6.v1.ref main_call6.call0.v0.ref (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ]
/-- The same operations as the module-local functions' bodies spell them: the builders over typed references. -/
abbrev t09e : List (HloOp τ sig (Elt F)) :=
  [ StableHlo.nullary main_c_15 (constantI S_ 32 1#32),
    StableHlo.TRef.unary (.of main_c_15 : StableHlo.TRef sig ⟨S_, .i32⟩) main_call6.v0 (broadcastInDim S100000 ![] bcast_S_S100000),
    StableHlo.TRef.binary (.of main_v78 : StableHlo.TRef sig ⟨S100000, .i32⟩) main_call6.v0 main_call6.v1 Host.divsi,
    StableHlo.TRef.unary (.of main_v78 : StableHlo.TRef sig ⟨S100000, .i32⟩) main_call6.v2 signi,
    StableHlo.TRef.unary (.of main_c_15 : StableHlo.TRef sig ⟨S_, .i32⟩) main_call6.v3 signi,
    StableHlo.TRef.unary main_call6.v3 main_call6.v4 (broadcastInDim S100000 ![] bcast_S_S100000),
    StableHlo.TRef.binary main_call6.v2 main_call6.v4 main_call6.v5 (cmpi .ne),
    StableHlo.TRef.unary (.of main_c_15 : StableHlo.TRef sig ⟨S_, .i32⟩) main_call6.v6 (broadcastInDim S100000 ![] bcast_S_S100000),
    StableHlo.TRef.binary (.of main_v78 : StableHlo.TRef sig ⟨S100000, .i32⟩) main_call6.v6 main_call6.v7 Host.remsi,
    StableHlo.TRef.nullary main_call6.c (constantI S_ 32 0#32),
    StableHlo.TRef.unary main_call6.c main_call6.v8 (broadcastInDim S100000 ![] bcast_S_S100000),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S100000 ![] bcast_S_S100000),
    StableHlo.TRef.binary main_call6.v1 main_call6.v11 main_call6.v12 subi,
    StableHlo.TRef.ternary main_call6.v10 main_call6.v12 main_call6.v1 main_call6.call0.v0 select ]
theorem t09e_eq : (t09e : List (HloOp τ sig (Elt F))) = c09e := rfl
/-- The buffers piece c09e writes, in order. -/
abbrev c09e_W : List (Ref sig .tc) := [main_c_15, main_call6.v0.ref, main_call6.v1.ref, main_call6.v2.ref, main_call6.v3.ref, main_call6.v4.ref, main_call6.v5.ref, main_call6.v6.ref, main_call6.v7.ref, main_call6.c.ref, main_call6.v8.ref, main_call6.v9.ref, main_call6.v10.ref, main_call6.c_0.ref, main_call6.v11.ref, main_call6.v12.ref, main_call6.call0.v0.ref]
theorem c09e_sub : (c09e : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem c09e_writes : (c09e : List (HloOp τ sig (Elt F))).Forall fun op => op.writes ⊆ (c09e_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 127 … 148 of 200 (printed window main_part1). -/
abbrev c09f : List (HloOp τ sig (Elt F)) :=
  [ StableHlo.nullary main_c_16 (constantI S_ 32 100000#32),
    StableHlo.unary main_c_16 main_call7.v0.ref (id : (⟨S_, .i32⟩ : BufTy).Contents (Elt F) → (⟨S_, .i32⟩ : BufTy).Contents (Elt F)),
    StableHlo.nullary main_call7.c.ref ((constantI S_ 32 0#32) : (⟨S_, .i32⟩ : BufTy).Contents (Elt F)),
    StableHlo.binary main_call7.v0.ref main_call7.c.ref main_call7.v1.ref ((cmpi .eq) : (⟨S_, .i32⟩ : BufTy).Contents (Elt F) → (⟨S_, .i32⟩ : BufTy).Contents (Elt F) → (⟨S_, .i1⟩ : BufTy).Contents (Elt F)),
    StableHlo.nullary main_call7.c_0.ref ((constantI S_ 32 1#32) : (⟨S_, .i32⟩ : BufTy).Contents (Elt F)),
    StableHlo.ternary main_call7.v1.ref main_call7.c_0.ref main_call7.v0.ref main_call7.call0.v0.ref (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call7.call0.v0.ref main_call7.v3.ref ((broadcastInDim S100000 ![] bcast_S_S100000) : (⟨S_, .i32⟩ : BufTy).Contents (Elt F) → (⟨S100000, .i32⟩ : BufTy).Contents (Elt F)),
    StableHlo.binary main_v79 main_call7.v3.ref main_call7.v4.ref (Host.remsi : (⟨S100000, .i32⟩ : BufTy).Contents (Elt F) → (⟨S100000, .i32⟩ : BufTy).Contents (Elt F) → (⟨S100000, .i32⟩ : BufTy).Contents (Elt F)),
    StableHlo.nullary main_call7.c_1.ref ((constantI S_ 32 0#32) : (⟨S_, .i32⟩ : BufTy).Contents (Elt F)),
    StableHlo.unary main_call7.c_1.ref main_call7.v5.ref ((broadcastInDim S100000 ![] bcast_S_S100000) : (⟨S_, .i32⟩ : BufTy).Contents (Elt F) → (⟨S100000, .i32⟩ : BufTy).Contents (Elt F)),
    StableHlo.binary main_call7.v4.ref main_call7.v5.ref main_call7.v6.ref ((cmpi .ne) : (⟨S100000, .i32⟩ : BufTy).Contents (Elt F) → (⟨S100000, .i32⟩ : BufTy).Contents (Elt F) → (⟨S100000, .i1⟩ : BufTy).Contents (Elt F)),
    StableHlo.nullary main_call7.c_2.ref ((constantI S_ 32 0#32) : (⟨S_, .i32⟩ : BufTy).Contents (Elt F)),
    StableHlo.unary main_call7.c_2.ref main_call7.v7.ref ((broadcastInDim S100000 ![] bcast_S_S100000) : (⟨S_, .i32⟩ : BufTy).Contents (Elt F) → (⟨S100000, .i32⟩ : BufTy).Contents (Elt F)),
    StableHlo.binary main_call7.v4.ref main_call7.v7.ref main_call7.v8.ref ((cmpi .slt) : (⟨S100000, .i32⟩ : BufTy).Contents (Elt F) → (⟨S100000, .i32⟩ : BufTy).Contents (Elt F) → (⟨S100000, .i1⟩ : BufTy).Contents (Elt F)),
    StableHlo.nullary main_call7.c_3.ref ((constantI S_ 32 0#32) : (⟨S_, .i32⟩ : BufTy).Contents (Elt F)),
    StableHlo.binary main_call7.call0.v0.ref main_call7.c_3.ref main_call7.v9.ref ((cmpi .slt) : (⟨S_, .i32⟩ : BufTy).Contents (Elt F) → (⟨S_, .i32⟩ : BufTy).Contents (Elt F) → (⟨S_, .i1⟩ : BufTy).Contents (Elt F)),
    StableHlo.unary main_call7.v9.ref main_call7.v10.ref ((broadcastInDim S100000 ![] bcast_S_S100000) : (⟨S_, .i1⟩ : BufTy).Contents (Elt F) → (⟨S100000, .i1⟩ : BufTy).Contents (Elt F)),
    StableHlo.binary main_call7.v8.ref main_call7.v10.ref main_call7.v11.ref ((cmpi .ne) : (⟨S100000, .i1⟩ : BufTy).Contents (Elt F) → (⟨S100000, .i1⟩ : BufTy).Contents (Elt F) → (⟨S100000, .i1⟩ : BufTy).Contents (Elt F)),
    StableHlo.binary main_call7.v11.ref main_call7.v6.ref main_call7.v12.ref (andi : (⟨S100000, .i1⟩ : BufTy).Contents (Elt F) → (⟨S100000, .i1⟩ : BufTy).Contents (Elt F) → (⟨S100000, .i1⟩ : BufTy).Contents (Elt F)),
    StableHlo.unary main_call7.call0.v0.ref main_call7.v13.ref ((broadcastInDim S100000 ![] bcast_S_S100000) : (⟨S_, .i32⟩ : BufTy).Contents (Elt F) → (⟨S100000, .i32⟩ : BufTy).Contents (Elt F)),
    StableHlo.binary main_call7.v4.ref main_call7.v13.ref main_call7.v14.ref (addi : (⟨S100000, .i32⟩ : BufTy).Contents (Elt F) → (⟨S100000, .i32⟩ : BufTy).Contents (Elt F) → (⟨S100000, .i32⟩ : BufTy).Contents (Elt F)),
    StableHlo.ternary main_call7.v12.ref main_call7.v14.ref main_call7.v4.ref main_call7.v15.ref (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ]
/-- The same operations as the module-local functions' bodies spell them: the builders over typed references. -/
abbrev t09f : List (HloOp τ sig (Elt F)) :=
  [ StableHlo.nullary main_c_16 (constantI S_ 32 100000#32),
    StableHlo.TRef.unary (.of main_c_16 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S100000 ![] bcast_S_S100000),
    StableHlo.TRef.binary (.of main_v79 : StableHlo.TRef sig ⟨S100000, .i32⟩) main_call7.v3 main_call7.v4 Host.remsi,
    StableHlo.TRef.nullary main_call7.c_1 (constantI S_ 32 0#32),
    StableHlo.TRef.unary main_call7.c_1 main_call7.v5 (broadcastInDim S100000 ![] bcast_S_S100000),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S100000 ![] bcast_S_S100000),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S100000 ![] bcast_S_S100000),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S100000 ![] bcast_S_S100000),
    StableHlo.TRef.binary main_call7.v4 main_call7.v13 main_call7.v14 addi,
    StableHlo.TRef.ternary main_call7.v12 main_call7.v14 main_call7.v4 main_call7.v15 select ]
theorem t09f_eq : (t09f : List (HloOp τ sig (Elt F))) = c09f := rfl
/-- The buffers piece c09f writes, in order. -/
abbrev c09f_W : List (Ref sig .tc) := [main_c_16, main_call7.v0.ref, main_call7.c.ref, main_call7.v1.ref, main_call7.c_0.ref, main_call7.call0.v0.ref, main_call7.v3.ref, main_call7.v4.ref, main_call7.c_1.ref, main_call7.v5.ref, main_call7.v6.ref, main_call7.c_2.ref, main_call7.v7.ref, main_call7.v8.ref, main_call7.c_3.ref, main_call7.v9.ref, main_call7.v10.ref, main_call7.v11.ref, main_call7.v12.ref, main_call7.v13.ref, main_call7.v14.ref, main_call7.v15.ref]
theorem c09f_sub : (c09f : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem c09f_writes : (c09f : List (HloOp τ sig (Elt F))).Forall fun op => op.writes ⊆ (c09f_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 149 … 158 of 200 (printed window main_part1). -/
abbrev c09g : List (HloOp τ sig (Elt F)) :=
  [ StableHlo.nullary main_v81 (iotaInDim S100000 32 0),
    StableHlo.unary main_v66 main_v82 ((extui 32 · natLt_1_32) : (⟨S100000, .i1⟩ : BufTy).Contents (Elt F) → (⟨S100000, .i32⟩ : BufTy).Contents (Elt F)),
    StableHlo.nullary main_c_17 (constantI S_ 32 0#32),
    StableHlo.binary main_v82 main_c_17 main_v83 ((fun x v => Host.reduce IntOp.addi x v reducesTo_S100000_S_d0 h_S_) : (⟨S100000, .i32⟩ : BufTy).Contents (Elt F) → (⟨S_, .i32⟩ : BufTy).Contents (Elt F) → (⟨S_, .i32⟩ : BufTy).Contents (Elt F)),
    StableHlo.unary main_v83 main_v84 (broadcastInDim S100000 ![] bcast_S_S100000 : (⟨S_, .i32⟩ : BufTy).Contents (Elt F) → (⟨S100000, .i32⟩ : BufTy).Contents (Elt F)),
    StableHlo.binary main_v81 main_v84 main_v85 (cmpi .sge : (⟨S100000, .i32⟩ : BufTy).Contents (Elt F) → (⟨S100000, .i32⟩ : BufTy).Contents (Elt F) → (⟨S100000, .i1⟩ : BufTy).Contents (Elt F)),
    StableHlo.nullary main_c_18 (constantI S_ 32 0#32),
    StableHlo.unary main_c_18 main_call8.v0.ref (id : (⟨S_, .i32⟩ : BufTy).Contents (Elt F) → (⟨S_, .i32⟩ : BufTy).Contents (Elt F)),
    StableHlo.unary main_call8.v0.ref main_call8.v1.ref ((broadcastInDim S100000 ![] bcast_S_S100000) : (⟨S_, .i32⟩ : BufTy).Contents (Elt F) → (⟨S100000, .i32⟩ : BufTy).Contents (Elt F)),
    StableHlo.ternary main_v85 main_call8.v1.ref main_v80 main_call8.v2.ref (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ]
/-- The same operations as the module-local functions' bodies spell them: the builders over typed references. -/
abbrev t09g : List (HloOp τ sig (Elt F)) :=
  [ StableHlo.nullary main_v81 (iotaInDim S100000 32 0),
    StableHlo.unary main_v66 main_v82 ((extui 32 · natLt_1_32) : (⟨S100000, .i1⟩ : BufTy).Contents (Elt F) → (⟨S100000, .i32⟩ : BufTy).Contents (Elt F)),
    StableHlo.nullary main_c_17 (constantI S_ 32 0#32),
    StableHlo.binary main_v82 main_c_17 main_v83 ((fun x v => Host.reduce IntOp.addi x v reducesTo_S100000_S_d0 h_S_) : (⟨S100000, .i32⟩ : BufTy).Contents (Elt F) → (⟨S_, .i32⟩ : BufTy).Contents (Elt F) → (⟨S_, .i32⟩ : BufTy).Contents (Elt F)),
    StableHlo.unary main_v83 main_v84 (broadcastInDim S100000 ![] bcast_S_S100000 : (⟨S_, .i32⟩ : BufTy).Contents (Elt F) → (⟨S100000, .i32⟩ : BufTy).Contents (Elt F)),
    StableHlo.binary main_v81 main_v84 main_v85 (cmpi .sge : (⟨S100000, .i32⟩ : BufTy).Contents (Elt F) → (⟨S100000, .i32⟩ : BufTy).Contents (Elt F) → (⟨S100000, .i1⟩ : BufTy).Contents (Elt F)),
    StableHlo.nullary main_c_18 (constantI S_ 32 0#32),
    StableHlo.TRef.unary (.of main_c_18 : StableHlo.TRef sig ⟨S_, .i32⟩) main_call8.v0 id,
    StableHlo.TRef.unary main_call8.v0 main_call8.v1 (broadcastInDim S100000 ![] bcast_S_S100000),
    StableHlo.TRef.ternary (.of main_v85 : StableHlo.TRef sig ⟨S100000, .i1⟩) main_call8.v1 (.of main_v80 : StableHlo.TRef sig ⟨S100000, .i32⟩) main_call8.v2 select ]
theorem t09g_eq : (t09g : List (HloOp τ sig (Elt F))) = c09g := rfl
/-- The buffers piece c09g writes, in order. -/
abbrev c09g_W : List (Ref sig .tc) := [main_v81, main_v82, main_c_17, main_v83, main_v84, main_v85, main_c_18, main_call8.v0.ref, main_call8.v1.ref, main_call8.v2.ref]
theorem c09g_sub : (c09g : List (HloOp τ sig (Elt F))).Forall fun op => op.bufs ⊆ tcRefs τ sig :=
  ⟨nullary_bufs_sub .., unary_bufs_sub .., nullary_bufs_sub .., binary_bufs_sub .., unary_bufs_sub .., binary_bufs_sub .., nullary_bufs_sub .., unary_bufs_sub .., unary_bufs_sub .., ternary_bufs_sub ..⟩
theorem c09g_writes : (c09g : List (HloOp τ sig (Elt F))).Forall fun op => op.writes ⊆ (c09g_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 159 … 166 of 200 (printed window main_part1). -/
abbrev c10 : List (HloOp τ sig (Elt F)) :=
  [ StableHlo.nullary main_c_19 (constantI S_ 32 0#32),
    StableHlo.unary main_c_19 main_v87 (broadcastInDim S100000 ![] bcast_S_S100000 : (⟨S_, .i32⟩ : BufTy).Contents (Elt F) → (⟨S100000, .i32⟩ : BufTy).Contents (Elt F)),
    StableHlo.binary main_v86 main_v87 main_v88 (cmpi .slt : (⟨S100000, .i32⟩ : BufTy).Contents (Elt F) → (⟨S100000, .i32⟩ : BufTy).Contents (Elt F) → (⟨S100000, .i1⟩ : BufTy).Contents (Elt F)),
    StableHlo.nullary main_c_20 (constantI S_ 32 100000#32),
    StableHlo.unary main_c_20 main_v89 (broadcastInDim S100000 ![] bcast_S_S100000 : (⟨S_, .i32⟩ : BufTy).Contents (Elt F) → (⟨S100000, .i32⟩ : BufTy).Contents (Elt F)),
    StableHlo.binary main_v86 main_v89 main_v90 (addi : (⟨S100000, .i32⟩ : BufTy).Contents (Elt F) → (⟨S100000, .i32⟩ : BufTy).Contents (Elt F) → (⟨S100000, .i32⟩ : BufTy).Contents (Elt F)),
    StableHlo.ternary main_v88 main_v90 main_v86 main_v91 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v91 main_v92 (broadcastInDim S100000x1 ![0] bcast_S100000_S100000x1_0 : (⟨S100000, .i32⟩ : BufTy).Contents (Elt F) → (⟨S100000x1, .i32⟩ : BufTy).Contents (Elt F)) ]
/-- The buffers piece c10 writes, in order. -/
abbrev c10_W : List (Ref sig .tc) := [main_c_19, main_v87, main_v88, main_c_20, main_v89, main_v90, main_v91, main_v92]
theorem c10_sub : (c10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem c10_writes : (c10 : List (HloOp τ sig (Elt F))).Forall fun op => op.writes ⊆ (c10_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 167 … 170 of 200 (printed window main_part1). -/
abbrev c11 : List (HloOp τ sig (Elt F)) :=
  [ StableHlo.binary main_v60 main_v92 main_v93 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    StableHlo.reshape main_v93 main_v94 rfl shapeCasts_S100000x256_S50000x512,
    StableHlo.unary main_v94 main_v95 ((extractStridedSlice S50000x256 ![0, 0] · slices_S50000x512_S50000x256_0_0) : (⟨S50000x512, .f32⟩ : BufTy).Contents (Elt F) → (⟨S50000x256, .f32⟩ : BufTy).Contents (Elt F)),
    StableHlo.unary main_v94 main_v96 ((extractStridedSlice S50000x256 ![0, 256] · slices_S50000x512_S50000x256_0_256) : (⟨S50000x512, .f32⟩ : BufTy).Contents (Elt F) → (⟨S50000x256, .f32⟩ : BufTy).Contents (Elt F)) ]
/-- The buffers piece c11 writes, in order. -/
abbrev c11_W : List (Ref sig .tc) := [main_v93, main_v94, main_v95, main_v96]
theorem c11_sub : (c11 : List (HloOp τ sig (Elt F))).Forall fun op => op.bufs ⊆ tcRefs τ sig :=
  ⟨binary_bufs_sub .., reshape_bufs_sub .., unary_bufs_sub .., unary_bufs_sub ..⟩
theorem c11_writes : (c11 : List (HloOp τ sig (Elt F))).Forall fun op => op.writes ⊆ (c11_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 171 … 178 of 200 (printed window main_part2). -/
abbrev c12a : List (HloOp τ sig (Elt F)) :=
  [ StableHlo.unary main_arg12 main_v97 ((transpose S256x1 [1, 0] · transposes_S1x256_S256x1_1_0) : (⟨S1x256, .f32⟩ : BufTy).Contents (Elt F) → (⟨S256x1, .f32⟩ : BufTy).Contents (Elt F)),
    StableHlo.binary main_v95 main_v97 main_v98 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.unary main_arg13 main_v99 (broadcastInDim S1x1 ![1] bcast_S1_S1x1_1 : (⟨S1, .f32⟩ : BufTy).Contents (Elt F) → (⟨S1x1, .f32⟩ : BufTy).Contents (Elt F)),
    StableHlo.unary main_v99 main_v100 (broadcastInDim S50000x1 ![0, 1] bcast_S1x1_S50000x1_0_1 : (⟨S1x1, .f32⟩ : BufTy).Contents (Elt F) → (⟨S50000x1, .f32⟩ : BufTy).Contents (Elt F)),
    StableHlo.binary main_v98 main_v100 main_v101 (addf : (⟨S50000x1, .f32⟩ : BufTy).Contents (Elt F) → (⟨S50000x1, .f32⟩ : BufTy).Contents (Elt F) → (⟨S50000x1, .f32⟩ : BufTy).Contents (Elt F)),
    StableHlo.nullary main_call9.cst.ref ((constant S_ .f32 0x00000000#32) : (⟨S_, .f32⟩ : BufTy).Contents (Elt F)),
    StableHlo.unary main_call9.cst.ref main_call9.v0.ref ((broadcastInDim S50000x1 ![] bcast_S_S50000x1) : (⟨S_, .f32⟩ : BufTy).Contents (Elt F) → (⟨S50000x1, .f32⟩ : BufTy).Contents (Elt F)),
    StableHlo.binary main_v101 main_call9.v0.ref main_call9.v1.ref (maximumf : (⟨S50000x1, .f32⟩ : BufTy).Contents (Elt F) → (⟨S50000x1, .f32⟩ : BufTy).Contents (Elt F) → (⟨S50000x1, .f32⟩ : BufTy).Contents (Elt F)) ]
/-- The same operations as the module-local functions' bodies spell them: the builders over typed references. -/
abbrev t12a : List (HloOp τ sig (Elt F)) :=
  [ StableHlo.unary main_arg12 main_v97 ((transpose S256x1 [1, 0] · transposes_S1x256_S256x1_1_0) : (⟨S1x256, .f32⟩ : BufTy).Contents (Elt F) → (⟨S256x1, .f32⟩ : BufTy).Contents (Elt F)),
    StableHlo.binary main_v95 main_v97 main_v98 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.unary main_arg13 main_v99 (broadcastInDim S1x1 ![1] bcast_S1_S1x1_1 : (⟨S1, .f32⟩ : BufTy).Contents (Elt F) → (⟨S1x1, .f32⟩ : BufTy).Contents (Elt F)),
    StableHlo.unary main_v99 main_v100 (broadcastInDim S50000x1 ![0, 1] bcast_S1x1_S50000x1_0_1 : (⟨S1x1, .f32⟩ : BufTy).Contents (Elt F) → (⟨S50000x1, .f32⟩ : BufTy).Contents (Elt F)),
    StableHlo.binary main_v98 main_v100 main_v101 (addf : (⟨S50000x1, .f32⟩ : BufTy).Contents (Elt F) → (⟨S50000x1, .f32⟩ : BufTy).Contents (Elt F) → (⟨S50000x1, .f32⟩ : BufTy).Contents (Elt F)),
    StableHlo.TRef.nullary main_call9.cst (constant S_ .f32 0x00000000#32),
    StableHlo.TRef.unary main_call9.cst main_call9.v0 (broadcastInDim S50000x1 ![] bcast_S_S50000x1),
    StableHlo.TRef.binary (.of main_v101 : StableHlo.TRef sig ⟨S50000x1, .f32⟩) main_call9.v0 main_call9.v1 maximumf ]
theorem t12a_eq : (t12a : List (HloOp τ sig (Elt F))) = c12a := rfl
/-- The buffers piece c12a writes, in order. -/
abbrev c12a_W : List (Ref sig .tc) := [main_v97, main_v98, main_v99, main_v100, main_v101, main_call9.cst.ref, main_call9.v0.ref, main_call9.v1.ref]
theorem c12a_sub : (c12a : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
theorem c12a_writes : (c12a : List (HloOp τ sig (Elt F))).Forall fun op => op.writes ⊆ (c12a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 179 … 186 of 200 (printed window main_part2). -/
abbrev c12b : List (HloOp τ sig (Elt F)) :=
  [ StableHlo.unary main_arg14 main_v103 ((transpose S256x1 [1, 0] · transposes_S1x256_S256x1_1_0) : (⟨S1x256, .f32⟩ : BufTy).Contents (Elt F) → (⟨S256x1, .f32⟩ : BufTy).Contents (Elt F)),
    StableHlo.binary main_v96 main_v103 main_v104 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.unary main_arg15 main_v105 (broadcastInDim S1x1 ![1] bcast_S1_S1x1_1 : (⟨S1, .f32⟩ : BufTy).Contents (Elt F) → (⟨S1x1, .f32⟩ : BufTy).Contents (Elt F)),
    StableHlo.unary main_v105 main_v106 (broadcastInDim S50000x1 ![0, 1] bcast_S1x1_S50000x1_0_1 : (⟨S1x1, .f32⟩ : BufTy).Contents (Elt F) → (⟨S50000x1, .f32⟩ : BufTy).Contents (Elt F)),
    StableHlo.binary main_v104 main_v106 main_v107 (addf : (⟨S50000x1, .f32⟩ : BufTy).Contents (Elt F) → (⟨S50000x1, .f32⟩ : BufTy).Contents (Elt F) → (⟨S50000x1, .f32⟩ : BufTy).Contents (Elt F)),
    StableHlo.nullary main_call10.cst.ref ((constant S_ .f32 0x00000000#32) : (⟨S_, .f32⟩ : BufTy).Contents (Elt F)),
    StableHlo.unary main_call10.cst.ref main_call10.v0.ref ((broadcastInDim S50000x1 ![] bcast_S_S50000x1) : (⟨S_, .f32⟩ : BufTy).Contents (Elt F) → (⟨S50000x1, .f32⟩ : BufTy).Contents (Elt F)),
    StableHlo.binary main_v107 main_call10.v0.ref main_call10.v1.ref (maximumf : (⟨S50000x1, .f32⟩ : BufTy).Contents (Elt F) → (⟨S50000x1, .f32⟩ : BufTy).Contents (Elt F) → (⟨S50000x1, .f32⟩ : BufTy).Contents (Elt F)) ]
/-- The same operations as the module-local functions' bodies spell them: the builders over typed references. -/
abbrev t12b : List (HloOp τ sig (Elt F)) :=
  [ StableHlo.unary main_arg14 main_v103 ((transpose S256x1 [1, 0] · transposes_S1x256_S256x1_1_0) : (⟨S1x256, .f32⟩ : BufTy).Contents (Elt F) → (⟨S256x1, .f32⟩ : BufTy).Contents (Elt F)),
    StableHlo.binary main_v96 main_v103 main_v104 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.unary main_arg15 main_v105 (broadcastInDim S1x1 ![1] bcast_S1_S1x1_1 : (⟨S1, .f32⟩ : BufTy).Contents (Elt F) → (⟨S1x1, .f32⟩ : BufTy).Contents (Elt F)),
    StableHlo.unary main_v105 main_v106 (broadcastInDim S50000x1 ![0, 1] bcast_S1x1_S50000x1_0_1 : (⟨S1x1, .f32⟩ : BufTy).Contents (Elt F) → (⟨S50000x1, .f32⟩ : BufTy).Contents (Elt F)),
    StableHlo.binary main_v104 main_v106 main_v107 (addf : (⟨S50000x1, .f32⟩ : BufTy).Contents (Elt F) → (⟨S50000x1, .f32⟩ : BufTy).Contents (Elt F) → (⟨S50000x1, .f32⟩ : BufTy).Contents (Elt F)),
    StableHlo.TRef.nullary main_call10.cst (constant S_ .f32 0x00000000#32),
    StableHlo.TRef.unary main_call10.cst main_call10.v0 (broadcastInDim S50000x1 ![] bcast_S_S50000x1),
    StableHlo.TRef.binary (.of main_v107 : StableHlo.TRef sig ⟨S50000x1, .f32⟩) main_call10.v0 main_call10.v1 maximumf ]
theorem t12b_eq : (t12b : List (HloOp τ sig (Elt F))) = c12b := rfl
/-- The buffers piece c12b writes, in order. -/
abbrev c12b_W : List (Ref sig .tc) := [main_v103, main_v104, main_v105, main_v106, main_v107, main_call10.cst.ref, main_call10.v0.ref, main_call10.v1.ref]
theorem c12b_sub : (c12b : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
theorem c12b_writes : (c12b : List (HloOp τ sig (Elt F))).Forall fun op => op.writes ⊆ (c12b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's operations 187 … 200 of 200 (printed window main_part2). -/
abbrev c12c : List (HloOp τ sig (Elt F)) :=
  [ StableHlo.binary main_v102 main_v108 main_v109 ((fun a b => concatenate S50000x2 1 [⟨S50000x1, a⟩, ⟨S50000x1, b⟩] concatenates_S50000x1_S50000x1_S50000x2_d1) : (⟨S50000x1, .f32⟩ : BufTy).Contents (Elt F) → (⟨S50000x1, .f32⟩ : BufTy).Contents (Elt F) → (⟨S50000x2, .f32⟩ : BufTy).Contents (Elt F)),
    StableHlo.unary main_arg16 main_v110 ((transpose S2x1 [1, 0] · transposes_S1x2_S2x1_1_0) : (⟨S1x2, .f32⟩ : BufTy).Contents (Elt F) → (⟨S2x1, .f32⟩ : BufTy).Contents (Elt F)),
    StableHlo.binary main_v109 main_v110 main_v111 ((fun l r => Host.dotGeneral dot_S50000x2_S2x1_S50000x1_1_0_0_1_n_n none l r) : (⟨S50000x2, .f32⟩ : BufTy).Contents (Elt F) → (⟨S2x1, .f32⟩ : BufTy).Contents (Elt F) → (⟨S50000x1, .f32⟩ : BufTy).Contents (Elt F)),
    StableHlo.unary main_arg17 main_v112 (broadcastInDim S1x1 ![1] bcast_S1_S1x1_1 : (⟨S1, .f32⟩ : BufTy).Contents (Elt F) → (⟨S1x1, .f32⟩ : BufTy).Contents (Elt F)),
    StableHlo.unary main_v112 main_v113 (broadcastInDim S50000x1 ![0, 1] bcast_S1x1_S50000x1_0_1 : (⟨S1x1, .f32⟩ : BufTy).Contents (Elt F) → (⟨S50000x1, .f32⟩ : BufTy).Contents (Elt F)),
    StableHlo.binary main_v111 main_v113 main_v114 (addf : (⟨S50000x1, .f32⟩ : BufTy).Contents (Elt F) → (⟨S50000x1, .f32⟩ : BufTy).Contents (Elt F) → (⟨S50000x1, .f32⟩ : BufTy).Contents (Elt F)),
    StableHlo.unary main_v114 main_v115 (Host.negf : (⟨S50000x1, .f32⟩ : BufTy).Contents (Elt F) → (⟨S50000x1, .f32⟩ : BufTy).Contents (Elt F)),
    StableHlo.unary main_v115 main_v116 (Host.exp : (⟨S50000x1, .f32⟩ : BufTy).Contents (Elt F) → (⟨S50000x1, .f32⟩ : BufTy).Contents (Elt F)),
    StableHlo.nullary main_cst_21 (constant S_ .f32 0x3F800000#32),
    StableHlo.unary main_cst_21 main_v117 (broadcastInDim S50000x1 ![] bcast_S_S50000x1 : (⟨S_, .f32⟩ : BufTy).Contents (Elt F) → (⟨S50000x1, .f32⟩ : BufTy).Contents (Elt F)),
    StableHlo.binary main_v117 main_v116 main_v118 (addf : (⟨S50000x1, .f32⟩ : BufTy).Contents (Elt F) → (⟨S50000x1, .f32⟩ : BufTy).Contents (Elt F) → (⟨S50000x1, .f32⟩ : BufTy).Contents (Elt F)),
    StableHlo.nullary main_cst_22 (constant S_ .f32 0x3F800000#32),
    StableHlo.unary main_cst_22 main_v119 (broadcastInDim S50000x1 ![] bcast_S_S50000x1 : (⟨S_, .f32⟩ : BufTy).Contents (Elt F) → (⟨S50000x1, .f32⟩ : BufTy).Contents (Elt F)),
    StableHlo.binary main_v119 main_v118 main_v120 (Host.divf : (⟨S50000x1, .f32⟩ : BufTy).Contents (Elt F) → (⟨S50000x1, .f32⟩ : BufTy).Contents (Elt F) → (⟨S50000x1, .f32⟩ : BufTy).Contents (Elt F)) ]
/-- The buffers piece c12c writes, in order. -/
abbrev c12c_W : List (Ref sig .tc) := [main_v109, main_v110, main_v111, main_v112, main_v113, main_v114, main_v115, main_v116, main_cst_21, main_v117, main_v118, main_cst_22, main_v119, main_v120]
theorem c12c_sub : (c12c : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem c12c_writes : (c12c : List (HloOp τ sig (Elt F))).Forall fun op => op.writes ⊆ (c12c_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The printed window main_part0's operations. -/
abbrev ops0 : List (HloOp τ sig (Elt F)) := c01 ++ (c02 ++ (c03 ++ (c04 ++ (c05 ++ (c06a)))))
/-- The same with the module-local functions' operations over typed references. -/
abbrev ops0T : List (HloOp τ sig (Elt F)) := c01 ++ (c02 ++ (t03 ++ (c04 ++ (t05 ++ (c06a)))))
theorem ops0T_eq : (ops0T : List (HloOp τ sig (Elt F))) = ops0 := by
  simp only [ops0T, ops0, t03_eq, t05_eq]
/-- The printed window main_part1's operations. -/
abbrev ops1 : List (HloOp τ sig (Elt F)) := c06b ++ (c07 ++ (c08 ++ (c09a ++ (c09b ++ (c09c ++ (c09d ++ (c09e ++ (c09f ++ (c09g ++ (c10 ++ (c11)))))))))))
/-- The same with the module-local functions' operations over typed references. -/
abbrev ops1T : List (HloOp τ sig (Elt F)) := c06b ++ (t07 ++ (c08 ++ (t09a ++ (t09b ++ (c09c ++ (t09d ++ (t09e ++ (t09f ++ (t09g ++ (c10 ++ (c11)))))))))))
theorem ops1T_eq : (ops1T : List (HloOp τ sig (Elt F))) = ops1 := by
  simp only [ops1T, ops1, t07_eq, t09a_eq, t09b_eq, t09d_eq, t09e_eq, t09f_eq, t09g_eq]
/-- The printed window main_part2's operations. -/
abbrev ops2 : List (HloOp τ sig (Elt F)) := c12a ++ (c12b ++ (c12c))
/-- The same with the module-local functions' operations over typed references. -/
abbrev ops2T : List (HloOp τ sig (Elt F)) := t12a ++ (t12b ++ (c12c))
theorem ops2T_eq : (ops2T : List (HloOp τ sig (Elt F))) = ops2 := by
  simp only [ops2T, ops2, t12a_eq, t12b_eq]
/-- @main's 200 operations, in order. -/
abbrev ops : List (HloOp τ sig (Elt F)) := ops0 ++ (ops1 ++ (ops2))

set_option maxRecDepth 8192 in
theorem main_part0_eqT (c : Dev nD) : main_part0 (F := F) c = seq ops0T := rfl
theorem main_part0_eq (c : Dev nD) : main_part0 (F := F) c = seq ops0 := (main_part0_eqT c).trans (congrArg seq ops0T_eq)
set_option maxRecDepth 8192 in
theorem main_part1_eqT (c : Dev nD) : main_part1 (F := F) c = seq ops1T := rfl
theorem main_part1_eq (c : Dev nD) : main_part1 (F := F) c = seq ops1 := (main_part1_eqT c).trans (congrArg seq ops1T_eq)
set_option maxRecDepth 8192 in
theorem main_part2_eqT (c : Dev nD) : main_part2 (F := F) c = seq ops2T := rfl
theorem main_part2_eq (c : Dev nD) : main_part2 (F := F) c = seq ops2 := (main_part2_eqT c).trans (congrArg seq ops2T_eq)
set_option maxRecDepth 8192 in
/-- @main is the straight line of its operations: window by window, joined by `seq_append`. -/
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, ops0, ops1, ops2, List.mem_append, or_assoc] at h
    rcases h with h | h | h | h | h | h | h | h | h | h | h | h | h | h | h | h | h | h | h | h | h
    exacts [List.forall_iff_forall_mem.mp c01_sub op h,
      List.forall_iff_forall_mem.mp c02_sub op h,
      List.forall_iff_forall_mem.mp c03_sub op h,
      List.forall_iff_forall_mem.mp c04_sub op h,
      List.forall_iff_forall_mem.mp c05_sub op h,
      List.forall_iff_forall_mem.mp c06a_sub op h,
      List.forall_iff_forall_mem.mp c06b_sub op h,
      List.forall_iff_forall_mem.mp c07_sub op h,
      List.forall_iff_forall_mem.mp c08_sub op h,
      List.forall_iff_forall_mem.mp c09a_sub op h,
      List.forall_iff_forall_mem.mp c09b_sub op h,
      List.forall_iff_forall_mem.mp c09c_sub op h,
      List.forall_iff_forall_mem.mp c09d_sub op h,
      List.forall_iff_forall_mem.mp c09e_sub op h,
      List.forall_iff_forall_mem.mp c09f_sub op h,
      List.forall_iff_forall_mem.mp c09g_sub op h,
      List.forall_iff_forall_mem.mp c10_sub op h,
      List.forall_iff_forall_mem.mp c11_sub op h,
      List.forall_iff_forall_mem.mp c12a_sub op h,
      List.forall_iff_forall_mem.mp c12b_sub op h,
      List.forall_iff_forall_mem.mp c12c_sub op h]

end Cert.ReferenceIdeal.RefRun

end
-- ==== Proof.RefRun.lean ====
/- The reference program's run, read back: every weakly fair execution of @main terminates with its four results at the
   staged pure functions of the argument arrays (RefStages) and the arguments unchanged. The 200 operations are read
   piece by piece: `valK V0` is the device's contents after the pieces up to K from contents `V0`; a buffer a piece
   does not write keeps its contents through it, and the few buffers a later piece reads are each read off once, as
   the stage that computes them. -/
import proofs.«173128_j60224031425324_2_alg».proof.Proof.RefOps
import proofs.«173128_j60224031425324_2_alg».proof.Proof.RefStages
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

-- the host operations that fold or search over an operand's elements stay folded while a stage is compared with the
-- operations composed: no equation below looks inside one, and unfolding one walks the whole array
attribute [local irreducible] Host.reduceWindow Host.reduce Host.scatter Host.scatterAdd Host.gather

/-- Two one-column arrays side by side, as a function of the two: the head's concatenation with each operand a plain
    argument. -/
def catPair (a b : FVec F S50000x1 .f32) : FVec F S50000x2 .f32 :=
  concatenate S50000x2 1 [⟨S50000x1, a⟩, ⟨S50000x1, b⟩] concatenates_S50000x1_S50000x1_S50000x2_d1

theorem catPair_fold :
    ((fun a b => concatenate S50000x2 1 [⟨S50000x1, a⟩, ⟨S50000x1, b⟩] concatenates_S50000x1_S50000x1_S50000x2_d1) :
      (⟨S50000x1, .f32⟩ : BufTy).Contents (Elt F) → (⟨S50000x1, .f32⟩ : BufTy).Contents (Elt F) → (⟨S50000x2, .f32⟩ : BufTy).Contents (Elt F))
      = catPair := rfl

section Read

variable (V0 : Valuation τ sig (Elt F))

/-! ## The contents after each piece -/

def val1 : Valuation τ sig (Elt F) := after c01 V0
def val2 : Valuation τ sig (Elt F) := after c02 (val1 V0)
def val3 : Valuation τ sig (Elt F) := after c03 (val2 V0)
def val4 : Valuation τ sig (Elt F) := after c04 (val3 V0)
def val5 : Valuation τ sig (Elt F) := after c05 (val4 V0)
/-- After the third neighbourhood sum, whose operations the printed windows cut in two. -/
def val6 : Valuation τ sig (Elt F) := after c06b (after c06a (val5 V0))
def val7 : Valuation τ sig (Elt F) := after c07 (val6 V0)
def val8 : Valuation τ sig (Elt F) := after c08 (val7 V0)
def val9a : Valuation τ sig (Elt F) := after c09a (val8 V0)
def val9b : Valuation τ sig (Elt F) := after c09b (val9a V0)
def val9c : Valuation τ sig (Elt F) := after c09c (val9b V0)
def val9d : Valuation τ sig (Elt F) := after c09d (val9c V0)
def val9e : Valuation τ sig (Elt F) := after c09e (val9d V0)
def val9f : Valuation τ sig (Elt F) := after c09f (val9e V0)
def val9g : Valuation τ sig (Elt F) := after c09g (val9f V0)
def val10 : Valuation τ sig (Elt F) := after c10 (val9g V0)
def val11 : Valuation τ sig (Elt F) := after c11 (val10 V0)
def val12a : Valuation τ sig (Elt F) := after c12a (val11 V0)
def val12b : Valuation τ sig (Elt F) := after c12b (val12a V0)
def val12c : Valuation τ sig (Elt F) := after c12c (val12b V0)

/-- The whole line is the pieces in order. -/
theorem after_ops : after ops V0 = val12c V0 := by
  simp only [ops, ops0, ops1, ops2, after_append]
  rfl

/-! ## A buffer a piece does not write keeps its contents through it -/

theorem val1_keep (r : Ref sig .tc) (h : r ∉ c01_W) : val1 V0 (no_index (Proc.devRef .tc r)) = V0 (Proc.devRef .tc r) :=
  after_of_writes_sub c01 _ c01_writes h
theorem val2_keep (r : Ref sig .tc) (h : r ∉ c02_W) : val2 V0 (no_index (Proc.devRef .tc r)) = val1 V0 (Proc.devRef .tc r) :=
  after_of_writes_sub c02 _ c02_writes h
theorem val3_keep (r : Ref sig .tc) (h : r ∉ c03_W) : val3 V0 (no_index (Proc.devRef .tc r)) = val2 V0 (Proc.devRef .tc r) :=
  after_of_writes_sub c03 _ c03_writes h
theorem val4_keep (r : Ref sig .tc) (h : r ∉ c04_W) : val4 V0 (no_index (Proc.devRef .tc r)) = val3 V0 (Proc.devRef .tc r) :=
  after_of_writes_sub c04 _ c04_writes h
theorem val5_keep (r : Ref sig .tc) (h : r ∉ c05_W) : val5 V0 (no_index (Proc.devRef .tc r)) = val4 V0 (Proc.devRef .tc r) :=
  after_of_writes_sub c05 _ c05_writes h
theorem val6_keep (r : Ref sig .tc) (ha : r ∉ c06a_W) (hb : r ∉ c06b_W) : val6 V0 (no_index (Proc.devRef .tc r)) = val5 V0 (Proc.devRef .tc r) :=
  (after_of_writes_sub c06b _ c06b_writes hb).trans (after_of_writes_sub c06a _ c06a_writes ha)
theorem val7_keep (r : Ref sig .tc) (h : r ∉ c07_W) : val7 V0 (no_index (Proc.devRef .tc r)) = val6 V0 (Proc.devRef .tc r) :=
  after_of_writes_sub c07 _ c07_writes h
theorem val8_keep (r : Ref sig .tc) (h : r ∉ c08_W) : val8 V0 (no_index (Proc.devRef .tc r)) = val7 V0 (Proc.devRef .tc r) :=
  after_of_writes_sub c08 _ c08_writes h
theorem val9a_keep (r : Ref sig .tc) (h : r ∉ c09a_W) : val9a V0 (no_index (Proc.devRef .tc r)) = val8 V0 (Proc.devRef .tc r) :=
  after_of_writes_sub c09a _ c09a_writes h
theorem val9b_keep (r : Ref sig .tc) (h : r ∉ c09b_W) : val9b V0 (no_index (Proc.devRef .tc r)) = val9a V0 (Proc.devRef .tc r) :=
  after_of_writes_sub c09b _ c09b_writes h
theorem val9c_keep (r : Ref sig .tc) (h : r ∉ c09c_W) : val9c V0 (no_index (Proc.devRef .tc r)) = val9b V0 (Proc.devRef .tc r) :=
  after_of_writes_sub c09c _ c09c_writes h
theorem val9d_keep (r : Ref sig .tc) (h : r ∉ c09d_W) : val9d V0 (no_index (Proc.devRef .tc r)) = val9c V0 (Proc.devRef .tc r) :=
  after_of_writes_sub c09d _ c09d_writes h
theorem val9e_keep (r : Ref sig .tc) (h : r ∉ c09e_W) : val9e V0 (no_index (Proc.devRef .tc r)) = val9d V0 (Proc.devRef .tc r) :=
  after_of_writes_sub c09e _ c09e_writes h
theorem val9f_keep (r : Ref sig .tc) (h : r ∉ c09f_W) : val9f V0 (no_index (Proc.devRef .tc r)) = val9e V0 (Proc.devRef .tc r) :=
  after_of_writes_sub c09f _ c09f_writes h
theorem val9g_keep (r : Ref sig .tc) (h : r ∉ c09g_W) : val9g V0 (no_index (Proc.devRef .tc r)) = val9f V0 (Proc.devRef .tc r) :=
  after_of_writes_sub c09g _ c09g_writes h
theorem val10_keep (r : Ref sig .tc) (h : r ∉ c10_W) : val10 V0 (no_index (Proc.devRef .tc r)) = val9g V0 (Proc.devRef .tc r) :=
  after_of_writes_sub c10 _ c10_writes h
theorem val11_keep (r : Ref sig .tc) (h : r ∉ c11_W) : val11 V0 (no_index (Proc.devRef .tc r)) = val10 V0 (Proc.devRef .tc r) :=
  after_of_writes_sub c11 _ c11_writes h
theorem val12a_keep (r : Ref sig .tc) (h : r ∉ c12a_W) : val12a V0 (no_index (Proc.devRef .tc r)) = val11 V0 (Proc.devRef .tc r) :=
  after_of_writes_sub c12a _ c12a_writes h
theorem val12b_keep (r : Ref sig .tc) (h : r ∉ c12b_W) : val12b V0 (no_index (Proc.devRef .tc r)) = val12a V0 (Proc.devRef .tc r) :=
  after_of_writes_sub c12b _ c12b_writes h
theorem val12c_keep (r : Ref sig .tc) (h : r ∉ c12c_W) : val12c V0 (no_index (Proc.devRef .tc r)) = val12b V0 (Proc.devRef .tc r) :=
  after_of_writes_sub c12c _ c12c_writes h

/-- A buffer no piece writes — an argument — ends as it started. -/
theorem after_ops_keep (r : Ref sig .tc)
    (h : r ∉ c01_W ++ (c02_W ++ (c03_W ++ (c04_W ++ (c05_W ++ (c06a_W ++ (c06b_W ++ (c07_W ++ (c08_W ++ (c09a_W ++ (c09b_W ++ (c09c_W ++ (c09d_W ++ (c09e_W ++ (c09f_W ++ (c09g_W ++ (c10_W ++ (c11_W ++ (c12a_W ++ (c12b_W ++ (c12c_W))))))))))))))))))))) :
    after ops V0 (Proc.devRef .tc r) = V0 (Proc.devRef .tc r) := by
  simp only [List.mem_append, not_or] at h
  obtain ⟨h1, h2, h3, h4, h5, h6a, h6b, h7, h8, h9a, h9b, h9c, h9d, h9e, h9f, h9g, h10, h11, h12a, h12b, h12c⟩ := h
  rw [after_ops, val12c_keep V0 r h12c, val12b_keep V0 r h12b, val12a_keep V0 r h12a, val11_keep V0 r h11, val10_keep V0 r h10, val9g_keep V0 r h9g, val9f_keep V0 r h9f, val9e_keep V0 r h9e, val9d_keep V0 r h9d, val9c_keep V0 r h9c, val9b_keep V0 r h9b, val9a_keep V0 r h9a, val8_keep V0 r h8, val7_keep V0 r h7, val6_keep V0 r h6a h6b, val5_keep V0 r h5, val4_keep V0 r h4, val3_keep V0 r h3, val2_keep V0 r h2, val1_keep V0 r h1]

/-! ## The stages over the contents at the start -/

/-- The layers' outputs, the degree mask, the stages of its nonzero positions, the kept rows and the head, over the
    arguments' contents in `V0`. -/
def h1V : FVec F S100000x256 .f32 := layer0 (V0 (Proc.devRef .tc main_arg0)) (V0 (Proc.devRef .tc main_arg1)) (V0 (Proc.devRef .tc main_arg3)) (V0 (Proc.devRef .tc main_arg4)) (V0 (Proc.devRef .tc main_arg5))
def h2V : FVec F S100000x256 .f32 := layer1 (h1V V0) (V0 (Proc.devRef .tc main_arg1)) (V0 (Proc.devRef .tc main_arg6)) (V0 (Proc.devRef .tc main_arg7)) (V0 (Proc.devRef .tc main_arg8))
def h3V : FVec F S100000x256 .f32 := layer1 (h2V V0) (V0 (Proc.devRef .tc main_arg1)) (V0 (Proc.devRef .tc main_arg9)) (V0 (Proc.devRef .tc main_arg10)) (V0 (Proc.devRef .tc main_arg11))
def maskV : IVec S100000 1 := maskOf (F := F) (V0 (Proc.devRef .tc main_arg1))
def n67V : IVec S100000 32 := Nonzero.cumsumMask (maskV V0)
def n69V : IVec S100000 32 := Nonzero.clip0 (n67V V0)
def n77V : IVec S100000 32 := Nonzero.bincount (Nonzero.wrap (n69V V0))
def n78V : IVec S100000 32 := Nonzero.cumsum0 (n77V V0)
def n79V : IVec S100000 32 := Nonzero.floorDiv1 (n78V V0)
def n80V : IVec S100000 32 := Nonzero.rem100000 (n79V V0)
def xsV : FVec F S50000x512 .f32 :=
  shapeCast S50000x512
    (Host.gather gather_S100000x256_S100000x1_S100000x256_1_0_n_n_0_1_1256 (h3V V0) (Nonzero.wrapCol (Nonzero.selOf (maskV V0))))
    shapeCasts_S100000x256_S50000x512
def x1V : FVec F S50000x256 .f32 := extractStridedSlice S50000x256 ![0, 0] (xsV V0) slices_S50000x512_S50000x256_0_0
def x2V : FVec F S50000x256 .f32 := extractStridedSlice S50000x256 ![0, 256] (xsV V0) slices_S50000x512_S50000x256_0_256
def yV : FVec F S50000x1 .f32 := headOf (x1V V0) (x2V V0) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))

/-! ## Each piece's live results, read off -/

set_option maxRecDepth 8192 in
theorem val1_v1 : val1 V0 (no_index (Proc.devRef .tc main_v1)) = srcOf (V0 (Proc.devRef .tc main_arg1)) := by
  unfold val1
  simp only [c01]
  after_results_simp
  rfl

set_option maxRecDepth 8192 in
theorem val1_v3 : val1 V0 (no_index (Proc.devRef .tc main_v3)) = dstOf (V0 (Proc.devRef .tc main_arg1)) := by
  unfold val1
  simp only [c01]
  after_results_simp
  rfl

set_option maxRecDepth 8192 in
theorem val2_v13 : val2 V0 (no_index (Proc.devRef .tc main_v13)) = aggOf128 (V0 (Proc.devRef .tc main_arg0)) (V0 (Proc.devRef .tc main_arg1)) := by
  unfold val2
  simp only [c02]
  after_results_simp
  simp (disch := decide) only [val1_v1, val1_v3, val1_keep]
  rfl

set_option maxRecDepth 8192 in
theorem val3_v22 : val3 V0 (no_index (Proc.devRef .tc main_v22)) = h1V V0 := by
  unfold val3
  simp only [c03]
  after_results_simp
  simp (disch := decide) only [val2_v13, val2_keep, val1_keep]
  rfl

set_option maxRecDepth 8192 in
theorem val4_v32 : val4 V0 (no_index (Proc.devRef .tc main_v32)) = aggOf256 (h1V V0) (V0 (Proc.devRef .tc main_arg1)) := by
  unfold val4
  simp only [c04]
  after_results_simp
  simp (disch := decide) only [val3_v22, val1_v1, val1_v3, val3_keep, val2_keep, val1_keep]
  rfl

set_option maxRecDepth 8192 in
theorem val5_v41 : val5 V0 (no_index (Proc.devRef .tc main_v41)) = h2V V0 := by
  unfold val5
  simp only [c05]
  after_results_simp
  simp (disch := decide) only [val4_v32, val3_v22, val4_keep, val3_keep, val2_keep, val1_keep]
  rfl

set_option maxRecDepth 8192 in
theorem val6_v51 : val6 V0 (no_index (Proc.devRef .tc main_v51)) = aggOf256 (h2V V0) (V0 (Proc.devRef .tc main_arg1)) := by
  unfold val6
  simp only [c06a, c06b]
  after_results_simp
  simp (disch := decide) only [val5_v41, val1_v1, val1_v3, val5_keep, val4_keep, val3_keep, val2_keep, val1_keep]
  rfl

set_option maxRecDepth 8192 in
theorem val7_v60 : val7 V0 (no_index (Proc.devRef .tc main_v60)) = h3V V0 := by
  unfold val7
  simp only [c07]
  after_results_simp
  simp (disch := decide) only [val6_v51, val5_v41, val6_keep, val5_keep, val4_keep, val3_keep, val2_keep, val1_keep]
  rfl

set_option maxRecDepth 8192 in
theorem val8_v66 : val8 V0 (no_index (Proc.devRef .tc main_v66)) = maskV V0 := by
  unfold val8
  simp only [c08]
  after_results_simp
  simp (disch := decide) only [val1_v1, val7_keep, val6_keep, val5_keep, val4_keep, val3_keep, val2_keep, val1_keep]
  rfl

set_option maxRecDepth 8192 in
theorem val9a_v67 : val9a V0 (no_index (Proc.devRef .tc main_v67)) = n67V V0 := by
  unfold val9a
  simp only [c09a]
  after_results_simp
  simp (disch := decide) only [val8_v66, val8_keep, val7_keep, val6_keep, val5_keep, val4_keep, val3_keep, val2_keep, val1_keep]
  rfl

set_option maxRecDepth 8192 in
theorem val9b_v68 : val9b V0 (no_index (Proc.devRef .tc main_v68)) = broadcastInDim S100000 ![] bcast_S_S100000 (constantI S_ 32 0#32) := by
  unfold val9b
  simp only [c09b]
  after_results_simp

set_option maxRecDepth 8192 in
theorem val9b_v69 : val9b V0 (no_index (Proc.devRef .tc main_v69)) = n69V V0 := by
  unfold val9b
  simp only [c09b]
  after_results_simp
  simp (disch := decide) only [val9a_v67, val9a_keep, val8_keep, val7_keep, val6_keep, val5_keep, val4_keep, val3_keep, val2_keep, val1_keep]
  rfl

set_option maxRecDepth 8192 in
theorem val9c_v77 : val9c V0 (no_index (Proc.devRef .tc main_v77)) = n77V V0 := by
  unfold val9c
  simp only [c09c]
  after_results_simp
  simp (disch := decide) only [val9b_v68, val9b_v69, val9b_keep, val9a_keep, val8_keep, val7_keep, val6_keep, val5_keep, val4_keep, val3_keep, val2_keep, val1_keep]
  rfl

set_option maxRecDepth 8192 in
theorem val9d_v78 : val9d V0 (no_index (Proc.devRef .tc main_v78)) = n78V V0 := by
  unfold val9d
  simp only [c09d]
  after_results_simp
  simp (disch := decide) only [val9c_v77, val9c_keep, val9b_keep, val9a_keep, val8_keep, val7_keep, val6_keep, val5_keep, val4_keep, val3_keep, val2_keep, val1_keep]
  rfl

set_option maxRecDepth 8192 in
theorem val9e_v79 : val9e V0 (no_index (Proc.devRef .tc main_v79)) = n79V V0 := by
  unfold val9e
  simp only [c09e]
  after_results_simp
  simp (disch := decide) only [val9d_v78, val9d_keep, val9c_keep, val9b_keep, val9a_keep, val8_keep, val7_keep, val6_keep, val5_keep, val4_keep, val3_keep, val2_keep, val1_keep]
  rfl

set_option maxRecDepth 8192 in
theorem val9f_v80 : val9f V0 (no_index (Proc.devRef .tc main_v80)) = n80V V0 := by
  unfold val9f
  simp only [c09f]
  after_results_simp
  simp (disch := decide) only [val9e_v79, val9e_keep, val9d_keep, val9c_keep, val9b_keep, val9a_keep, val8_keep, val7_keep, val6_keep, val5_keep, val4_keep, val3_keep, val2_keep, val1_keep]
  rfl

set_option maxRecDepth 8192 in
theorem val9g_v86 : val9g V0 (no_index (Proc.devRef .tc main_v86)) = Nonzero.selOf (maskV V0) := by
  unfold val9g
  simp only [c09g]
  after_results_simp
  simp (disch := decide) only [val9f_v80, val8_v66, val9f_keep, val9e_keep, val9d_keep, val9c_keep, val9b_keep, val9a_keep, val8_keep, val7_keep, val6_keep, val5_keep, val4_keep, val3_keep, val2_keep, val1_keep]
  rfl

set_option maxRecDepth 8192 in
theorem val10_v92 : val10 V0 (no_index (Proc.devRef .tc main_v92)) = Nonzero.wrapCol (Nonzero.selOf (maskV V0)) := by
  unfold val10
  simp only [c10]
  after_results_simp
  simp (disch := decide) only [val9g_v86, val9g_keep, val9f_keep, val9e_keep, val9d_keep, val9c_keep, val9b_keep, val9a_keep, val8_keep, val7_keep, val6_keep, val5_keep, val4_keep, val3_keep, val2_keep, val1_keep]
  rfl

set_option maxRecDepth 8192 in
theorem val11_v94 : val11 V0 (no_index (Proc.devRef .tc main_v94)) = xsV V0 := by
  unfold val11
  simp only [c11]
  after_results_simp
  simp (disch := decide) only [val10_v92, val7_v60, val10_keep, val9g_keep, val9f_keep, val9e_keep, val9d_keep, val9c_keep, val9b_keep, val9a_keep, val8_keep, val7_keep, val6_keep, val5_keep, val4_keep, val3_keep, val2_keep, val1_keep]
  rfl

set_option maxRecDepth 8192 in
theorem val11_v95 : val11 V0 (no_index (Proc.devRef .tc main_v95)) = x1V V0 := by
  unfold val11
  simp only [c11]
  after_results_simp
  simp (disch := decide) only [val10_v92, val7_v60, val10_keep, val9g_keep, val9f_keep, val9e_keep, val9d_keep, val9c_keep, val9b_keep, val9a_keep, val8_keep, val7_keep, val6_keep, val5_keep, val4_keep, val3_keep, val2_keep, val1_keep]
  rfl

set_option maxRecDepth 8192 in
theorem val11_v96 : val11 V0 (no_index (Proc.devRef .tc main_v96)) = x2V V0 := by
  unfold val11
  simp only [c11]
  after_results_simp
  simp (disch := decide) only [val10_v92, val7_v60, val10_keep, val9g_keep, val9f_keep, val9e_keep, val9d_keep, val9c_keep, val9b_keep, val9a_keep, val8_keep, val7_keep, val6_keep, val5_keep, val4_keep, val3_keep, val2_keep, val1_keep]
  rfl

set_option maxRecDepth 8192 in
theorem val12a_v102 : val12a V0 (no_index (Proc.devRef .tc main_v102)) = branchOf (x1V V0) (V0 (Proc.devRef .tc main_arg12)) (V0 (Proc.devRef .tc main_arg13)) := by
  unfold val12a
  simp only [c12a]
  after_results_simp
  simp (disch := decide) only [val11_v95, val11_keep, val10_keep, val9g_keep, val9f_keep, val9e_keep, val9d_keep, val9c_keep, val9b_keep, val9a_keep, val8_keep, val7_keep, val6_keep, val5_keep, val4_keep, val3_keep, val2_keep, val1_keep]
  rfl

set_option maxRecDepth 8192 in
theorem val12b_v108 : val12b V0 (no_index (Proc.devRef .tc main_v108)) = branchOf (x2V V0) (V0 (Proc.devRef .tc main_arg14)) (V0 (Proc.devRef .tc main_arg15)) := by
  unfold val12b
  simp only [c12b]
  after_results_simp
  simp (disch := decide) only [val11_v96, val12a_keep, val11_keep, val10_keep, val9g_keep, val9f_keep, val9e_keep, val9d_keep, val9c_keep, val9b_keep, val9a_keep, val8_keep, val7_keep, val6_keep, val5_keep, val4_keep, val3_keep, val2_keep, val1_keep]
  rfl

set_option maxRecDepth 8192 in
theorem val12c_v120 : val12c V0 (no_index (Proc.devRef .tc main_v120)) = yV V0 := by
  unfold val12c
  simp only [c12c, catPair_fold]
  after_results_simp
  simp (disch := decide) only [val12b_v108, val12a_v102, val12b_keep, val12a_keep, val11_keep, val10_keep, val9g_keep, val9f_keep, val9e_keep, val9d_keep, val9c_keep, val9b_keep, val9a_keep, val8_keep, val7_keep, val6_keep, val5_keep, val4_keep, val3_keep, val2_keep, val1_keep]
  rfl

/-! ## The results after the whole line -/

theorem after_ops_v120 : after ops V0 (Proc.devRef .tc main_v120) = yV V0 := by
  rw [after_ops]; exact val12c_v120 V0
theorem after_ops_v94 : after ops V0 (Proc.devRef .tc main_v94) = xsV V0 := by
  rw [after_ops, val12c_keep V0 main_v94 (by decide), val12b_keep V0 main_v94 (by decide), val12a_keep V0 main_v94 (by decide)]
  exact val11_v94 V0
theorem after_ops_v95 : after ops V0 (Proc.devRef .tc main_v95) = x1V V0 := by
  rw [after_ops, val12c_keep V0 main_v95 (by decide), val12b_keep V0 main_v95 (by decide), val12a_keep V0 main_v95 (by decide)]
  exact val11_v95 V0
theorem after_ops_v96 : after ops V0 (Proc.devRef .tc main_v96) = x2V V0 := by
  rw [after_ops, val12c_keep V0 main_v96 (by decide), val12b_keep V0 main_v96 (by decide), val12a_keep V0 main_v96 (by decide)]
  exact val11_v96 V0

end Read

/-! ## The run -/

/-- On every device, for any float values, from any memory with zero counters: every weakly fair execution of @main
    terminates with the four results at the staged functions of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v120) = resY m c
        ∧ r.2.mem ((c.tc : Thread nD τ).loc main_v94) = resXs m c
        ∧ r.2.mem ((c.tc : Thread nD τ).loc main_v95) = resX1 m c
        ∧ r.2.mem ((c.tc : Thread nD τ).loc main_v96) = resX2 m c)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)) :=
  (θ_run defs _ _).mono (fun _ h c =>
      ⟨⟨(h c main_v120).trans ((after_ops_v120 (launchContents m c)).trans rfl),
        (h c main_v94).trans ((after_ops_v94 (launchContents m c)).trans rfl),
        (h c main_v95).trans ((after_ops_v95 (launchContents m c)).trans rfl),
        (h c main_v96).trans ((after_ops_v96 (launchContents m c)).trans rfl)⟩,
       (h c main_arg0).trans (after_ops_keep (launchContents m c) main_arg0 (by decide)),
       (h c main_arg1).trans (after_ops_keep (launchContents m c) main_arg1 (by decide)),
       (h c main_arg2).trans (after_ops_keep (launchContents m c) main_arg2 (by decide)),
       (h c main_arg3).trans (after_ops_keep (launchContents m c) main_arg3 (by decide)),
       (h c main_arg4).trans (after_ops_keep (launchContents m c) main_arg4 (by decide)),
       (h c main_arg5).trans (after_ops_keep (launchContents m c) main_arg5 (by decide)),
       (h c main_arg6).trans (after_ops_keep (launchContents m c) main_arg6 (by decide)),
       (h c main_arg7).trans (after_ops_keep (launchContents m c) main_arg7 (by decide)),
       (h c main_arg8).trans (after_ops_keep (launchContents m c) main_arg8 (by decide)),
       (h c main_arg9).trans (after_ops_keep (launchContents m c) main_arg9 (by decide)),
       (h c main_arg10).trans (after_ops_keep (launchContents m c) main_arg10 (by decide)),
       (h c main_arg11).trans (after_ops_keep (launchContents m c) main_arg11 (by decide)),
       (h c main_arg12).trans (after_ops_keep (launchContents m c) main_arg12 (by decide)),
       (h c main_arg13).trans (after_ops_keep (launchContents m c) main_arg13 (by decide)),
       (h c main_arg14).trans (after_ops_keep (launchContents m c) main_arg14 (by decide)),
       (h c main_arg15).trans (after_ops_keep (launchContents m c) main_arg15 (by decide)),
       (h c main_arg16).trans (after_ops_keep (launchContents m c) main_arg16 (by decide)),
       (h c main_arg17).trans (after_ops_keep (launchContents m c) main_arg17 (by decide))⟩)
    (run_seq scopedRefs_eq scopedSems_eq defs main (fun _ => ops) main_eq (fun _ => ops_sub) m ρ)

/-- The same run, keeping only that the arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => (h c).2) (run m ρ)

end Cert.ReferenceIdeal.RefRun

end
-- ==== Proof.LibPrefixSum.lean ====
/-
  A running sum written as a padded window reduction.  `Host.reduceWindow IntOp.addi ![n] ![1] ![n-1] ![0] x v` over a
  rank-1 array of `n` 32-bit words, with a zero initial value, is at position `q` the sum of the words at positions
  `0 … q`, as a 32-bit word: the window of length `n` at result position `q` covers the padded positions
  `q … q + n - 1`, of which `k` lies inside the operand exactly when `n - 1 ≤ q + k`, and then reads the operand at
  `q + k - (n - 1)`.  The statement is over the natural numbers the words hold, modulo `2 ^ 32`.

  The file also holds the small general facts the proof goes through: a left fold of word additions is the initial
  word plus the list's sum (as values, modulo `2 ^ w`), and the indices of a
  rank-1 shape are its coordinates.
-/
import Idealize.ShloMosaic.PureOps.Contract
import Idealize.ShloMosaic.Lib.ValueIdx

open scoped BigOperators

namespace Cert.LibPrefixSum

open Idealize.ShloMosaic Idealize.ShloMosaic.ValueIdx

/-- A left fold of word additions holds the starting word's value plus the sum of the list's values, modulo `2 ^ w`. -/
theorem foldl_addi_toNat {ι : Type} {w : ℕ} (g : ι → BitVec w) (l : List ι) (v : BitVec w) :
    (l.foldl (fun r n => IntOp.addi r (g n)) v).toNat = (v.toNat + (l.map fun n => (g n).toNat).sum) % 2 ^ w := by
  induction l generalizing v with
  | nil => simp [Nat.mod_eq_of_lt v.isLt]
  | cons a l ih =>
    rw [List.foldl_cons, ih, List.map_cons, List.sum_cons]
    show ((v + g a).toNat + _) % 2 ^ w = _
    rw [BitVec.toNat_add, Nat.mod_add_mod, Nat.add_assoc]

/-- The indices of a rank-1 shape are its coordinates. -/
def idx1Equiv (n : ℕ) : Fin n ≃ (⟨1, ![n]⟩ : Shape).Idx where
  toFun := ix1
  invFun j := j 0
  left_inv _ := rfl
  right_inv j := (eq_ix1 j).symm

/-- A sum over the indices of a rank-1 shape is the sum over the coordinates. -/
theorem sum_idx1 {M : Type} [AddCommMonoid M] {n : ℕ} (f : (⟨1, ![n]⟩ : Shape).Idx → M) :
    ∑ j, f j = ∑ k : Fin n, f (ix1 k) :=
  ((idx1Equiv n).sum_comp f).symm

/-- A sum over the row-major positions of a shape is the sum over its indices. -/
theorem sum_rowMajor {M : Type} [AddCommMonoid M] (s : Shape) (f : s.Idx → M) :
    ∑ k : Fin s.numel, f (s.rowMajor.symm k) = ∑ j, f j :=
  s.rowMajor.symm.sum_comp f

/-- The positions of a window of length `n` at `q` that lie inside the operand, re-indexed by the operand position. -/
theorem sum_window (n q : ℕ) (hq : q < n) (f : ℕ → ℕ) :
    ∑ k ∈ Finset.range n, (if n - 1 ≤ q + k then f (q + k - (n - 1)) else 0) = ∑ q' ∈ Finset.range (q + 1), f q' := by
  rw [← Finset.sum_filter]
  apply Finset.sum_nbij' (fun k => q + k - (n - 1)) (fun q' => q' + (n - 1) - q)
  · intro k hk; simp only [Finset.mem_filter, Finset.mem_range] at hk ⊢; omega
  · intro q' hq'; simp only [Finset.mem_filter, Finset.mem_range] at hq' ⊢; omega
  · intro k hk; simp only [Finset.mem_filter, Finset.mem_range] at hk ⊢; omega
  · intro q' hq'; simp only [Finset.mem_filter, Finset.mem_range] at hq' ⊢; omega
  · intro k hk; rfl

/-- The word a window of length `n` at result position `q` reads at its position `j`: the operand at
    `q + j - (n - 1)` where that is inside, the zero word where it is padding. -/
def windowTerm (n : ℕ) (x : IVec ⟨1, ![n]⟩ 32) (q : Fin n) (j : (⟨1, ![n]⟩ : Shape).Idx) : BitVec 32 :=
  if hin : ∀ a : Fin 1, (![n - 1] : Fin 1 → ℕ) a ≤ (ix1 q (a.cast rfl)).val * (![1] : Fin 1 → ℕ) a + (j a).val ∧
      (ix1 q (a.cast rfl)).val * (![1] : Fin 1 → ℕ) a + (j a).val - (![n - 1] : Fin 1 → ℕ) a < (⟨1, ![n]⟩ : Shape).size a then
    x (fun a => ⟨(ix1 q (a.cast rfl)).val * (![1] : Fin 1 → ℕ) a + (j a).val - (![n - 1] : Fin 1 → ℕ) a, (hin a).2⟩)
  else 0#32

/-- The window's term at position `k`, by cases on whether that position is inside the operand. -/
theorem windowTerm_ix1 (n : ℕ) (x : IVec ⟨1, ![n]⟩ 32) (q k : Fin n) :
    windowTerm n x q (ix1 k)
      = if hc : n - 1 ≤ q.val + k.val then x (ix1 ⟨q.val + k.val - (n - 1), by have := q.isLt; have := k.isLt; omega⟩) else 0#32 := by
  unfold windowTerm
  have hiff : (∀ a : Fin 1, (![n - 1] : Fin 1 → ℕ) a ≤ (ix1 q (a.cast rfl)).val * (![1] : Fin 1 → ℕ) a + (ix1 k a).val ∧
      (ix1 q (a.cast rfl)).val * (![1] : Fin 1 → ℕ) a + (ix1 k a).val - (![n - 1] : Fin 1 → ℕ) a < (⟨1, ![n]⟩ : Shape).size a)
      ↔ n - 1 ≤ q.val + k.val := by
    rw [Fin.forall_fin_one]
    show (n - 1 ≤ q.val * 1 + k.val ∧ q.val * 1 + k.val - (n - 1) < n) ↔ _
    have := q.isLt; have := k.isLt
    constructor
    · intro h; omega
    · intro h; omega
  by_cases hc : n - 1 ≤ q.val + k.val
  · rw [dif_pos (hiff.2 hc), dif_pos hc]
    congr 1
    funext a
    match a with
    | ⟨0, _⟩ => exact Fin.ext (by show q.val * 1 + k.val - (n - 1) = q.val + k.val - (n - 1); omega)
  · rw [dif_neg (fun h => hc (hiff.1 h)), dif_neg hc]

/-- The running sum: a window reduction by addition, window `n`, stride one, padded `n - 1` low, of `n` words from a
    zero initial value holds at `q` the sum of the values at `0 … q` modulo `2 ^ 32`; `f` names the values. -/
theorem reduceWindow_cumsum_toNat (n : ℕ) (x : IVec ⟨1, ![n]⟩ 32) (v : IVec ⟨0, ![]⟩ 32)
    (h : (⟨1, ![n]⟩ : Shape).ReduceWindows ![n] ![1] ![n - 1] ![0] ⟨1, ![n]⟩) (hu : 0 < (⟨0, ![]⟩ : Shape).numel)
    (hv : v (Shape.Idx.first hu) = 0#32) (f : ℕ → ℕ) (hf : ∀ k : Fin n, (x (ix1 k)).toNat = f k.val) (q : Fin n) :
    (Host.reduceWindow IntOp.addi ![n] ![1] ![n - 1] ![0] x v h hu (ix1 q)).toNat
      = (∑ q' ∈ Finset.range (q.val + 1), f q') % 2 ^ 32 := by
  unfold Host.reduceWindow
  simp only
  rw [hv, foldl_addi_toNat, ← Fin.sum_univ_def]
  show ((0#32).toNat + ∑ i : Fin (⟨1, ![n]⟩ : Shape).numel, (windowTerm n x q ((⟨1, ![n]⟩ : Shape).rowMajor.symm i)).toNat) % 2 ^ 32 = _
  rw [sum_rowMajor (⟨1, ![n]⟩ : Shape) (fun j => (windowTerm n x q j).toNat), sum_idx1]
  have hterm : ∀ k : Fin n, (windowTerm n x q (ix1 k)).toNat = if n - 1 ≤ q.val + k.val then f (q.val + k.val - (n - 1)) else 0 := by
    intro k
    rw [windowTerm_ix1]
    by_cases hc : n - 1 ≤ q.val + k.val
    · rw [dif_pos hc, if_pos hc, hf]
    · rw [dif_neg hc, if_neg hc]; rfl
  rw [Finset.sum_congr rfl (fun k _ => hterm k)]
  rw [Fin.sum_univ_eq_sum_range (fun k => if n - 1 ≤ q.val + k then f (q.val + k - (n - 1)) else 0) n, sum_window n q.val q.isLt f]
  simp

end Cert.LibPrefixSum
-- ==== Proof.LibHistogram.lean ====
/-
  An integer scatter-add read at an index.  The host's scatter is a left fold over the update positions; with an
  addition as its combiner the order does not matter, and the result at an operand index `i` is the operand's entry plus
  the sum of the updates whose line lands at `i`.  With every update a one, into zeros, that is a histogram: the number
  of lines landing at `i`.
-/
import Idealize.ShloMosaic.PureOps
import Idealize.ShloMosaic.Lib.ValueIdx

noncomputable section

namespace Cert.LibHistogram

open Idealize.ShloMosaic

/-- The host's scatter with wrapping addition as its combiner, read at an operand index: the operand's entry plus the sum
    (in the words' wrapping arithmetic) of the updates of the lines that land there, in the scatter's own order.
    Generic in the three shapes, the dimension numbers, the index width and the word width. -/
theorem scatter_addi_apply {s si u : Shape} {w wv : Nat} (d : ScatterDims s si u) (x : s.Idx → BitVec wv) (idx : IVec si w)
    (upd : u.Idx → BitVec wv) (i : s.Idx) :
    Host.scatter d IntOp.addi x idx upd i
      = x i + (((List.finRange u.numel).filter fun n => d.resultIdx? (u.rowMajor.symm n) idx = some i).map
          fun n => upd (u.rowMajor.symm n)).sum := by
  unfold Host.scatter
  generalize List.finRange u.numel = L
  induction L generalizing x with
  | nil => simp
  | cons n L ih =>
    rw [List.foldl_cons, ih]
    cases h : d.resultIdx? (u.rowMajor.symm n) idx with
    | none =>
      have : ¬ ((none : Option s.Idx) = some i) := by simp
      simp only [List.filter_cons, h, this, decide_false, Bool.false_eq_true, if_false]
    | some i0 =>
      by_cases hi : i = i0
      · subst hi
        simp only [List.filter_cons, h, decide_true, if_true, List.map_cons, List.sum_cons]
        show IntOp.addi (x i) (upd (u.rowMajor.symm n)) + _ = _
        show (x i + upd (u.rowMajor.symm n)) + _ = _
        exact BitVec.add_assoc _ _ _
      · have : ¬ (some i0 = some i) := fun e => hi (Option.some.inj e).symm
        simp only [List.filter_cons, h, this, decide_false, Bool.false_eq_true, if_false, if_neg hi]

/-- A list of ones sums, in wrapping arithmetic, to the word of its length. -/
theorem sum_map_one {κ : Type} {wv : Nat} (L : List κ) : (L.map fun _ => (1#wv : BitVec wv)).sum = BitVec.ofNat wv L.length := by
  induction L with
  | nil => simp
  | cons a L ih =>
    rw [List.map_cons, List.sum_cons, ih, List.length_cons]
    apply BitVec.eq_of_toNat_eq
    simp [BitVec.toNat_add, BitVec.toNat_ofNat, Nat.add_comm]

end Cert.LibHistogram

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.NonzeroOnes.lean ====
/-
  `jnp.nonzero` of a mask whose every bit is set, and the gather at the rows it selects.

  With every one of the 100000 mask bits set:
    * the running count of the mask at position `q` is `q + 1` (as a 32-bit word: 100000 < 2 ^ 31, so nothing wraps and
      nothing is negative); the maximum with zero and the negative-index rule leave it alone;
    * the histogram of those positions has 0 at position 0 and 1 at each position `1 … 99999`: line `e` lands at
      `e + 1`, and the last line's position 100000 is outside the histogram and dropped;
    * the running count of the histogram at `q` is therefore `q`;
    * the floored quotient by one and the floored remainder by 100000 leave `q` alone: every sign-correcting branch is
      inactive on `0 ≤ q < 100000`;
    * the number of set bits is 100000, so the fill mask `position ≥ count` is nowhere set and the selection keeps `q`.
  So the selection is the list of all positions in order, the negative-index rule leaves it alone, and gathering the rows
  of a table at it returns the table.
-/
import proofs.«173128_j60224031425324_2_alg».proof.Proof.NonzeroSpec
import proofs.«173128_j60224031425324_2_alg».proof.Proof.LibPrefixSum
import proofs.«173128_j60224031425324_2_alg».proof.Proof.LibHistogram
import proofs.«173128_j60224031425324_2_alg».proof.Proof.LibRows

open scoped BigOperators

noncomputable section

namespace Cert.ReferenceIdeal.Nonzero

open Cert.ReferenceIdeal Idealize.ShloMosaic Idealize.ShloMosaic.ValueIdx
open Cert.ReferenceIdeal.Facts₀ Cert.ReferenceIdeal.Facts
open Cert.LibPrefixSum Cert.LibHistogram Cert.Lib.Rows

variable [Facts]

/-- Every bit set. -/
abbrev ones : IVec S100000 1 := fun _ => 1#1

theorem cumsum0_toNat (x : IVec S100000 32) (f : ℕ → ℕ) (hf : ∀ k : Fin 100000, (x (ix1 k)).toNat = f k.val) (q : Fin 100000) :
    (cumsum0 x (ix1 q)).toNat = (∑ q' ∈ Finset.range (q.val + 1), f q') % 2 ^ 32 :=
  reduceWindow_cumsum_toNat 100000 x (broadcastInDim S_ ![] bcast_S_S_ (constantI S_ 32 0#32))
    reduceWindows_S100000_S100000_w100000s1p99999_0 h_S_ rfl f hf q

theorem cumsumMask_ones (q : Fin 100000) : cumsumMask ones (ix1 q) = BitVec.ofNat 32 (q.val + 1) := by
  apply BitVec.eq_of_toNat_eq
  unfold cumsumMask
  rw [cumsum0_toNat _ (fun _ => 1) (fun k => rfl) q]
  have := q.isLt
  simp only [Finset.sum_const, Finset.card_range, smul_eq_mul, mul_one, BitVec.toNat_ofNat]

/-! ### Words that hold small naturals -/

/-- A natural below `2 ^ 31`, written as a 32-bit word and read back signed, is itself. -/
theorem toInt_ofNat_small (n : ℕ) (h : n < 2 ^ 31) : (BitVec.ofNat 32 n).toInt = (n : Int) := by
  rw [BitVec.toInt_eq_toNat_of_lt (by rw [BitVec.toNat_ofNat]; omega), BitVec.toNat_ofNat]
  have : n % 2 ^ 32 = n := Nat.mod_eq_of_lt (by omega)
  rw [this]

/-- The maximum of zero and a word that is not negative is that word. -/
theorem maxsi_zero_of_toInt (v : BitVec 32) (d : ℕ) (h : v.toInt = (d : Int)) : IntOp.maxsi 0#32 v = v := by
  have hlt : ¬ v.toInt < 0 := by rw [h]; omega
  simp [IntOp.maxsi, BitVec.slt, hlt]

theorem clip0_apply (x : IVec S100000 32) (i : S100000.Idx) : clip0 x i = IntOp.maxsi 0#32 (x i) := rfl

theorem wrap_apply (s : IVec S100000 32) (i : S100000.Idx) :
    wrap s i = Scalar.select (IntOp.cmpi .slt (s i) 0#32) (IntOp.addi (s i) 100000#32) (s i) := rfl

/-- The one-column matrix of a vector, read at row `e`. -/
theorem col_apply (c : IVec S100000 32) (e : Fin 100000) : col c (ix2 e (0 : Fin 1)) = c (ix1 e) := by
  unfold col broadcastInDim
  congr 1
  funext a
  match a with
  | ⟨0, _⟩ => rfl

/-- The length of a filtered list as a sum of zeros and ones. -/
theorem length_filter_eq_sum {κ : Type} (L : List κ) (p : κ → Bool) :
    (L.filter p).length = (L.map fun n => if p n then 1 else 0).sum := by
  induction L with
  | nil => rfl
  | cons a L ih =>
    by_cases h : p a
    · simp [List.filter_cons, h, ih]; omega
    · simp [List.filter_cons, h, ih]

/-- The histogram of the positions `e + 1`: nothing lands at 0, exactly one line (line `j - 1`) at each `j ≥ 1`, and
    the last line's position 100000 is outside and dropped. -/
theorem bincount_succ (c : IVec S100000 32) (hc : ∀ e : Fin 100000, (c (ix1 e)).toInt = ((e.val + 1 : ℕ) : Int)) (j : Fin 100000) :
    bincount c (ix1 j) = BitVec.ofNat 32 (if j.val = 0 then 0 else 1) := by
  unfold bincount
  rw [scatter_addi_apply]
  show 0#32 + (List.map (fun _ => 1#32) _).sum = _
  rw [sum_map_one, BitVec.zero_add]
  refine congrArg (BitVec.ofNat 32) ?_
  rw [length_filter_eq_sum, ← Fin.sum_univ_def]
  have hd : scatter_S100000_S100000x1_S100000_n_0_0_1
      = scatterEltsDims 100000 100000 scatter_S100000_S100000x1_S100000_n_0_0_1_wf := rfl
  rw [hd]
  have hp : ∀ e : Fin 100000,
      ((scatterEltsDims 100000 100000 scatter_S100000_S100000x1_S100000_n_0_0_1_wf).resultIdx? (ix1 e) (col c) = some (ix1 j))
        ↔ e.val + 1 = j.val := by
    intro e
    rw [scatterElts_resultIdx_iff, col_apply, hc]
    omega
  rw [sum_rowMajor S100000 (fun i => if decide ((scatterEltsDims 100000 100000 scatter_S100000_S100000x1_S100000_n_0_0_1_wf).resultIdx? i (col c)
      = some (ix1 j)) = true then 1 else 0), sum_idx1]
  simp only [decide_eq_true_eq, hp]
  by_cases hj : j.val = 0
  · rw [if_pos hj]
    apply Finset.sum_eq_zero
    intro e _
    rw [if_neg (by omega)]
  · rw [if_neg hj]
    have hj' := j.isLt
    rw [Finset.sum_eq_single (⟨j.val - 1, by omega⟩ : Fin 100000)]
    · rw [if_pos (by show j.val - 1 + 1 = j.val; omega)]
    · intro e _ hne
      rw [if_neg]
      intro he
      exact hne (Fin.ext (by show e.val = j.val - 1; omega))
    · intro h; exact absurd (Finset.mem_univ _) h

/-- Zeros and ones: position 0 contributes nothing, every later position one. -/
theorem sum_range_pos (q : ℕ) : ∑ q' ∈ Finset.range (q + 1), (if q' = 0 then 0 else 1) = q := by
  induction q with
  | zero => simp
  | succ n ih => rw [Finset.sum_range_succ, ih]; simp

/-- The running count of the histogram of the positions `e + 1` is, at `q`, `q` itself. -/
theorem cumsum0_bincount_succ (c : IVec S100000 32) (hc : ∀ e : Fin 100000, (c (ix1 e)).toInt = ((e.val + 1 : ℕ) : Int)) (q : Fin 100000) :
    cumsum0 (bincount c) (ix1 q) = BitVec.ofNat 32 q.val := by
  apply BitVec.eq_of_toNat_eq
  rw [cumsum0_toNat (bincount c) (fun k => if k = 0 then 0 else 1) ?_ q, sum_range_pos, BitVec.toNat_ofNat]
  intro k
  rw [bincount_succ c hc k]
  by_cases hk : k.val = 0
  · rw [if_pos hk]; rfl
  · rw [if_neg hk]; rfl

/-! ### The floored quotient and remainder on a row number -/

/-- A word below `2 ^ 31` has a clear sign bit. -/
theorem msb_of_lt (w : BitVec 32) (h : w.toNat < 2 ^ 31) : w.msb = false := by
  rw [BitVec.msb_eq_false_iff_two_mul_lt]; omega

theorem floorDiv1_apply (x : IVec S100000 32) (i : S100000.Idx) :
    floorDiv1 x i = Scalar.select
      (IntOp.andi
        (IntOp.cmpi .ne (if x i = 0 then (0 : BitVec 32) else if (x i).msb then -1 else 1)
          (if (1#32 : BitVec 32) = 0 then (0 : BitVec 32) else if (1#32 : BitVec 32).msb then -1 else 1))
        (IntOp.cmpi .ne (IntOp.remsi .host (x i) 1#32) 0#32))
      (IntOp.subi (IntOp.divsi .host (x i) 1#32) 1#32) (IntOp.divsi .host (x i) 1#32) := rfl

/-- Dividing a word that is not negative by one: the remainder is zero, so no correction is made, and the quotient
    is the word. -/
theorem floorDiv1_word (w : BitVec 32) (hw : w.msb = false) (c : BitVec 1) :
    Scalar.select (IntOp.andi c (IntOp.cmpi .ne (IntOp.remsi .host w 1#32) 0#32))
      (IntOp.subi (IntOp.divsi .host w 1#32) 1#32) (IntOp.divsi .host w 1#32) = w := by
  have hnc : ¬ IntOp.SDivCorner w 1#32 := by
    unfold IntOp.SDivCorner
    rintro (h | ⟨_, h⟩)
    · exact absurd h (by decide)
    · exact absurd h (by decide)
  have h1 : (1#32 : BitVec 32).msb = false := by decide
  have hr : IntOp.remsi .host w 1#32 = 0#32 := by
    unfold IntOp.remsi
    rw [if_neg hnc, BitVec.srem_eq, hw, h1]
    exact BitVec.umod_one
  have hd : IntOp.divsi .host w 1#32 = w := by
    unfold IntOp.divsi
    rw [if_neg hnc, BitVec.sdiv_eq, hw, h1]
    exact BitVec.udiv_one
  rw [hr, hd]
  have : IntOp.andi c (IntOp.cmpi .ne (0#32 : BitVec 32) 0#32) = 0#1 := by
    show c &&& _ = _
    have : IntOp.cmpi .ne (0#32 : BitVec 32) 0#32 = 0#1 := by decide
    rw [this, BitVec.and_zero]
  rw [this]
  exact select_zero _ _

/-- The divisor the floored remainder uses is 100000 itself: it is not zero. -/
theorem remDivisor_apply (j : S_.Idx) : remDivisor j = 100000#32 := by
  show Scalar.select (IntOp.cmpi .eq (100000#32 : BitVec 32) 0#32) 1#32 100000#32 = 100000#32
  have : IntOp.cmpi .eq (100000#32 : BitVec 32) 0#32 = 0#1 := by decide
  rw [this]
  exact select_zero _ _

theorem rem100000_apply (x : IVec S100000 32) (i : S100000.Idx) :
    rem100000 x i = Scalar.select
      (IntOp.andi
        (IntOp.cmpi .ne (IntOp.cmpi .slt (IntOp.remsi .host (x i) (remDivisor ix0)) 0#32) (IntOp.cmpi .slt (remDivisor ix0) 0#32))
        (IntOp.cmpi .ne (IntOp.remsi .host (x i) (remDivisor ix0)) 0#32))
      (IntOp.addi (IntOp.remsi .host (x i) (remDivisor ix0)) (remDivisor ix0)) (IntOp.remsi .host (x i) (remDivisor ix0)) := by
  have e : ∀ j : S_.Idx, j = ix0 := eq_ix0
  unfold rem100000
  simp only [select, andi, cmpi, addi, Host.remsi, broadcastInDim, constantI]
  congr 1 <;> simp only [e]

/-- The floored remainder by 100000 of a row number below 100000 is that number: the truncated remainder is the number,
    it is not negative, so no correction is made. -/
theorem rem100000_word (w : BitVec 32) (hw : w.toNat < 100000) :
    Scalar.select
      (IntOp.andi
        (IntOp.cmpi .ne (IntOp.cmpi .slt (IntOp.remsi .host w 100000#32) 0#32) (IntOp.cmpi .slt (100000#32 : BitVec 32) 0#32))
        (IntOp.cmpi .ne (IntOp.remsi .host w 100000#32) 0#32))
      (IntOp.addi (IntOp.remsi .host w 100000#32) 100000#32) (IntOp.remsi .host w 100000#32) = w := by
  have hmsb : w.msb = false := msb_of_lt w (by omega)
  have hnc : ¬ IntOp.SDivCorner w 100000#32 := by
    unfold IntOp.SDivCorner
    rintro (h | ⟨_, h⟩)
    · exact absurd h (by decide)
    · exact absurd h (by decide)
  have h1 : (100000#32 : BitVec 32).msb = false := by decide
  have hr : IntOp.remsi .host w 100000#32 = w := by
    unfold IntOp.remsi
    rw [if_neg hnc, BitVec.srem_eq, hmsb, h1]
    apply BitVec.eq_of_toNat_eq
    show (w % 100000#32).toNat = w.toNat
    rw [BitVec.toNat_umod]
    exact Nat.mod_eq_of_lt hw
  rw [hr]
  have h0 : IntOp.cmpi .slt w 0#32 = 0#1 := by
    have hlt : ¬ w.toInt < 0 := by
      rw [BitVec.toInt_eq_toNat_of_lt (by omega)]; omega
    simp [IntOp.cmpi, BitVec.slt, hlt]
  have h2 : IntOp.cmpi .slt (100000#32 : BitVec 32) 0#32 = 0#1 := by decide
  have h3 : IntOp.cmpi .ne (0#1 : BitVec 1) 0#1 = 0#1 := by decide
  rw [h0, h2, h3]
  show Scalar.select (0#1 &&& _) _ _ = _
  rw [BitVec.zero_and]
  exact select_zero _ _

/-! ### The number of set bits -/

/-- With every bit set the count is 100000. -/
theorem count_ones (j : S_.Idx) : count ones j = 100000#32 := by
  apply BitVec.eq_of_toNat_eq
  unfold count Host.reduce
  have hall : ((List.finRange S100000.numel).filter fun n =>
      decide ((reducesTo_S100000_S_d0 : S100000.ReducesTo [0] S_).drop (S100000.rowMajor.symm n) = j))
      = List.finRange S100000.numel := by
    apply List.filter_eq_self.mpr
    intro n _
    exact decide_eq_true ((eq_ix0 _).trans (eq_ix0 j).symm)
  rw [hall]
  rw [foldl_addi_toNat (fun n => extui 32 ones natLt_1_32 (S100000.rowMajor.symm n)) (List.finRange S100000.numel)
    (constantI S_ 32 0#32 (Shape.Idx.first h_S_))]
  have hone : (fun n : Fin S100000.numel => (extui 32 ones natLt_1_32 (S100000.rowMajor.symm n)).toNat) = fun _ => 1 := rfl
  rw [hone, List.map_const', List.sum_replicate, List.length_finRange, Shape.numel_rank1]
  rfl

/-! ### The selected rows when every bit is set -/

theorem selOf_apply (mask : IVec S100000 1) (i : S100000.Idx) :
    selOf mask i = Scalar.select (IntOp.cmpi .sge (BitVec.ofNat 32 (i 0).val) (count mask ix0)) 0#32
      (rem100000 (floorDiv1 (cumsum0 (bincount (wrap (clip0 (cumsumMask mask)))))) i) := by
  have e : ∀ j : S_.Idx, j = ix0 := eq_ix0
  unfold selOf
  simp only [select, cmpi, iotaInDim, broadcastInDim]
  congr 2

/-- With every bit set, position `q` of the selection holds `q`. -/
theorem selOf_ones_apply (q : Fin 100000) : selOf ones (ix1 q) = BitVec.ofNat 32 q.val := by
  have hq := q.isLt
  -- the clipped, wrapped running count of the mask at `e` is `e + 1`
  have hc : ∀ e : Fin 100000, (wrap (clip0 (cumsumMask ones)) (ix1 e)).toInt = ((e.val + 1 : ℕ) : Int) := by
    intro e
    have he := e.isLt
    have h1 : (cumsumMask ones (ix1 e)).toInt = ((e.val + 1 : ℕ) : Int) := by
      rw [cumsumMask_ones]; exact toInt_ofNat_small _ (by omega)
    have h2 : clip0 (cumsumMask ones) (ix1 e) = cumsumMask ones (ix1 e) := by
      rw [clip0_apply]; exact maxsi_zero_of_toInt _ _ h1
    rw [wrap_apply, h2, wrap_of_toInt _ _ _ h1]
    exact h1
  have h78 : cumsum0 (bincount (wrap (clip0 (cumsumMask ones)))) (ix1 q) = BitVec.ofNat 32 q.val :=
    cumsum0_bincount_succ _ hc q
  have hnat : (BitVec.ofNat 32 q.val).toNat = q.val := by
    rw [BitVec.toNat_ofNat]; exact Nat.mod_eq_of_lt (by omega)
  have h79 : floorDiv1 (cumsum0 (bincount (wrap (clip0 (cumsumMask ones))))) (ix1 q) = BitVec.ofNat 32 q.val := by
    rw [floorDiv1_apply, h78]
    exact floorDiv1_word _ (msb_of_lt _ (by rw [hnat]; omega)) _
  have h80 : rem100000 (floorDiv1 (cumsum0 (bincount (wrap (clip0 (cumsumMask ones)))))) (ix1 q) = BitVec.ofNat 32 q.val := by
    rw [rem100000_apply, h79, remDivisor_apply]
    exact rem100000_word _ (by rw [hnat]; exact hq)
  rw [selOf_apply, h80, count_ones]
  show Scalar.select (IntOp.cmpi .sge (BitVec.ofNat 32 q.val) 100000#32) 0#32 (BitVec.ofNat 32 q.val) = _
  have hge : IntOp.cmpi .sge (BitVec.ofNat 32 q.val) 100000#32 = 0#1 := by
    have hi : (BitVec.ofNat 32 q.val).toInt = (q.val : Int) := toInt_ofNat_small _ (by omega)
    have hD : (100000#32 : BitVec 32).toInt = 100000 := by decide
    have hle : ¬ (100000 : Int) ≤ (q.val : Int) := by omega
    simp [IntOp.cmpi, BitVec.sle, hi, hD, hle]
  rw [hge]
  exact select_zero _ _

/-- `jnp.nonzero` of an all-ones mask, sized to the mask's length, lists every position in order. -/
theorem selOf_ones : selOf (fun _ => 1#1) = iotaInDim S100000 32 0 := by
  funext i
  rw [eq_ix1 i]
  exact selOf_ones_apply (i 0)

/-! ### Gathering every row in order -/

theorem wrapCol_eq (s : IVec S100000 32) : wrapCol s = col (wrap s) := rfl

/-- `h[sel]` with `sel` the positions of an all-ones mask, read at row `e` and column `k`, is the table there. -/
theorem gather_sel_ones_apply {α : Type} (h : S100000x256.Idx → α) (e : Fin 100000) (k : Fin 256) :
    Host.gather gather_S100000x256_S100000x1_S100000x256_1_0_n_n_0_1_1256 h (wrapCol (selOf (fun _ => 1#1))) (ix2 e k)
      = h (ix2 e k) := by
  have hd : gather_S100000x256_S100000x1_S100000x256_1_0_n_n_0_1_1256
      = gatherRowsDims 100000 100000 256 gather_S100000x256_S100000x1_S100000x256_1_0_n_n_0_1_1256_wf := rfl
  rw [hd, gatherRows_apply (by omega : 0 < 100000)]
  have hlt := e.isLt
  have hv : (wrapCol (selOf (fun _ => 1#1)) (ix2 e (0 : Fin 1))).toInt = ((e.val : ℕ) : Int) := by
    have hs : selOf (fun _ => 1#1) (ix1 e) = BitVec.ofNat 32 e.val := selOf_ones_apply e
    have hi : (BitVec.ofNat 32 e.val).toInt = ((e.val : ℕ) : Int) := toInt_ofNat_small _ (by omega)
    rw [wrapCol_eq, col_apply, wrap_apply, hs, wrap_of_toInt _ _ _ hi]
    exact hi
  rw [rowOf_of_toInt (by omega : 0 < 100000) _ e hv]

/-- `h[sel]` with `sel` the positions of an all-ones mask is `h`: row `e` of the result is row `e` of the table. -/
theorem gather_sel_ones {α : Type} (h : S100000x256.Idx → α) :
    Host.gather gather_S100000x256_S100000x1_S100000x256_1_0_n_n_0_1_1256 h (wrapCol (selOf (fun _ => 1#1))) = h := by
  funext i
  rw [eq_ix2 (n0 := 100000) (n1 := 256) i]
  exact gather_sel_ones_apply h _ _

/-- The same for any mask whose every bit is set. -/
theorem selOf_of_all_set (mask : IVec S100000 1) (hm : ∀ i, mask i = 1#1) : selOf mask = iotaInDim S100000 32 0 := by
  have : mask = fun _ => 1#1 := funext hm
  rw [this]
  exact selOf_ones

/-- The same for any mask whose every bit is set. -/
theorem gather_sel_of_all_set {α : Type} (mask : IVec S100000 1) (hm : ∀ i, mask i = 1#1) (h : S100000x256.Idx → α) :
    Host.gather gather_S100000x256_S100000x1_S100000x256_1_0_n_n_0_1_1256 h (wrapCol (selOf mask)) = h := by
  have : mask = fun _ => 1#1 := funext hm
  rw [this]
  exact gather_sel_ones h

end Cert.ReferenceIdeal.Nonzero

end
-- ==== Proof.PreMask.lean ====
/-
  The statement's precondition, read back: its last conjunct says that every node's out-degree, counted in floats,
  exceeds 2 — that is, the reference's degree mask has every bit set.

  The precondition is a chain of conjunctions (a bitwise and of one-bit words); the last one joined is
  `all(segment_sum(ones, source nodes, 100000) > 2)`: a reduction by and, from the constant 1, of the comparison's
  bits. The conjunction being 1 makes its last conjunct 1, a reduction by and that came out 1 met only ones, and the
  comparison it ran over is, operation for operation, the reference's degree mask.
-/
import proofs.«173128_j60224031425324_2_alg».proof.Defs
import proofs.«173128_j60224031425324_2_alg».proof.Proof.RefStages
import Idealize.ShloMosaic.Lib.ReduceAll
import Idealize.ShloMosaic.Lib.ValueIdx

noncomputable section

namespace Cert.PreMask

open Idealize.ShloMosaic Idealize.SL.Sem

/-- A rank-zero shape has one index. -/
instance : Subsingleton Cert.Pre_finite_inputs.S_.Idx := ⟨fun _ _ => funext fun d => d.elim0⟩

/-- Under the precondition every bit of the reference's degree mask is set. -/
theorem mask_all_set [Cert.Pre_finite_inputs.Facts] [Cert.ReferenceIdeal.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, Cert.ReferenceIdeal.RefRun.maskOf (F := Ideal)
      (m ((c.tc : Thread Cert.ReferenceIdeal.nD Cert.ReferenceIdeal.τ).loc Cert.ReferenceIdeal.main_arg1)) i = 1#1 := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  have h1 := (IntOp.andi_eq_one.mp h0).2
  intro i
  exact Host.reduce_andi_all _ _ _ _ _ h1 i

end Cert.PreMask

end
-- ==== Proof.RefResults.lean ====
/-
  The reference's results under the precondition.

  The precondition is a predicate of the eighteen argument arrays alone, so it passes from the kernel's memory to any
  reference memory that agrees with it on the arguments. Under it every bit of the degree mask is set, the rows selected
  by the mask are all rows in order, and the gather at them returns the layers' output unchanged: the paired table is
  that output re-laid as 50000 rows of 512, its two halves are the column ranges 0 … 255 and 256 … 511 of the re-laid
  table, and the head runs on those.
-/
import proofs.«173128_j60224031425324_2_alg».proof.Defs
import proofs.«173128_j60224031425324_2_alg».proof.Proof.RefStages
import proofs.«173128_j60224031425324_2_alg».proof.Proof.NonzeroOnes
import proofs.«173128_j60224031425324_2_alg».proof.Proof.PreMask

noncomputable section

namespace Cert.RefResults

open Idealize.ShloMosaic Idealize.SL.Sem

/-- The precondition holds of a reference memory that agrees with the kernel's on the eighteen arguments. -/
theorem pre_transfer [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree :
      (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))) :
    Cert.Pre_ReferenceIdeal m' := by
  intro c
  have hc := hpre c
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  exact hc

section Results

open Cert.ReferenceIdeal Cert.ReferenceIdeal.RefRun
open Cert.ReferenceIdeal.Facts₀ Cert.ReferenceIdeal.Facts

variable [Cert.ReferenceIdeal.Facts] [Cert.Pre_finite_inputs.Facts]

/-- The paired table is the layers' output re-laid as 50000 rows of 512: every node is kept, in order. -/
theorem resXs_eq (m' : (ℓ : Loc nD τ sig) → Buf (Elt Ideal) ℓ) (h : Cert.Pre_ReferenceIdeal m') (c : Dev nD) :
    resXs (F := Ideal) m' c = shapeCast S50000x512 (resH (F := Ideal) m' c) shapeCasts_S100000x256_S50000x512 := by
  unfold resXs
  rw [Nonzero.gather_sel_of_all_set (maskOf (F := Ideal) (m' ((c.tc : Thread nD τ).loc main_arg1))) (Cert.PreMask.mask_all_set m' h c) (resH (F := Ideal) m' c)]

/-- The left halves of the paired rows. -/
theorem resX1_eq (m' : (ℓ : Loc nD τ sig) → Buf (Elt Ideal) ℓ) (h : Cert.Pre_ReferenceIdeal m') (c : Dev nD) :
    resX1 (F := Ideal) m' c = extractStridedSlice S50000x256 ![0, 0]
      (shapeCast S50000x512 (resH (F := Ideal) m' c) shapeCasts_S100000x256_S50000x512) slices_S50000x512_S50000x256_0_0 := by
  unfold resX1
  rw [resXs_eq m' h c]

/-- The right halves of the paired rows. -/
theorem resX2_eq (m' : (ℓ : Loc nD τ sig) → Buf (Elt Ideal) ℓ) (h : Cert.Pre_ReferenceIdeal m') (c : Dev nD) :
    resX2 (F := Ideal) m' c = extractStridedSlice S50000x256 ![0, 256]
      (shapeCast S50000x512 (resH (F := Ideal) m' c) shapeCasts_S100000x256_S50000x512) slices_S50000x512_S50000x256_0_256 := by
  unfold resX2
  rw [resXs_eq m' h c]

/-- The head's output, on the two halves of the re-laid layers' output. -/
theorem resY_eq (m' : (ℓ : Loc nD τ sig) → Buf (Elt Ideal) ℓ) (h : Cert.Pre_ReferenceIdeal m') (c : Dev nD) :
    resY (F := Ideal) m' c = headOf (F := Ideal)
      (extractStridedSlice S50000x256 ![0, 0] (shapeCast S50000x512 (resH (F := Ideal) m' c) shapeCasts_S100000x256_S50000x512) slices_S50000x512_S50000x256_0_0)
      (extractStridedSlice S50000x256 ![0, 256] (shapeCast S50000x512 (resH (F := Ideal) m' c) shapeCasts_S100000x256_S50000x512) slices_S50000x512_S50000x256_0_256)
      (m' ((c.tc : Thread nD τ).loc main_arg12)) (m' ((c.tc : Thread nD τ).loc main_arg13)) (m' ((c.tc : Thread nD τ).loc main_arg14))
      (m' ((c.tc : Thread nD τ).loc main_arg15)) (m' ((c.tc : Thread nD τ).loc main_arg16)) (m' ((c.tc : Thread nD τ).loc main_arg17)) := by
  unfold resY
  rw [resX1_eq m' h c, resX2_eq m' h c]

end Results

end Cert.RefResults

end
-- ==== Proof.lean ====
/-
  Kernel and reference compute the same four results on the extended reals.

  Both programs run three graph-convolution layers — aggregate the neighbours' rows (a gather by the source ends, a scatter-add
  into the target ends), multiply the aggregate and the table by two weights, add a bias, rectify — and then pair consecutive
  rows of the hidden table, push each half through a one-output linear map and the rectifier, combine the two outputs with two
  scalars and a bias, and apply the logistic function; the results are the head's output, the paired table and its two halves.

  The kernel program runs each layer's dense part and the head as grids of launches over bands of 2000 rows; a band's entry reads
  one row of its operands, the bands tile the tables, so each launch leaves the layer (the head) of the whole arrays it found
  (Proof/Region0 … Region3). Its host stretches spell the aggregate with the reference's own gather and scatter-add, through a
  narrower float format and back — the identity on the extended reals. Walking its eight boundaries back to the arguments
  (Proof/KernelWalk) gives its results as the reference's stages of the arguments, the bias added after the second product
  instead of before it: the same sum, addition being commutative and associative with no finiteness asked.

  The reference selects, before pairing, the rows of the nodes whose out-degree exceeds two, by position among the selected. The
  statement's precondition says every node's out-degree does; then the selection mask is all ones, the positions count
  0, 1, 2, … and the selection is the identity (Proof/PreMask, Proof/NonzeroOnes), so the reference pairs the hidden table itself
  (Proof/RefResults over the reference's run, Proof/RefRun).

  The three frames are the generated frame certificates of the two kernel programs and the reference's run with its results
  dropped; the idealization ledger is empty.
-/
import proofs.«173128_j60224031425324_2_alg».proof.Defs
import proofs.«173128_j60224031425324_2_alg».proof.Proof.Gen.Kernel
import proofs.«173128_j60224031425324_2_alg».proof.Proof.Gen.Kernel.Skeleton
import proofs.«173128_j60224031425324_2_alg».proof.Proof.GenP.Kernel.Launch
import proofs.«173128_j60224031425324_2_alg».proof.Proof.Gen.Kernel.Points
import proofs.«173128_j60224031425324_2_alg».proof.Proof.GenP.Kernel.Frame
import proofs.«173128_j60224031425324_2_alg».proof.Proof.Gen.KernelIdeal
import proofs.«173128_j60224031425324_2_alg».proof.Proof.Gen.KernelIdeal.Skeleton
import proofs.«173128_j60224031425324_2_alg».proof.Proof.GenP.KernelIdeal.Launch
import proofs.«173128_j60224031425324_2_alg».proof.Proof.Gen.KernelIdeal.Points
import proofs.«173128_j60224031425324_2_alg».proof.Proof.GenP.KernelIdeal.Frame
import proofs.«173128_j60224031425324_2_alg».proof.Proof.Gen.ReferenceIdeal
import proofs.«173128_j60224031425324_2_alg».proof.Proof.Gen.Pre_finite_inputs
import Idealize.ShloMosaic.Adequacy
import Idealize.ShloMosaic.Init
import proofs.«173128_j60224031425324_2_alg».proof.Proof.KernelWalk
import proofs.«173128_j60224031425324_2_alg».proof.Proof.RefRun
import proofs.«173128_j60224031425324_2_alg».proof.Proof.RefResults

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ => Cert.ReferenceIdeal.RefRun.frame (F := Ideal) m ρ

/-- From memories that agree on the arguments, under the precondition, both runs end with the head of the two halves of the
    paired hidden table, the paired table and its halves, as the same stages of the arguments. -/
theorem algebraic : Cert.algebraic_KernelIdeal_ReferenceIdeal := by
  intro m ρ m' ρ' hpre hagree
  have hpre' : Cert.Pre_ReferenceIdeal m' := Cert.RefResults.pre_transfer m m' hpre hagree
  refine ⟨Cert.KernelIdeal.Walk.specY m, Cert.KernelIdeal.Walk.specXs m, Cert.KernelIdeal.Walk.specX1 m, Cert.KernelIdeal.Walk.specX2 m, Cert.KernelIdeal.Walk.run m ρ, ?_⟩
  refine (θ_run Cert.ReferenceIdeal.defs _ _).mono (fun r h c => ?_) (Cert.ReferenceIdeal.RefRun.run (F := Ideal) m' ρ')
  obtain ⟨e0, e1, e2, e3, e4, e5, e6, e7, e8, e9, e10, e11, e12, e13, e14, e15, e16, e17⟩ := hagree c
  have hH : Cert.ReferenceIdeal.RefRun.resH (F := Ideal) m' c = Cert.KernelIdeal.Walk.specH m c := by
    unfold Cert.ReferenceIdeal.RefRun.resH Cert.KernelIdeal.Walk.specH
    rw [e0, e1, e3, e4, e5, e6, e7, e8, e9, e10, e11]
  refine ⟨(h c).1.1.trans ?_, (h c).1.2.1.trans ?_, (h c).1.2.2.1.trans ?_, (h c).1.2.2.2.trans ?_, (h c).2⟩
  · rw [Cert.RefResults.resY_eq m' hpre' c, hH, e12, e13, e14, e15, e16, e17]
    try rfl
  · rw [Cert.RefResults.resXs_eq m' hpre' c, hH]
    try rfl
  · rw [Cert.RefResults.resX1_eq m' hpre' c, hH]
    try rfl
  · rw [Cert.RefResults.resX2_eq m' hpre' c, hH]
    try rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
